-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x512 : Shape := ⟨2, ![32, 512]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel

variable [Facts]

def fn {F : FTy → Type} [FloatOps F] (main_arg0 : FVec F S32x512x1024 .f32) (main_arg1 : IVec S32x512 32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  main_v3
-- ==== Kernel.lean ====
abbrev S32x512x1024 : Shape := ⟨3, ![32, 512, 1024]⟩
abbrev S32x512 : Shape := ⟨2, ![32, 512]⟩
abbrev S512 : Shape := ⟨1, ![512]⟩
abbrev S_ : Shape := ⟨0, ![]⟩
abbrev S1x512 : Shape := ⟨2, ![1, 512]⟩
abbrev S32x512x1 : Shape := ⟨3, ![32, 512, 1]⟩
abbrev S1 : Shape := ⟨1, ![1]⟩
abbrev S1x1x1 : Shape := ⟨3, ![1, 1, 1]⟩
abbrev S32x511 : Shape := ⟨2, ![32, 511]⟩
abbrev S32x1x512 : Shape := ⟨3, ![32, 1, 512]⟩
abbrev S32x384x1024 : Shape := ⟨3, ![32, 384, 1024]⟩
abbrev S1x512x1024 : Shape := ⟨3, ![1, 512, 1024]⟩
abbrev S1x1x512 : Shape := ⟨3, ![1, 1, 512]⟩
abbrev S1x384x1024 : Shape := ⟨3, ![1, 384, 1024]⟩
abbrev S512x1024 : Shape := ⟨2, ![512, 1024]⟩
abbrev S512x512 : Shape := ⟨2, ![512, 512]⟩
abbrev S512x1 : Shape := ⟨2, ![512, 1]⟩
abbrev S384x512 : Shape := ⟨2, ![384, 512]⟩
abbrev S384x1024 : Shape := ⟨2, ![384, 1024]⟩
abbrev S32x32x12x1024 : Shape := ⟨4, ![32, 32, 12, 1024]⟩

abbrev nBuf : Space → Nat
  | .hbm => 93
  | .vmem => 12
  | .smem => 0
  | _ => 0

abbrev bufTy : (tb : Table) → Fin (tcTables nBuf tb) → BufTy
  | .hbm, ⟨0, _⟩ => ⟨S32x512x1024, .f32⟩
  | .hbm, ⟨1, _⟩ => ⟨S32x512, .i32⟩
  | .hbm, ⟨2, _⟩ => ⟨S512, .i32⟩
  | .hbm, ⟨3, _⟩ => ⟨S_, .i32⟩
  | .hbm, ⟨4, _⟩ => ⟨S32x512, .i32⟩
  | .hbm, ⟨5, _⟩ => ⟨S32x512, .i1⟩
  | .hbm, ⟨6, _⟩ => ⟨S1x512, .i32⟩
  | .hbm, ⟨7, _⟩ => ⟨S1x512, .i32⟩
  | .hbm, ⟨8, _⟩ => ⟨S_, .i32⟩
  | .hbm, ⟨9, _⟩ => ⟨S1x512, .i32⟩
  | .hbm, ⟨10, _⟩ => ⟨S1x512, .i32⟩
  | .hbm, ⟨11, _⟩ => ⟨S32x512, .i32⟩
  | .hbm, ⟨12, _⟩ => ⟨S32x512, .i32⟩
  | .hbm, ⟨13, _⟩ => ⟨S32x512, .i32⟩
  | .hbm, ⟨14, _⟩ => ⟨S32x512, .i32⟩
  | .hbm, ⟨15, _⟩ => ⟨S32x512, .i32⟩
  | .hbm, ⟨16, _⟩ => ⟨S32x512, .i32⟩
  | .hbm, ⟨17, _⟩ => ⟨S_, .i32⟩
  | .hbm, ⟨18, _⟩ => ⟨S32x512, .i32⟩
  | .hbm, ⟨19, _⟩ => ⟨S32x512, .i1⟩
  | .hbm, ⟨20, _⟩ => ⟨S_, .i32⟩
  | .hbm, ⟨21, _⟩ => ⟨S32x512, .i32⟩
  | .hbm, ⟨22, _⟩ => ⟨S32x512, .i32⟩
  | .hbm, ⟨23, _⟩ => ⟨S32x512, .i32⟩
  | .hbm, ⟨24, _⟩ => ⟨S32x512x1, .i32⟩
  | .hbm, ⟨25, _⟩ => ⟨S1, .i32⟩
  | .hbm, ⟨26, _⟩ => ⟨S_, .i32⟩
  | .hbm, ⟨27, _⟩ => ⟨S32x512x1, .i32⟩
  | .hbm, ⟨28, _⟩ => ⟨S32x512x1, .i1⟩
  | .hbm, ⟨29, _⟩ => ⟨S1x1x1, .i32⟩
  | .hbm, ⟨30, _⟩ => ⟨S32x512x1, .i32⟩
  | .hbm, ⟨31, _⟩ => ⟨S32x512x1, .i1⟩
  | .hbm, ⟨32, _⟩ => ⟨S32x512x1, .i1⟩
  | .hbm, ⟨33, _⟩ => ⟨S_, .i1⟩
  | .hbm, ⟨34, _⟩ => ⟨S32x512, .i1⟩
  | .hbm, ⟨35, _⟩ => ⟨S32x512, .i1⟩
  | .hbm, ⟨36, _⟩ => ⟨S_, .i1⟩
  | .hbm, ⟨37, _⟩ => ⟨S32x512, .i1⟩
  | .hbm, ⟨38, _⟩ => ⟨S32x512, .i1⟩
  | .hbm, ⟨39, _⟩ => ⟨S32x512, .f32⟩
  | .hbm, ⟨40, _⟩ => ⟨S_, .i32⟩
  | .hbm, ⟨41, _⟩ => ⟨S32x512, .i32⟩
  | .hbm, ⟨42, _⟩ => ⟨S32x512, .i1⟩
  | .hbm, ⟨43, _⟩ => ⟨S32x511, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i1⟩
  | .hbm, ⟨49, _⟩ => ⟨S32x512, .i1⟩
  | .hbm, ⟨50, _⟩ => ⟨S32x512, .i1⟩
  | .hbm, ⟨51, _⟩ => ⟨S32x512, .i1⟩
  | .hbm, ⟨52, _⟩ => ⟨S32x512, .i32⟩
  | .hbm, ⟨53, _⟩ => ⟨S_, .i32⟩
  | .hbm, ⟨54, _⟩ => ⟨S_, .i32⟩
  | .hbm, ⟨55, _⟩ => ⟨S32x512, .i32⟩
  | .hbm, ⟨56, _⟩ => ⟨S_, .i32⟩
  | .hbm, ⟨57, _⟩ => ⟨S32x512, .i32⟩
  | .hbm, ⟨58, _⟩ => ⟨S32x512, .i32⟩
  | .hbm, ⟨59, _⟩ => ⟨S1x512, .i32⟩
  | .hbm, ⟨60, _⟩ => ⟨S_, .i32⟩
  | .hbm, ⟨61, _⟩ => ⟨S_, .i32⟩
  | .hbm, ⟨62, _⟩ => ⟨S32x512, .i32⟩
  | .hbm, ⟨63, _⟩ => ⟨S32x512, .i32⟩
  | .hbm, ⟨64, _⟩ => ⟨S32x512, .i32⟩
  | .hbm, ⟨65, _⟩ => ⟨S_, .i32⟩
  | .hbm, ⟨66, _⟩ => ⟨S_, .i32⟩
  | .hbm, ⟨67, _⟩ => ⟨S32x512, .i32⟩
  | .hbm, ⟨68, _⟩ => ⟨S1x512, .i32⟩
  | .hbm, ⟨69, _⟩ => ⟨S32x512, .i32⟩
  | .hbm, ⟨70, _⟩ => ⟨S32x512, .i32⟩
  | .hbm, ⟨71, _⟩ => ⟨S_, .i32⟩
  | .hbm, ⟨72, _⟩ => ⟨S32x512, .i32⟩
  | .hbm, ⟨73, _⟩ => ⟨S32x512, .i1⟩
  | .hbm, ⟨74, _⟩ => ⟨S32x512, .i1⟩
  | .hbm, ⟨75, _⟩ => ⟨S_, .i32⟩
  | .hbm, ⟨76, _⟩ => ⟨S32x512, .i32⟩
  | .hbm, ⟨77, _⟩ => ⟨S32x512, .i1⟩
  | .hbm, ⟨78, _⟩ => ⟨S32x512, .i1⟩
  | .hbm, ⟨79, _⟩ => ⟨S_, .i32⟩
  | .hbm, ⟨80, _⟩ => ⟨S32x512, .i32⟩
  | .hbm, ⟨81, _⟩ => ⟨S32x512, .i32⟩
  | .hbm, ⟨82, _⟩ => ⟨S32x512, .i32⟩
  | .hbm, ⟨83, _⟩ => ⟨S_, .i32⟩
  | .hbm, ⟨84, _⟩ => ⟨S_, .i32⟩
  | .hbm, ⟨85, _⟩ => ⟨S32x512, .i32⟩
  | .hbm, ⟨86, _⟩ => ⟨S32x512, .i32⟩
  | .hbm, ⟨87, _⟩ => ⟨S32x1x512, .i32⟩
  | .hbm, ⟨88, _⟩ => ⟨S32x1x512, .f32⟩
  | .hbm, ⟨89, _⟩ => ⟨S32x1x512, .i32⟩
  | .hbm, ⟨90, _⟩ => ⟨S32x512x1024, .f32⟩
  | .hbm, ⟨91, _⟩ => ⟨S32x384x1024, .f32⟩
  | .hbm, ⟨92, _⟩ => ⟨S32x32x12x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .f32⟩
  | .local _ .vmem, ⟨5, _⟩ => ⟨S1x1x512, .f32⟩
  | .local _ .vmem, ⟨6, _⟩ => ⟨S1x1x512, .i32⟩
  | .local _ .vmem, ⟨7, _⟩ => ⟨S1x1x512, .i32⟩
  | .local _ .vmem, ⟨8, _⟩ => ⟨S1x512x1024, .f32⟩
  | .local _ .vmem, ⟨9, _⟩ => ⟨S1x512x1024, .f32⟩
  | .local _ .vmem, ⟨10, _⟩ => ⟨S1x384x1024, .f32⟩
  | .local _ .vmem, ⟨11, _⟩ => ⟨S1x384x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_call1_v0 : Ref sig .tc := ⟨.hbm, 14, rfl⟩
abbrev main_call1_v1_0 : Ref sig .tc := ⟨.hbm, 15, rfl⟩
abbrev main_v8 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_c_4 : Ref sig .tc := ⟨.hbm, 36, rfl⟩
abbrev main_call2_v14 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_call4_call0_c : Ref sig .tc := ⟨.hbm, 53, rfl⟩
abbrev main_call4_call0_v0 : Ref sig .tc := ⟨.hbm, 54, rfl⟩
abbrev main_v18 : Ref sig .tc := ⟨.hbm, 55, rfl⟩
abbrev main_c_3 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_4 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_v22 : Ref sig .tc := ⟨.hbm, 64, rfl⟩
abbrev main_call6_c : Ref sig .tc := ⟨.hbm, 65, rfl⟩
abbrev main_call6_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_5 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c_6 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_c_7 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_8 : Ref sig .tc := ⟨.hbm, 83, rfl⟩
abbrev main_call7_v0 : Ref sig .tc := ⟨.hbm, 84, rfl⟩
abbrev main_call7_v1 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40_0 : Ref sig .tc := ⟨.hbm, 90, rfl⟩
abbrev main_v40_1 : Ref sig .tc := ⟨.hbm, 91, rfl⟩
abbrev main_v41 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x512 : S_.BroadcastsInDim S32x512 (![] : Fin 0 → Fin S32x512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S32x512_0_1 : S1x512.BroadcastsInDim S32x512 (![0, 1] : Fin 2 → Fin S32x512.rank)
  shapeCasts_S32x512_S32x512x1 : S32x512.ShapeCasts S32x512x1
  bcast_S_S32x512x1 : S_.BroadcastsInDim S32x512x1 (![] : Fin 0 → Fin S32x512x1.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  reducesTo_S32x512x1_S32x512_d2 : S32x512x1.ReducesTo [2] S32x512
  h_S_ : 0 < S_.numel
  slices_S32x512_S32x511_0_0 : S32x512.Slices ![0, 0] S32x511
  bcast_S_S_ : S_.BroadcastsInDim S_ (![] : Fin 0 → Fin S_.rank)
  pads_S32x511_S32x512_000_100 : S32x511.Pads (![0, 1] : Fin 2 → Nat) ![0, 0] ![0, 0] S32x512
  natLt_1_32 : 1 < 32
  reduceWindows_S32x512_S32x512_w1s1p0_0_w512s1p511_0 : S32x512.ReduceWindows (![1, 512] : Fin 2 → Nat) ![1, 1] ![0, 511] ![0, 0] S32x512
  shapeCasts_S32x512_S32x1x512 : S32x512.ShapeCasts S32x1x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S512x512_d1_w32 : S512x512.Iotas .tc 32 [1]
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  iota_S384x512_d0_w32 : S384x512.Iotas .tc 32 [0]
  shapeCasts_S512_S1x512 : S512.ShapeCasts S1x512
  broadcasts_S1x512_S384x512 : S1x512.Broadcasts S384x512
  inb_S1x384x1024_S1x384x1024_0_0_0 : ∀ a, (![0, 0, 0] : Fin 3 → Nat) a + S1x384x1024.size a ≤ S1x384x1024.size a
  h_S1x384x1024 : 0 < S1x384x1024.numel
  shapeCasts_S1x384x1024_S384x1024 : S1x384x1024.ShapeCasts S384x1024
  shapeCasts_S384x1024_S1x384x1024 : S384x1024.ShapeCasts S1x384x1024
  shapeCasts_S32x384x1024_S32x32x12x1024 : S32x384x1024.ShapeCasts S32x32x12x1024
  gather_S32x512_S32x512x1_S32x512_n_1_0_0_1_2_11_wf : GatherDims.WF S32x512 S32x512x1 S32x512 [] [1] [0] [1] [0] 2 ![1, 1]
  dot_S512x512_S512x1024_S512x1024_1_0_0_1_n_n_wf : DotDims.WF S512x512 S512x1024 S512x1024 [1] [0] [0] [1] [] []
  dot_S384x512_S512x1024_S384x1024_1_0_0_1_n_n_wf : DotDims.WF S384x512 S512x1024 S384x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .i32 = 32 ∨ (Rect.block (s := S32x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .f32 = 32 ∨ (Rect.block (s := S32x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .i32 = 32 ∨ (Rect.block (s := S32x1x512) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S32x512x1024.size a
  hwx0_4 : ∀ i : grid0.Coords, EltTy.bits .f32 = 32 ∨ (Rect.block (s := S32x512x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x384x1024.size a ≤ S32x384x1024.size a
  hwx0_5 : ∀ i : grid0.Coords, EltTy.bits .f32 = 32 ∨ (Rect.block (s := S32x384x1024) S1x384x1024.size (cc0_transform_5 i) (hinb0_5 i)).WholeWords (EltTy.packing .f32)

variable [Facts₀]

def comparator_i32_i32_d1 : BitVec 32 × BitVec 32 → BitVec 32 × BitVec 32 → BitVec 1 :=
  fun l r =>
    let v2 := IntOp.cmpi .slt l.1 r.1
    v2
def gather_S32x512_S32x512x1_S32x512_n_1_0_0_1_2_11 : GatherDims S32x512 S32x512x1 S32x512 where
  offsetDims := []
  collapsedSliceDims := [1]
  operandBatchingDims := [0]
  startIndicesBatchingDims := [0]
  startIndexMap := [1]
  indexVectorDim := 2
  sliceSizes := ![1, 1]
  wf := gather_S32x512_S32x512x1_S32x512_n_1_0_0_1_2_11_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S384x512_S512x1024_S384x1024_1_0_0_1_n_n : DotDims S384x512 S512x1024 S384x1024 where
  lhsContracting := [1]
  rhsContracting := [0]
  lhsNonContracting := [0]
  rhsNonContracting := [1]
  lhsBatch := []
  rhsBatch := []
  wf := dot_S384x512_S512x1024_S384x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S1x384x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x512 : Shape := ⟨2, ![32, 512]⟩
abbrev S512 : Shape := ⟨1, ![512]⟩
abbrev S_ : Shape := ⟨0, ![]⟩
abbrev S1x512 : Shape := ⟨2, ![1, 512]⟩
abbrev S32x512x1 : Shape := ⟨3, ![32, 512, 1]⟩
abbrev S1 : Shape := ⟨1, ![1]⟩
abbrev S1x1x1 : Shape := ⟨3, ![1, 1, 1]⟩
abbrev S32x511 : Shape := ⟨2, ![32, 511]⟩
abbrev S32x33x12x1024 : Shape := ⟨4, ![32, 33, 12, 1024]⟩
abbrev S32 : Shape := ⟨1, ![32]⟩
abbrev S32x1 : Shape := ⟨2, ![32, 1]⟩
abbrev S32x512x3 : Shape := ⟨3, ![32, 512, 3]⟩
abbrev S32x32x12x1024 : Shape := ⟨4, ![32, 32, 12, 1024]⟩

abbrev nBuf : Space → Nat
  | .hbm => 149
  | .vmem => 0
  | .smem => 0
  | _ => 0

abbrev hbmTy0_0 (i : Nat) : BufTy := match i % 128 with
  | 0 => ⟨S32x512x1024, .f32⟩
  | 1 => ⟨S32x512, .i32⟩
  | 2 => ⟨S512, .i32⟩
  | 3 => ⟨S_, .i32⟩
  | 4 => ⟨S32x512, .i32⟩
  | 5 => ⟨S32x512, .i1⟩
  | 6 => ⟨S1x512, .i32⟩
  | 7 => ⟨S1x512, .i32⟩
  | 8 => ⟨S_, .i32⟩
  | 9 => ⟨S1x512, .i32⟩
  | 10 => ⟨S1x512, .i32⟩
  | 11 => ⟨S32x512, .i32⟩
  | 12 => ⟨S32x512, .i32⟩
  | 13 => ⟨S32x512, .i32⟩
  | 14 => ⟨S32x512, .i32⟩
  | 15 => ⟨S32x512, .i32⟩
  | 16 => ⟨S32x512, .i32⟩
  | 17 => ⟨S32x512x1, .i32⟩
  | 18 => ⟨S_, .i32⟩
  | 19 => ⟨S32x512x1, .i32⟩
  | 20 => ⟨S32x512x1, .i1⟩
  | 21 => ⟨S_, .i32⟩
  | 22 => ⟨S32x512x1, .i32⟩
  | 23 => ⟨S32x512x1, .i32⟩
  | 24 => ⟨S32x512x1, .i32⟩
  | 25 => ⟨S1, .i32⟩
  | 26 => ⟨S_, .i32⟩
  | 27 => ⟨S32x512x1, .i32⟩
  | 28 => ⟨S32x512x1, .i1⟩
  | 29 => ⟨S1x1x1, .i32⟩
  | 30 => ⟨S32x512x1, .i32⟩
  | 31 => ⟨S32x512x1, .i1⟩
  | 32 => ⟨S32x512x1, .i1⟩
  | 33 => ⟨S_, .i1⟩
  | 34 => ⟨S32x512, .i1⟩
  | 35 => ⟨S32x512x1024, .f32⟩
  | 36 => ⟨S32x512x1024, .i1⟩
  | 37 => ⟨S_, .f32⟩
  | 38 => ⟨S32x512x1024, .f32⟩
  | 39 => ⟨S32x512x1024, .f32⟩
  | 40 => ⟨S_, .i32⟩
  | 41 => ⟨S32x512, .i32⟩
  | 42 => ⟨S32x512, .i1⟩
  | 43 => ⟨S_, .i32⟩
  | 44 => ⟨S32x512, .i32⟩
  | 45 => ⟨S32x512, .i32⟩
  | 46 => ⟨S32x512, .i32⟩
  | 47 => ⟨S32x512x1, .i32⟩
  | 48 => ⟨S1, .i32⟩
  | 49 => ⟨S_, .i32⟩
  | 50 => ⟨S32x512x1, .i32⟩
  | 51 => ⟨S32x512x1, .i1⟩
  | 52 => ⟨S1x1x1, .i32⟩
  | 53 => ⟨S32x512x1, .i32⟩
  | 54 => ⟨S32x512x1, .i1⟩
  | 55 => ⟨S32x512x1, .i1⟩
  | 56 => ⟨S_, .i1⟩
  | 57 => ⟨S32x512, .i1⟩
  | 58 => ⟨S32x512, .i1⟩
  | 59 => ⟨S_, .i1⟩
  | 60 => ⟨S32x512, .i1⟩
  | 61 => ⟨S32x512, .i1⟩
  | 62 => ⟨S32x512x1, .i1⟩
  | 63 => ⟨S32x512x1, .f32⟩
  | 64 => ⟨S32x512x1024, .f32⟩
  | 65 => ⟨S32x512x1024, .f32⟩
  | 66 => ⟨S_, .i32⟩
  | 67 => ⟨S32x512, .i32⟩
  | 68 => ⟨S32x512, .i1⟩
  | 69 => ⟨S32x511, .i1⟩
  | 70 => ⟨S_, .i32⟩
  | 71 => ⟨S_, .i32⟩
  | 72 => ⟨S_, .i32⟩
  | 73 => ⟨S_, .i1⟩
  | 74 => ⟨S_, .i1⟩
  | 75 => ⟨S32x512, .i1⟩
  | 76 => ⟨S32x512, .i1⟩
  | 77 => ⟨S32x512, .i1⟩
  | 78 => ⟨S32x512, .i32⟩
  | 79 => ⟨S_, .i32⟩
  | 80 => ⟨S_, .i32⟩
  | 81 => ⟨S32x512, .i32⟩
  | 82 => ⟨S_, .i32⟩
  | 83 => ⟨S32x512, .i32⟩
  | 84 => ⟨S32x512, .i32⟩
  | 85 => ⟨S1x512, .i32⟩
  | 86 => ⟨S_, .i32⟩
  | 87 => ⟨S_, .i32⟩
  | 88 => ⟨S32x512, .i32⟩
  | 89 => ⟨S32x512, .i32⟩
  | 90 => ⟨S32x512, .i32⟩
  | 91 => ⟨S_, .i32⟩
  | 92 => ⟨S_, .i32⟩
  | 93 => ⟨S32x512, .i32⟩
  | 94 => ⟨S1x512, .i32⟩
  | 95 => ⟨S32x512, .i32⟩
  | 96 => ⟨S32x512, .i32⟩
  | 97 => ⟨S_, .i32⟩
  | 98 => ⟨S32x512, .i32⟩
  | 99 => ⟨S32x512, .i1⟩
  | 100 => ⟨S32x512, .i1⟩
  | 101 => ⟨S_, .i32⟩
  | 102 => ⟨S32x512, .i32⟩
  | 103 => ⟨S32x512, .i1⟩
  | 104 => ⟨S32x512, .i1⟩
  | 105 => ⟨S_, .i32⟩
  | 106 => ⟨S_, .i32⟩
  | 107 => ⟨S32x512, .i32⟩
  | 108 => ⟨S32x512, .i32⟩
  | 109 => ⟨S_, .i32⟩
  | 110 => ⟨S_, .i32⟩
  | 111 => ⟨S_, .i32⟩
  | 112 => ⟨S32x512, .i32⟩
  | 113 => ⟨S32x512, .i32⟩
  | 114 => ⟨S_, .i32⟩
  | 115 => ⟨S32x512, .i32⟩
  | 116 => ⟨S32x512, .i32⟩
  | 117 => ⟨S_, .f32⟩
  | 118 => ⟨S32x33x12x1024, .f32⟩
  | 119 => ⟨S32, .i32⟩
  | 120 => ⟨S32x1, .i32⟩
  | 121 => ⟨S_, .i32⟩
  | 122 => ⟨S32x1, .i32⟩
  | 123 => ⟨S32x1, .i1⟩
  | 124 => ⟨S_, .i32⟩
  | 125 => ⟨S32x1, .i32⟩
  | 126 => ⟨S32x1, .i32⟩
  | 127 => ⟨S32x1, .i32⟩
  | _ => ⟨S32x512x1024, .f32⟩

abbrev hbmTy0_1 (i : Nat) : BufTy := match i % 128 with
  | 0 => ⟨S_, .i32⟩
  | 1 => ⟨S32x512, .i32⟩
  | 2 => ⟨S32x512, .i1⟩
  | 3 => ⟨S_, .i32⟩
  | 4 => ⟨S32x512, .i32⟩
  | 5 => ⟨S32x512, .i32⟩
  | 6 => ⟨S32x512, .i32⟩
  | 7 => ⟨S_, .i32⟩
  | 8 => ⟨S32x512, .i32⟩
  | 9 => ⟨S32x512, .i1⟩
  | 10 => ⟨S_, .i32⟩
  | 11 => ⟨S32x512, .i32⟩
  | 12 => ⟨S32x512, .i32⟩
  | 13 => ⟨S32x512, .i32⟩
  | 14 => ⟨S32x512, .i32⟩
  | 15 => ⟨S32x512x1, .i32⟩
  | 16 => ⟨S32x512x1, .i32⟩
  | 17 => ⟨S32x512x1, .i32⟩
  | 18 => ⟨S32x512x3, .i32⟩
  | 19 => ⟨S32x33x12x1024, .f32⟩
  | 20 => ⟨S32x32x12x1024, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_call1_v0 : Ref sig .tc := ⟨.hbm, 14, rfl⟩
abbrev main_call1_v1_0 : Ref sig .tc := ⟨.hbm, 15, rfl⟩
abbrev main_v8 : Ref sig .tc := ⟨.hbm, 16, rfl⟩
abbrev main_v9 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_c_1 : Ref sig .tc := ⟨.hbm, 25, rfl⟩
abbrev main_call2_c_2 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_c_3 : Ref sig .tc := ⟨.hbm, 33, rfl⟩
abbrev main_call2_v11 : Ref sig .tc := ⟨.hbm, 34, rfl⟩
abbrev main_call2_v12 : Ref sig .tc := ⟨.hbm, 35, rfl⟩
abbrev main_call2_v13 : Ref sig .tc := ⟨.hbm, 36, rfl⟩
abbrev main_call2_cst : Ref sig .tc := ⟨.hbm, 37, rfl⟩
abbrev main_call2_v14 : Ref sig .tc := ⟨.hbm, 38, rfl⟩
abbrev main_v10 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_c_4 : Ref sig .tc := ⟨.hbm, 59, rfl⟩
abbrev main_call3_v14 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_c_1 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_2 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_call5_call0_c : Ref sig .tc := ⟨.hbm, 79, rfl⟩
abbrev main_call5_call0_v0 : Ref sig .tc := ⟨.hbm, 80, rfl⟩
abbrev main_v23 : Ref sig .tc := ⟨.hbm, 81, rfl⟩
abbrev main_c_3 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_c_4 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_v27 : Ref sig .tc := ⟨.hbm, 90, rfl⟩
abbrev main_call7_c : Ref sig .tc := ⟨.hbm, 91, rfl⟩
abbrev main_call7_v0 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_c_5 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_c_6 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_c_7 : Ref sig .tc := ⟨.hbm, 105, rfl⟩
abbrev main_call8_v0 : Ref sig .tc := ⟨.hbm, 106, rfl⟩
abbrev main_call8_v1 : Ref sig .tc := ⟨.hbm, 107, rfl⟩
abbrev main_v38 : Ref sig .tc := ⟨.hbm, 108, rfl⟩
abbrev main_c_8 : Ref sig .tc := ⟨.hbm, 109, rfl⟩
abbrev main_c_9 : Ref sig .tc := ⟨.hbm, 110, rfl⟩
abbrev main_call9_v0 : Ref sig .tc := ⟨.hbm, 111, rfl⟩
abbrev main_call9_v1 : Ref sig .tc := ⟨.hbm, 112, rfl⟩
abbrev main_call9_v2 : Ref sig .tc := ⟨.hbm, 113, rfl⟩
abbrev main_call9_v3 : Ref sig .tc := ⟨.hbm, 114, rfl⟩
abbrev main_call9_v4 : Ref sig .tc := ⟨.hbm, 115, rfl⟩
abbrev main_v39 : Ref sig .tc := ⟨.hbm, 116, rfl⟩
abbrev main_cst : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_c_10 : Ref sig .tc := ⟨.hbm, 121, rfl⟩
abbrev main_v43 : Ref sig .tc := ⟨.hbm, 122, rfl⟩
abbrev main_v44 : Ref sig .tc := ⟨.hbm, 123, rfl⟩
abbrev main_c_11 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_c_12 : Ref sig .tc := ⟨.hbm, 128, rfl⟩
abbrev main_v48 : Ref sig .tc := ⟨.hbm, 129, rfl⟩
abbrev main_v49 : Ref sig .tc := ⟨.hbm, 130, rfl⟩
abbrev main_c_13 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_c_14 : Ref sig .tc := ⟨.hbm, 135, rfl⟩
abbrev main_v53 : Ref sig .tc := ⟨.hbm, 136, rfl⟩
abbrev main_v54 : Ref sig .tc := ⟨.hbm, 137, rfl⟩
abbrev main_c_15 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S32x512_0_1 : S1x512.BroadcastsInDim S32x512 (![0, 1] : Fin 2 → Fin S32x512.rank)
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  reducesTo_S32x512x1_S32x512_d2 : S32x512x1.ReducesTo [2] S32x512
  h_S_ : 0 < S_.numel
  bcast_S32x512_S32x512x1024_0_1 : S32x512.BroadcastsInDim S32x512x1024 (![0, 1] : Fin 2 → Fin S32x512x1024.rank)
  bcast_S_S32x512x1024 : S_.BroadcastsInDim S32x512x1024 (![] : Fin 0 → Fin S32x512x1024.rank)
  shapeCasts_S32x512_S32x512x1 : S32x512.ShapeCasts S32x512x1
  bcast_S32x512x1_S32x512x1024_0_1_2 : S32x512x1.BroadcastsInDim S32x512x1024 (![0, 1, 2] : Fin 3 → Fin S32x512x1024.rank)
  slices_S32x512_S32x511_0_0 : S32x512.Slices ![0, 0] S32x511
  bcast_S_S_ : S_.BroadcastsInDim S_ (![] : Fin 0 → Fin S_.rank)
  pads_S32x511_S32x512_000_100 : S32x511.Pads (![0, 1] : Fin 2 → Nat) ![0, 0] ![0, 0] S32x512
  natLt_1_32 : 1 < 32
  reduceWindows_S32x512_S32x512_w1s1p0_0_w512s1p511_0 : S32x512.ReduceWindows (![1, 512] : Fin 2 → Nat) ![1, 1] ![0, 511] ![0, 0] S32x512
  bcast_S_S32x33x12x1024 : S_.BroadcastsInDim S32x33x12x1024 (![] : Fin 0 → Fin S32x33x12x1024.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  concatenates_S32x512x1_S32x512x1_S32x512x1_S32x512x3_d2 : Shape.Concatenates [S32x512x1, S32x512x1, S32x512x1] S32x512x3 2
  slices_S32x33x12x1024_S32x32x12x1024_0_0_0_0 : S32x33x12x1024.Slices ![0, 0, 0, 0] S32x32x12x1024
  gather_S32x512x1024_S32x512x1_S32x512x1024_2_1_0_0_1_2_111024_wf : GatherDims.WF S32x512x1024 S32x512x1 S32x512x1024 [2] [1] [0] [1] [0] 2 ![1, 1, 1024]
  gather_S32x512_S32x512x1_S32x512_n_1_0_0_1_2_11_wf : GatherDims.WF S32x512 S32x512x1 S32x512 [] [1] [0] [1] [0] 2 ![1, 1]
  scatter_S32x33x12x1024_S32x512x3_S32x512x1024_2_012_012_2_wf : ScatterDims.WF S32x33x12x1024 S32x512x3 S32x512x1024 [2] [0, 1, 2] [0, 1, 2] 2

variable [Facts₀]

def comparator_i32_i32_d1 : BitVec 32 × BitVec 32 → BitVec 32 × BitVec 32 → BitVec 1 :=
  fun l r =>
    let v2 := IntOp.cmpi .slt l.1 r.1
    v2
def gather_S32x512x1024_S32x512x1_S32x512x1024_2_1_0_0_1_2_111024 : GatherDims S32x512x1024 S32x512x1 S32x512x1024 where
  offsetDims := [2]
  collapsedSliceDims := [1]
  operandBatchingDims := [0]
  startIndicesBatchingDims := [0]
  startIndexMap := [1]
  indexVectorDim := 2
  sliceSizes := ![1, 1, 1024]
  wf := gather_S32x512x1024_S32x512x1_S32x512x1024_2_1_0_0_1_2_111024_wf
def gather_S32x512_S32x512x1_S32x512_n_1_0_0_1_2_11 : GatherDims S32x512 S32x512x1 S32x512 where
  offsetDims := []
  collapsedSliceDims := [1]
  operandBatchingDims := [0]
  startIndicesBatchingDims := [0]
  startIndexMap := [1]
  indexVectorDim := 2
  sliceSizes := ![1, 1]
  wf := gather_S32x512_S32x512x1_S32x512_n_1_0_0_1_2_11_wf
def scatter_S32x33x12x1024_S32x512x3_S32x512x1024_2_012_012_2 : ScatterDims S32x33x12x1024 S32x512x3 S32x512x1024 where
  updateWindowDims := [2]
  insertedWindowDims := [0, 1, 2]
  scatterDimsToOperandDims := [0, 1, 2]
  indexVectorDim := 2
  wf := scatter_S32x33x12x1024_S32x512x3_S32x512x1024_2_012_012_2_wf

class Facts : Prop extends Facts₀ where

variable [Facts]
-- ==== Proof.RefRun.lean ====
/- The idealized reference program's @main as one straight line of host operations, and its run read back.
   @main calls ten module-local functions (one of them, the cumulative sum, itself calls another); a call executes
   the callee's body on the operands, so each call is replaced by the callee's operations over that call's own
   buffers, the nested call likewise. The resulting 147 operations, in program order, are `ops`; `main_eq` says @main IS
   that line (both sides are one chain of host steps once sequencing is reassociated), and `run_main` that every weakly
   fair execution terminates with each buffer at the fold of the operations' results over its launch contents. -/
import proofs.«139113_j90056874263205_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 147 operations, in order: its own, and at each call the callee's over the call's buffers
    (an argument of the callee is the operand's buffer, a returned value the buffer of the result it becomes). -/
abbrev ops : List (HloOp τ sig (Elt F)) :=
  [ nullary main_v0 (iotaInDim S512 32 0),
    nullary main_c (constantI S_ 32 2#32),
    unary main_c main_v1 (broadcastInDim S32x512 ![] bcast_S_S32x512 : (⟨S_, .i32⟩ : BufTy).Contents (Elt F) → (⟨S32x512, .i32⟩ : BufTy).Contents (Elt F)),
    binary main_arg1 main_v1 main_v2 (cmpi .eq : (⟨S32x512, .i32⟩ : BufTy).Contents (Elt F) → (⟨S32x512, .i32⟩ : BufTy).Contents (Elt F) → (⟨S32x512, .i1⟩ : BufTy).Contents (Elt F)),
    unary main_v0 main_v3 (broadcastInDim S1x512 ![1] bcast_S512_S1x512_1 : (⟨S512, .i32⟩ : BufTy).Contents (Elt F) → (⟨S1x512, .i32⟩ : BufTy).Contents (Elt F)),
    unary main_v0 main_v4 (broadcastInDim S1x512 ![1] bcast_S512_S1x512_1 : (⟨S512, .i32⟩ : BufTy).Contents (Elt F) → (⟨S1x512, .i32⟩ : BufTy).Contents (Elt F)),
    nullary main_c_0 (constantI S_ 32 512#32),
    unary main_c_0 main_v5 (broadcastInDim S1x512 ![] bcast_S_S1x512 : (⟨S_, .i32⟩ : BufTy).Contents (Elt F) → (⟨S1x512, .i32⟩ : BufTy).Contents (Elt F)),
    binary main_v5 main_v4 main_v6 (addi : (⟨S1x512, .i32⟩ : BufTy).Contents (Elt F) → (⟨S1x512, .i32⟩ : BufTy).Contents (Elt F) → (⟨S1x512, .i32⟩ : BufTy).Contents (Elt F)),
    TRef.unary (TRef.of (T := ⟨S1x512, .i32⟩) main_v3) (TRef.of (T := ⟨S32x512, .i32⟩) main_call0_v0) (broadcastInDim S32x512 ![0, 1] bcast_S1x512_S32x512_0_1),
    TRef.unary (TRef.of (T := ⟨S1x512, .i32⟩) main_v6) (TRef.of (T := ⟨S32x512, .i32⟩) main_call0_v1) (broadcastInDim S32x512 ![0, 1] bcast_S1x512_S32x512_0_1),
    TRef.ternary (TRef.of (T := ⟨S32x512, .i1⟩) main_v2) (TRef.of (T := ⟨S32x512, .i32⟩) main_call0_v0) (TRef.of (T := ⟨S32x512, .i32⟩) main_call0_v1) (TRef.of (T := ⟨S32x512, .i32⟩) main_v7) select,
    TRef.nullary (TRef.of (T := ⟨S32x512, .i32⟩) main_call1_v0) (iotaInDim S32x512 32 1),
    TRef.binary (TRef.of (T := ⟨S32x512, .i32⟩) main_v7) (TRef.of (T := ⟨S32x512, .i32⟩) main_call1_v0) (TRef.of (T := ⟨S32x512, .i32⟩) main_call1_v1_0) (fun x y => (Host.sort2 S32x512 1 comparator_i32_i32_d1 x y).1),
    TRef.binary (TRef.of (T := ⟨S32x512, .i32⟩) main_v7) (TRef.of (T := ⟨S32x512, .i32⟩) main_call1_v0) (TRef.of (T := ⟨S32x512, .i32⟩) main_v8) (fun x y => (Host.sort2 S32x512 1 comparator_i32_i32_d1 x y).2),
    unary main_v8 main_v9 (broadcastInDim S32x512x1 ![0, 1] bcast_S32x512_S32x512x1_0_1 : (⟨S32x512, .i32⟩ : BufTy).Contents (Elt F) → (⟨S32x512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x512x1, .i32⟩) main_call2_v0) (broadcastInDim S32x512x1 ![] bcast_S_S32x512x1),
    TRef.binary (TRef.of (T := ⟨S32x512x1, .i32⟩) main_v9) (TRef.of (T := ⟨S32x512x1, .i32⟩) main_call2_v0) (TRef.of (T := ⟨S32x512x1, .i1⟩) main_call2_v1) (cmpi .slt),
    TRef.nullary (TRef.of (T := ⟨S_, .i32⟩) main_call2_c_0) (constantI S_ 32 512#32),
    TRef.unary (TRef.of (T := ⟨S_, .i32⟩) main_call2_c_0) (TRef.of (T := ⟨S32x512x1, .i32⟩) main_call2_v2) (broadcastInDim S32x512x1 ![] bcast_S_S32x512x1),
    TRef.binary (TRef.of (T := ⟨S32x512x1, .i32⟩) main_v9) (TRef.of (T := ⟨S32x512x1, .i32⟩) main_call2_v2) (TRef.of (T := ⟨S32x512x1, .i32⟩) main_call2_v3) addi,
    TRef.ternary (TRef.of (T := ⟨S32x512x1, .i1⟩) main_call2_v1) (TRef.of (T := ⟨S32x512x1, .i32⟩) main_call2_v3) (TRef.of (T := ⟨S32x512x1, .i32⟩) main_v9) (TRef.of (T := ⟨S32x512x1, .i32⟩) main_call2_v4) select,
    TRef.nullary (TRef.of (T := ⟨S1, .i32⟩) main_call2_c_1) (constantI S1 32 511#32),
    TRef.nullary (TRef.of (T := ⟨S_, .i32⟩) main_call2_c_2) (constantI S_ 32 0#32),
    TRef.unary (TRef.of (T := ⟨S_, .i32⟩) main_call2_c_2) (TRef.of (T := ⟨S32x512x1, .i32⟩) main_call2_v5) (broadcastInDim S32x512x1 ![] bcast_S_S32x512x1),
    TRef.binary (TRef.of (T := ⟨S32x512x1, .i32⟩) main_call2_v4) (TRef.of (T := ⟨S32x512x1, .i32⟩) main_call2_v5) (TRef.of (T := ⟨S32x512x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S32x512x1, .i32⟩) main_call2_v8) (broadcastInDim S32x512x1 ![0, 1, 2] bcast_S1x1x1_S32x512x1_0_1_2),
    TRef.binary (TRef.of (T := ⟨S32x512x1, .i32⟩) main_call2_v4) (TRef.of (T := ⟨S32x512x1, .i32⟩) main_call2_v8) (TRef.of (T := ⟨S32x512x1, .i1⟩) main_call2_v9) (cmpi .sle),
    TRef.binary (TRef.of (T := ⟨S32x512x1, .i1⟩) main_call2_v6) (TRef.of (T := ⟨S32x512x1, .i1⟩) main_call2_v9) (TRef.of (T := ⟨S32x512x1, .i1⟩) main_call2_v10) andi,
    TRef.nullary (TRef.of (T := ⟨S_, .i1⟩) main_call2_c_3) (constantI S_ 1 1#1),
    TRef.binary (TRef.of (T := ⟨S32x512x1, .i1⟩) main_call2_v10) (TRef.of (T := ⟨S_, .i1⟩) main_call2_c_3) (TRef.of (T := ⟨S32x512, .i1⟩) main_call2_v11) (fun x v => Host.reduce IntOp.andi x v reducesTo_S32x512x1_S32x512_d2 h_S_),
    TRef.binary (TRef.of (T := ⟨S32x512x1024, .f32⟩) main_arg0) (TRef.of (T := ⟨S32x512x1, .i32⟩) main_call2_v4) (TRef.of (T := ⟨S32x512x1024, .f32⟩) main_call2_v12) (fun x i => Host.gather gather_S32x512x1024_S32x512x1_S32x512x1024_2_1_0_0_1_2_111024 x i),
    TRef.unary (TRef.of (T := ⟨S32x512, .i1⟩) main_call2_v11) (TRef.of (T := ⟨S32x512x1024, .i1⟩) main_call2_v13) (broadcastInDim S32x512x1024 ![0, 1] bcast_S32x512_S32x512x1024_0_1),
    TRef.nullary (TRef.of (T := ⟨S_, .f32⟩) main_call2_cst) (constant S_ .f32 0x7FC00000#32),
    TRef.unary (TRef.of (T := ⟨S_, .f32⟩) main_call2_cst) (TRef.of (T := ⟨S32x512x1024, .f32⟩) main_call2_v14) (broadcastInDim S32x512x1024 ![] bcast_S_S32x512x1024),
    TRef.ternary (TRef.of (T := ⟨S32x512x1024, .i1⟩) main_call2_v13) (TRef.of (T := ⟨S32x512x1024, .f32⟩) main_call2_v12) (TRef.of (T := ⟨S32x512x1024, .f32⟩) main_call2_v14) (TRef.of (T := ⟨S32x512x1024, .f32⟩) main_v10) select,
    TRef.nullary (TRef.of (T := ⟨S_, .i32⟩) main_call3_c) (constantI S_ 32 0#32),
    TRef.unary (TRef.of (T := ⟨S_, .i32⟩) main_call3_c) (TRef.of (T := ⟨S32x512, .i32⟩) main_call3_v0) (broadcastInDim S32x512 ![] bcast_S_S32x512),
    TRef.binary (TRef.of (T := ⟨S32x512, .i32⟩) main_v8) (TRef.of (T := ⟨S32x512, .i32⟩) main_call3_v0) (TRef.of (T := ⟨S32x512, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S32x512, .i32⟩) main_call3_v2) (broadcastInDim S32x512 ![] bcast_S_S32x512),
    TRef.binary (TRef.of (T := ⟨S32x512, .i32⟩) main_v8) (TRef.of (T := ⟨S32x512, .i32⟩) main_call3_v2) (TRef.of (T := ⟨S32x512, .i32⟩) main_call3_v3) addi,
    TRef.ternary (TRef.of (T := ⟨S32x512, .i1⟩) main_call3_v1) (TRef.of (T := ⟨S32x512, .i32⟩) main_call3_v3) (TRef.of (T := ⟨S32x512, .i32⟩) main_v8) (TRef.of (T := ⟨S32x512, .i32⟩) main_call3_v4) select,
    TRef.reshape (TRef.of (T := ⟨S32x512, .i32⟩) main_call3_v4) (TRef.of (T := ⟨S32x512x1, .i32⟩) main_call3_v5) rfl shapeCasts_S32x512_S32x512x1,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S32x512x1, .i32⟩) main_call3_v6) (broadcastInDim S32x512x1 ![] bcast_S_S32x512x1),
    TRef.binary (TRef.of (T := ⟨S32x512x1, .i32⟩) main_call3_v5) (TRef.of (T := ⟨S32x512x1, .i32⟩) main_call3_v6) (TRef.of (T := ⟨S32x512x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S32x512x1, .i32⟩) main_call3_v9) (broadcastInDim S32x512x1 ![0, 1, 2] bcast_S1x1x1_S32x512x1_0_1_2),
    TRef.binary (TRef.of (T := ⟨S32x512x1, .i32⟩) main_call3_v5) (TRef.of (T := ⟨S32x512x1, .i32⟩) main_call3_v9) (TRef.of (T := ⟨S32x512x1, .i1⟩) main_call3_v10) (cmpi .sle),
    TRef.binary (TRef.of (T := ⟨S32x512x1, .i1⟩) main_call3_v7) (TRef.of (T := ⟨S32x512x1, .i1⟩) main_call3_v10) (TRef.of (T := ⟨S32x512x1, .i1⟩) main_call3_v11) andi,
    TRef.nullary (TRef.of (T := ⟨S_, .i1⟩) main_call3_c_3) (constantI S_ 1 1#1),
    TRef.binary (TRef.of (T := ⟨S32x512x1, .i1⟩) main_call3_v11) (TRef.of (T := ⟨S_, .i1⟩) main_call3_c_3) (TRef.of (T := ⟨S32x512, .i1⟩) main_call3_v12) (fun x v => Host.reduce IntOp.andi x v reducesTo_S32x512x1_S32x512_d2 h_S_),
    TRef.binary (TRef.of (T := ⟨S32x512, .i1⟩) main_v2) (TRef.of (T := ⟨S32x512x1, .i32⟩) main_call3_v5) (TRef.of (T := ⟨S32x512, .i1⟩) main_call3_v13) (fun x i => Host.gather gather_S32x512_S32x512x1_S32x512_n_1_0_0_1_2_11 x i),
    TRef.nullary (TRef.of (T := ⟨S_, .i1⟩) main_call3_c_4) (constantI S_ 1 1#1),
    TRef.unary (TRef.of (T := ⟨S_, .i1⟩) main_call3_c_4) (TRef.of (T := ⟨S32x512, .i1⟩) main_call3_v14) (broadcastInDim S32x512 ![] bcast_S_S32x512),
    TRef.ternary (TRef.of (T := ⟨S32x512, .i1⟩) main_call3_v12) (TRef.of (T := ⟨S32x512, .i1⟩) main_call3_v13) (TRef.of (T := ⟨S32x512, .i1⟩) main_call3_v14) (TRef.of (T := ⟨S32x512, .i1⟩) main_v11) select,
    unary main_v11 main_v12 (broadcastInDim S32x512x1 ![0, 1] bcast_S32x512_S32x512x1_0_1 : (⟨S32x512, .i1⟩ : BufTy).Contents (Elt F) → (⟨S32x512x1, .i1⟩ : BufTy).Contents (Elt F)),
    unary main_v12 main_v13 (uitofp .f32 : (⟨S32x512x1, .i1⟩ : BufTy).Contents (Elt F) → (⟨S32x512x1, .f32⟩ : BufTy).Contents (Elt F)),
    unary main_v13 main_v14 (broadcastInDim S32x512x1024 ![0, 1, 2] bcast_S32x512x1_S32x512x1024_0_1_2 : (⟨S32x512x1, .f32⟩ : BufTy).Contents (Elt F) → (⟨S32x512x1024, .f32⟩ : BufTy).Contents (Elt F)),
    binary main_v10 main_v14 main_v15 (mulf : (⟨S32x512x1024, .f32⟩ : BufTy).Contents (Elt F) → (⟨S32x512x1024, .f32⟩ : BufTy).Contents (Elt F) → (⟨S32x512x1024, .f32⟩ : BufTy).Contents (Elt F)),
    nullary main_c_1 (constantI S_ 32 1#32),
    unary main_c_1 main_v16 (broadcastInDim S32x512 ![] bcast_S_S32x512 : (⟨S_, .i32⟩ : BufTy).Contents (Elt F) → (⟨S32x512, .i32⟩ : BufTy).Contents (Elt F)),
    binary main_arg1 main_v16 main_v17 (cmpi .eq : (⟨S32x512, .i32⟩ : BufTy).Contents (Elt F) → (⟨S32x512, .i32⟩ : BufTy).Contents (Elt F) → (⟨S32x512, .i1⟩ : BufTy).Contents (Elt F)),
    unary main_v17 main_v18 ((extractStridedSlice S32x511 ![0, 0] · slices_S32x512_S32x511_0_0) : (⟨S32x512, .i1⟩ : BufTy).Contents (Elt F) → (⟨S32x511, .i1⟩ : BufTy).Contents (Elt F)),
    nullary main_c_2 (constantI S_ 32 0#32),
    TRef.nullary (TRef.of (T := ⟨S_, .i32⟩) main_call4_c) (constantI S_ 32 0#32),
    TRef.unary (TRef.of (T := ⟨S_, .i32⟩) main_call4_c) (TRef.of (T := ⟨S_, .i32⟩) main_call4_v0) (broadcastInDim S_ ![] bcast_S_S_),
    TRef.binary (TRef.of (T := ⟨S_, .i32⟩) main_c_2) (TRef.of (T := ⟨S_, .i32⟩) main_call4_v0) (TRef.of (T := ⟨S_, .i1⟩) main_call4_v1) (cmpi .ne),
    TRef.unary (TRef.of (T := ⟨S_, .i1⟩) main_call4_v1) (TRef.of (T := ⟨S_, .i1⟩) main_call4_v2) id,
    TRef.binary (TRef.of (T := ⟨S32x511, .i1⟩) main_v18) (TRef.of (T := ⟨S_, .i1⟩) main_call4_v2) (TRef.of (T := ⟨S32x512, .i1⟩) main_v19) (fun x v => pad S32x512 ![0, 1] ![0, 0] ![0, 0] x v pads_S32x511_S32x512_000_100 h_S_),
    unary main_v19 main_v20 (noti : (⟨S32x512, .i1⟩ : BufTy).Contents (Elt F) → (⟨S32x512, .i1⟩ : BufTy).Contents (Elt F)),
    binary main_v17 main_v20 main_v21 (andi : (⟨S32x512, .i1⟩ : BufTy).Contents (Elt F) → (⟨S32x512, .i1⟩ : BufTy).Contents (Elt F) → (⟨S32x512, .i1⟩ : BufTy).Contents (Elt F)),
    unary main_v21 main_v22 ((extui 32 · natLt_1_32) : (⟨S32x512, .i1⟩ : BufTy).Contents (Elt F) → (⟨S32x512, .i32⟩ : BufTy).Contents (Elt F)),
    TRef.nullary (TRef.of (T := ⟨S_, .i32⟩) main_call5_call0_c) (constantI S_ 32 0#32),
    TRef.unary (TRef.of (T := ⟨S_, .i32⟩) main_call5_call0_c) (TRef.of (T := ⟨S_, .i32⟩) main_call5_call0_v0) (broadcastInDim S_ ![] bcast_S_S_),
    TRef.binary (TRef.of (T := ⟨S32x512, .i32⟩) main_v22) (TRef.of (T := ⟨S_, .i32⟩) main_call5_call0_v0) (TRef.of (T := ⟨S32x512, .i32⟩) main_v23) (fun x v => Host.reduceWindow IntOp.addi ![1, 512] ![1, 1] ![0, 511] ![0, 0] x v reduceWindows_S32x512_S32x512_w1s1p0_0_w512s1p511_0 h_S_),
    nullary main_c_3 (constantI S_ 32 1#32),
    unary main_c_3 main_v24 (broadcastInDim S32x512 ![] bcast_S_S32x512 : (⟨S_, .i32⟩ : BufTy).Contents (Elt F) → (⟨S32x512, .i32⟩ : BufTy).Contents (Elt F)),
    binary main_v23 main_v24 main_v25 (subi : (⟨S32x512, .i32⟩ : BufTy).Contents (Elt F) → (⟨S32x512, .i32⟩ : BufTy).Contents (Elt F) → (⟨S32x512, .i32⟩ : BufTy).Contents (Elt F)),
    unary main_v0 main_v26 (broadcastInDim S1x512 ![1] bcast_S512_S1x512_1 : (⟨S512, .i32⟩ : BufTy).Contents (Elt F) → (⟨S1x512, .i32⟩ : BufTy).Contents (Elt F)),
    nullary main_c_4 (constantI S_ 32 4294967295#32),
    TRef.unary (TRef.of (T := ⟨S_, .i32⟩) main_c_4) (TRef.of (T := ⟨S_, .i32⟩) main_call6_v0) id,
    TRef.unary (TRef.of (T := ⟨S1x512, .i32⟩) main_v26) (TRef.of (T := ⟨S32x512, .i32⟩) main_call6_v1) (broadcastInDim S32x512 ![0, 1] bcast_S1x512_S32x512_0_1),
    TRef.unary (TRef.of (T := ⟨S_, .i32⟩) main_call6_v0) (TRef.of (T := ⟨S32x512, .i32⟩) main_call6_v2) (broadcastInDim S32x512 ![] bcast_S_S32x512),
    TRef.ternary (TRef.of (T := ⟨S32x512, .i1⟩) main_v21) (TRef.of (T := ⟨S32x512, .i32⟩) main_call6_v1) (TRef.of (T := ⟨S32x512, .i32⟩) main_call6_v2) (TRef.of (T := ⟨S32x512, .i32⟩) main_v27) select,
    TRef.nullary (TRef.of (T := ⟨S_, .i32⟩) main_call7_c) (constantI S_ 32 2147483648#32),
    TRef.unary (TRef.of (T := ⟨S_, .i32⟩) main_call7_c) (TRef.of (T := ⟨S_, .i32⟩) main_call7_v0) (broadcastInDim S_ ![] bcast_S_S_),
    TRef.binary (TRef.of (T := ⟨S32x512, .i32⟩) main_v27) (TRef.of (T := ⟨S_, .i32⟩) main_call7_v0) (TRef.of (T := ⟨S32x512, .i32⟩) main_v28) (fun x v => Host.reduceWindow IntOp.maxsi ![1, 512] ![1, 1] ![0, 511] ![0, 0] x v reduceWindows_S32x512_S32x512_w1s1p0_0_w512s1p511_0 h_S_),
    unary main_v0 main_v29 (broadcastInDim S1x512 ![1] bcast_S512_S1x512_1 : (⟨S512, .i32⟩ : BufTy).Contents (Elt F) → (⟨S1x512, .i32⟩ : BufTy).Contents (Elt F)),
    unary main_v29 main_v30 (broadcastInDim S32x512 ![0, 1] bcast_S1x512_S32x512_0_1 : (⟨S1x512, .i32⟩ : BufTy).Contents (Elt F) → (⟨S32x512, .i32⟩ : BufTy).Contents (Elt F)),
    binary main_v30 main_v28 main_v31 (subi : (⟨S32x512, .i32⟩ : BufTy).Contents (Elt F) → (⟨S32x512, .i32⟩ : BufTy).Contents (Elt F) → (⟨S32x512, .i32⟩ : BufTy).Contents (Elt F)),
    nullary main_c_5 (constantI S_ 32 12#32),
    unary main_c_5 main_v32 (broadcastInDim S32x512 ![] bcast_S_S32x512 : (⟨S_, .i32⟩ : BufTy).Contents (Elt F) → (⟨S32x512, .i32⟩ : BufTy).Contents (Elt F)),
    binary main_v31 main_v32 main_v33 (cmpi .slt : (⟨S32x512, .i32⟩ : BufTy).Contents (Elt F) → (⟨S32x512, .i32⟩ : BufTy).Contents (Elt F) → (⟨S32x512, .i1⟩ : BufTy).Contents (Elt F)),
    binary main_v17 main_v33 main_v34 (andi : (⟨S32x512, .i1⟩ : BufTy).Contents (Elt F) → (⟨S32x512, .i1⟩ : BufTy).Contents (Elt F) → (⟨S32x512, .i1⟩ : BufTy).Contents (Elt F)),
    nullary main_c_6 (constantI S_ 32 32#32),
    unary main_c_6 main_v35 (broadcastInDim S32x512 ![] bcast_S_S32x512 : (⟨S_, .i32⟩ : BufTy).Contents (Elt F) → (⟨S32x512, .i32⟩ : BufTy).Contents (Elt F)),
    binary main_v25 main_v35 main_v36 (cmpi .slt : (⟨S32x512, .i32⟩ : BufTy).Contents (Elt F) → (⟨S32x512, .i32⟩ : BufTy).Contents (Elt F) → (⟨S32x512, .i1⟩ : BufTy).Contents (Elt F)),
    binary main_v34 main_v36 main_v37 (andi : (⟨S32x512, .i1⟩ : BufTy).Contents (Elt F) → (⟨S32x512, .i1⟩ : BufTy).Contents (Elt F) → (⟨S32x512, .i1⟩ : BufTy).Contents (Elt F)),
    nullary main_c_7 (constantI S_ 32 32#32),
    TRef.unary (TRef.of (T := ⟨S_, .i32⟩) main_c_7) (TRef.of (T := ⟨S_, .i32⟩) main_call8_v0) id,
    TRef.unary (TRef.of (T := ⟨S_, .i32⟩) main_call8_v0) (TRef.of (T := ⟨S32x512, .i32⟩) main_call8_v1) (broadcastInDim S32x512 ![] bcast_S_S32x512),
    TRef.ternary (TRef.of (T := ⟨S32x512, .i1⟩) main_v37) (TRef.of (T := ⟨S32x512, .i32⟩) main_v25) (TRef.of (T := ⟨S32x512, .i32⟩) main_call8_v1) (TRef.of (T := ⟨S32x512, .i32⟩) main_v38) select,
    nullary main_c_8 (constantI S_ 32 0#32),
    nullary main_c_9 (constantI S_ 32 11#32),
    TRef.unary (TRef.of (T := ⟨S_, .i32⟩) main_c_8) (TRef.of (T := ⟨S_, .i32⟩) main_call9_v0) id,
    TRef.unary (TRef.of (T := ⟨S_, .i32⟩) main_call9_v0) (TRef.of (T := ⟨S32x512, .i32⟩) main_call9_v1) (broadcastInDim S32x512 ![] bcast_S_S32x512),
    TRef.binary (TRef.of (T := ⟨S32x512, .i32⟩) main_call9_v1) (TRef.of (T := ⟨S32x512, .i32⟩) main_v31) (TRef.of (T := ⟨S32x512, .i32⟩) main_call9_v2) maxsi,
    TRef.unary (TRef.of (T := ⟨S_, .i32⟩) main_c_9) (TRef.of (T := ⟨S_, .i32⟩) main_call9_v3) id,
    TRef.unary (TRef.of (T := ⟨S_, .i32⟩) main_call9_v3) (TRef.of (T := ⟨S32x512, .i32⟩) main_call9_v4) (broadcastInDim S32x512 ![] bcast_S_S32x512),
    TRef.binary (TRef.of (T := ⟨S32x512, .i32⟩) main_call9_v4) (TRef.of (T := ⟨S32x512, .i32⟩) main_call9_v2) (TRef.of (T := ⟨S32x512, .i32⟩) main_v39) minsi,
    nullary main_cst (constant S_ .f32 0x00000000#32),
    unary main_cst main_v40 (broadcastInDim S32x33x12x1024 ![] bcast_S_S32x33x12x1024 : (⟨S_, .f32⟩ : BufTy).Contents (Elt F) → (⟨S32x33x12x1024, .f32⟩ : BufTy).Contents (Elt F)),
    nullary main_v41 (iotaInDim S32 32 0),
    unary main_v41 main_v42 (broadcastInDim S32x1 ![0] bcast_S32_S32x1_0 : (⟨S32, .i32⟩ : BufTy).Contents (Elt F) → (⟨S32x1, .i32⟩ : BufTy).Contents (Elt F)),
    nullary main_c_10 (constantI S_ 32 0#32),
    unary main_c_10 main_v43 (broadcastInDim S32x1 ![] bcast_S_S32x1 : (⟨S_, .i32⟩ : BufTy).Contents (Elt F) → (⟨S32x1, .i32⟩ : BufTy).Contents (Elt F)),
    binary main_v42 main_v43 main_v44 (cmpi .slt : (⟨S32x1, .i32⟩ : BufTy).Contents (Elt F) → (⟨S32x1, .i32⟩ : BufTy).Contents (Elt F) → (⟨S32x1, .i1⟩ : BufTy).Contents (Elt F)),
    nullary main_c_11 (constantI S_ 32 32#32),
    unary main_c_11 main_v45 (broadcastInDim S32x1 ![] bcast_S_S32x1 : (⟨S_, .i32⟩ : BufTy).Contents (Elt F) → (⟨S32x1, .i32⟩ : BufTy).Contents (Elt F)),
    binary main_v42 main_v45 main_v46 (addi : (⟨S32x1, .i32⟩ : BufTy).Contents (Elt F) → (⟨S32x1, .i32⟩ : BufTy).Contents (Elt F) → (⟨S32x1, .i32⟩ : BufTy).Contents (Elt F)),
    ternary main_v44 main_v46 main_v42 main_v47 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_12 (constantI S_ 32 0#32),
    unary main_c_12 main_v48 (broadcastInDim S32x512 ![] bcast_S_S32x512 : (⟨S_, .i32⟩ : BufTy).Contents (Elt F) → (⟨S32x512, .i32⟩ : BufTy).Contents (Elt F)),
    binary main_v38 main_v48 main_v49 (cmpi .slt : (⟨S32x512, .i32⟩ : BufTy).Contents (Elt F) → (⟨S32x512, .i32⟩ : BufTy).Contents (Elt F) → (⟨S32x512, .i1⟩ : BufTy).Contents (Elt F)),
    nullary main_c_13 (constantI S_ 32 33#32),
    unary main_c_13 main_v50 (broadcastInDim S32x512 ![] bcast_S_S32x512 : (⟨S_, .i32⟩ : BufTy).Contents (Elt F) → (⟨S32x512, .i32⟩ : BufTy).Contents (Elt F)),
    binary main_v38 main_v50 main_v51 (addi : (⟨S32x512, .i32⟩ : BufTy).Contents (Elt F) → (⟨S32x512, .i32⟩ : BufTy).Contents (Elt F) → (⟨S32x512, .i32⟩ : BufTy).Contents (Elt F)),
    ternary main_v49 main_v51 main_v38 main_v52 (select : (⟨S32x512, .i1⟩ : BufTy).Contents (Elt F) → (⟨S32x512, .i32⟩ : BufTy).Contents (Elt F) → (⟨S32x512, .i32⟩ : BufTy).Contents (Elt F) → (⟨S32x512, .i32⟩ : BufTy).Contents (Elt F)),
    nullary main_c_14 (constantI S_ 32 0#32),
    unary main_c_14 main_v53 (broadcastInDim S32x512 ![] bcast_S_S32x512 : (⟨S_, .i32⟩ : BufTy).Contents (Elt F) → (⟨S32x512, .i32⟩ : BufTy).Contents (Elt F)),
    binary main_v39 main_v53 main_v54 (cmpi .slt : (⟨S32x512, .i32⟩ : BufTy).Contents (Elt F) → (⟨S32x512, .i32⟩ : BufTy).Contents (Elt F) → (⟨S32x512, .i1⟩ : BufTy).Contents (Elt F)),
    nullary main_c_15 (constantI S_ 32 12#32),
    unary main_c_15 main_v55 (broadcastInDim S32x512 ![] bcast_S_S32x512 : (⟨S_, .i32⟩ : BufTy).Contents (Elt F) → (⟨S32x512, .i32⟩ : BufTy).Contents (Elt F)),
    binary main_v39 main_v55 main_v56 (addi : (⟨S32x512, .i32⟩ : BufTy).Contents (Elt F) → (⟨S32x512, .i32⟩ : BufTy).Contents (Elt F) → (⟨S32x512, .i32⟩ : BufTy).Contents (Elt F)),
    ternary main_v54 main_v56 main_v39 main_v57 (select : (⟨S32x512, .i1⟩ : BufTy).Contents (Elt F) → (⟨S32x512, .i32⟩ : BufTy).Contents (Elt F) → (⟨S32x512, .i32⟩ : BufTy).Contents (Elt F) → (⟨S32x512, .i32⟩ : BufTy).Contents (Elt F)),
    unary main_v47 main_v58 (broadcastInDim S32x512 ![0, 1] bcast_S32x1_S32x512_0_1 : (⟨S32x1, .i32⟩ : BufTy).Contents (Elt F) → (⟨S32x512, .i32⟩ : BufTy).Contents (Elt F)),
    unary main_v58 main_v59 (broadcastInDim S32x512x1 ![0, 1] bcast_S32x512_S32x512x1_0_1 : (⟨S32x512, .i32⟩ : BufTy).Contents (Elt F) → (⟨S32x512x1, .i32⟩ : BufTy).Contents (Elt F)),
    unary main_v52 main_v60 (broadcastInDim S32x512x1 ![0, 1] bcast_S32x512_S32x512x1_0_1 : (⟨S32x512, .i32⟩ : BufTy).Contents (Elt F) → (⟨S32x512x1, .i32⟩ : BufTy).Contents (Elt F)),
    unary main_v57 main_v61 (broadcastInDim S32x512x1 ![0, 1] bcast_S32x512_S32x512x1_0_1 : (⟨S32x512, .i32⟩ : BufTy).Contents (Elt F) → (⟨S32x512x1, .i32⟩ : BufTy).Contents (Elt F)),
    nary ![main_v59, main_v60, main_v61] main_v62 (fun u => concatenate S32x512x3 2 [⟨S32x512x1, u 0⟩, ⟨S32x512x1, u 1⟩, ⟨S32x512x1, u 2⟩] concatenates_S32x512x1_S32x512x1_S32x512x1_S32x512x3_d2),
    ternary main_v40 main_v62 main_arg0 main_v63 ((fun x i u => Host.scatter scatter_S32x33x12x1024_S32x512x3_S32x512x1024_2_012_012_2 (fun _ b => b) x i u) : (⟨S32x33x12x1024, .f32⟩ : BufTy).Contents (Elt F) → (⟨S32x512x3, .i32⟩ : BufTy).Contents (Elt F) → (⟨S32x512x1024, .f32⟩ : BufTy).Contents (Elt F) → (⟨S32x33x12x1024, .f32⟩ : BufTy).Contents (Elt F)),
    unary main_v63 main_v64 ((extractStridedSlice S32x32x12x1024 ![0, 0, 0, 0] · slices_S32x33x12x1024_S32x32x12x1024_0_0_0_0) : (⟨S32x33x12x1024, .f32⟩ : BufTy).Contents (Elt F) → (⟨S32x32x12x1024, .f32⟩ : BufTy).Contents (Elt F)) ]

set_option maxRecDepth 8192 in
set_option maxHeartbeats 4000000 in
/-- @main is that straight line: its two stretches and the functions' bodies unfold at their calls, the records at
    their fields, and both sides are then the same chain of host steps. -/
theorem main_eq (c : Dev nD) : main (F := F) c = seq ops := rfl

/-- No TensorCore buffer of the program is scoped to a region. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

set_option maxRecDepth 8192 in
/-- Every operation reads and writes TensorCore buffers only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    nullary_bufs_sub .., unary_bufs_sub .., binary_bufs_sub .., unary_bufs_sub .., unary_bufs_sub .., ternary_bufs_sub ..,
    nullary_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    unary_bufs_sub .., unary_bufs_sub .., unary_bufs_sub .., binary_bufs_sub .., nullary_bufs_sub .., unary_bufs_sub ..,
    binary_bufs_sub .., unary_bufs_sub .., nullary_bufs_sub .., nullary_bufs_sub .., unary_bufs_sub .., binary_bufs_sub ..,
    unary_bufs_sub .., binary_bufs_sub .., unary_bufs_sub .., binary_bufs_sub .., unary_bufs_sub .., nullary_bufs_sub ..,
    unary_bufs_sub .., binary_bufs_sub .., nullary_bufs_sub .., unary_bufs_sub .., binary_bufs_sub .., unary_bufs_sub ..,
    nullary_bufs_sub .., unary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., unary_bufs_sub .., ternary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., unary_bufs_sub ..,
    nary_bufs_sub .., ternary_bufs_sub .., unary_bufs_sub ..⟩

set_option maxRecDepth 8192 in
set_option maxHeartbeats 4000000 in
/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefVals.lean ====
/- The reference line's buffers, one operation at a time. For each buffer some operation of the line writes: its
   contents after the WHOLE line, from any contents V, are that operation's function of its operands' contents after
   the whole line. (The line is in single-assignment form: the one operation that writes a buffer runs after the ones
   that write its operands, nothing later touches either, so reading after the whole line or at the operation's own
   place gives the same contents.) Each equation cuts the line at the place of the operation that writes the buffer:
   nothing from that place on writes an operand, nothing after it writes the buffer (both checked on the list of written
   references), so both sides are read after the first k operations, where the operation's result is its function of
   its operands; the typed references' casts are identities at literal references. The two arguments are written by
   nothing and keep V's contents. -/
import proofs.«139113_j90056874263205_2_alg».proof.Proof.RefRun

noncomputable section

/-! ## Reading a line at one buffer

Reading a straight line of host operations at one buffer, without unrolling the line.
   A line in single-assignment form writes each buffer at most once, after the operations that write its operands.
   So the contents of a buffer `y` after the WHOLE line are what the one operation writing it — at place `k` — leaves
   there, computed from the contents after the first `k` operations; and an operand `x` of that operation, written by
   nothing from place `k` on, has after the whole line the contents it had after the first `k`. Together: the buffer is
   the operation's function of its operands, every one read after the whole line. Which buffers the later operations
   write is compared on a LIST of references, one per operation (membership there is decidable by computation). -/

namespace Cert.AfterAt

open Idealize.ShloMosaic Idealize.ShloMosaic.TcCoe Idealize.SL.Sem Idealize.ShloMosaic.StableHlo

variable {τ : Topo} {sig : RefSig} {Val : EltTy → Type}

/-- Running two lines one after the other folds the second over the first's outcome. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The line cut at place `k`. -/
theorem after_split (l : List (HloOp τ sig Val)) (k : Nat) (V : Valuation τ sig Val) :
    after l V = after (l.drop k) (after (l.take k) V) := by
  rw [← after_append, List.take_append_drop]

/-- `W` lists, in order, the one buffer each operation of `l` writes. -/
def WritesAre (l : List (HloOp τ sig Val)) (W : List (Ref sig .tc)) : Prop :=
  l.map (·.writes) = W.map fun r => ({Proc.devRef (τ := τ) .tc r} : Finset (DevRef τ sig))

/-- A reference not among those written from place `k` on is written by no operation from place `k` on. -/
theorem not_written {l : List (HloOp τ sig Val)} {W : List (Ref sig .tc)} (hW : WritesAre l W) (k : Nat)
    {r : Ref sig .tc} (hr : r ∉ W.drop k) : ∀ op ∈ l.drop k, (Proc.devRef (τ := τ) .tc r) ∉ op.writes := by
  intro op hop hmem
  have h1 : op.writes ∈ (l.drop k).map (·.writes) := List.mem_map_of_mem hop
  rw [List.map_drop, hW, ← List.map_drop] at h1
  obtain ⟨r', hr', he⟩ := List.mem_map.mp h1
  rw [← he, Finset.mem_singleton] at hmem
  exact hr (Proc.devRef_injective _ hmem ▸ hr')

/-- An operand not written from place `k` on: after the whole line it holds what it held after the first `k` operations. -/
theorem after_keep {l : List (HloOp τ sig Val)} {W : List (Ref sig .tc)} (hW : WritesAre l W) (k : Nat)
    (x : Ref sig .tc) (hx : x ∉ W.drop k) (V : Valuation τ sig Val) :
    after l V (Proc.devRef .tc x) = after (l.take k) V (Proc.devRef .tc x) := by
  rw [after_split l k V, after_of_forall_not_mem _ _ (not_written hW k hx)]

/-- The buffer the operation at place `k` writes, written by nothing later: after the whole line it holds that
    operation's result from the contents after the first `k` operations. -/
theorem after_step {l : List (HloOp τ sig Val)} {W : List (Ref sig .tc)} (hW : WritesAre l W) (k : Nat)
    (op : HloOp τ sig Val) (hk : l[k]? = some op) (y : Ref sig .tc) (hy : y ∉ W.drop (k + 1)) (V : Valuation τ sig Val) :
    after l V (Proc.devRef .tc y) = op.result (after (l.take k) V) (Proc.devRef .tc y) := by
  have hlt : k < l.length := by
    rcases Nat.lt_or_ge k l.length with h | h
    · exact h
    · rw [List.getElem?_eq_none h] at hk; cases hk
  have hop : l[k] = op := by
    rw [List.getElem?_eq_getElem hlt] at hk; exact Option.some.inj hk
  have htake : l.take (k + 1) = l.take k ++ [op] := by
    rw [List.take_succ, List.getElem?_eq_getElem hlt, hop]; rfl
  rw [after_split l (k + 1) V, after_of_forall_not_mem _ _ (not_written hW (k + 1) hy), htake, after_append]
  rfl

variable {l : List (HloOp τ sig Val)} {W : List (Ref sig .tc)}

/-- A buffer a constant operation writes. -/
theorem nullary_at (hW : WritesAre l W) (k : Nat) (y : Ref sig .tc) (v : y.ty.Contents Val) (hy)
    (hk : l[k]? = some (nullary (τ := τ) y v hy)) (hy' : y ∉ W.drop (k + 1)) (V : Valuation τ sig Val) :
    after l V (Proc.devRef .tc y) = v := by
  rw [after_step hW k _ hk y hy' V, nullary_result]

/-- A buffer a one-operand operation writes. -/
theorem unary_at (hW : WritesAre l W) (k : Nat) (x y : Ref sig .tc) (f : x.ty.Contents Val → y.ty.Contents Val) (hx hy)
    (hk : l[k]? = some (unary (τ := τ) x y f hx hy)) (hy' : y ∉ W.drop (k + 1)) (hx' : x ∉ W.drop k) (V : Valuation τ sig Val) :
    after l V (Proc.devRef .tc y) = f (after l V (Proc.devRef .tc x)) := by
  rw [after_step hW k _ hk y hy' V, unary_result, after_keep hW k x hx' V]

/-- A buffer a two-operand operation writes. -/
theorem binary_at (hW : WritesAre l W) (k : Nat) (a b y : Ref sig .tc)
    (f : a.ty.Contents Val → b.ty.Contents Val → y.ty.Contents Val) (ha hb hy)
    (hk : l[k]? = some (binary (τ := τ) a b y f ha hb hy)) (hy' : y ∉ W.drop (k + 1)) (ha' : a ∉ W.drop k) (hb' : b ∉ W.drop k)
    (V : Valuation τ sig Val) :
    after l V (Proc.devRef .tc y) = f (after l V (Proc.devRef .tc a)) (after l V (Proc.devRef .tc b)) := by
  rw [after_step hW k _ hk y hy' V, binary_result, after_keep hW k a ha' V, after_keep hW k b hb' V]

/-- A buffer a three-operand operation writes. -/
theorem ternary_at (hW : WritesAre l W) (k : Nat) (c a b y : Ref sig .tc)
    (f : c.ty.Contents Val → a.ty.Contents Val → b.ty.Contents Val → y.ty.Contents Val) (hc ha hb hy)
    (hk : l[k]? = some (ternary (τ := τ) c a b y f hc ha hb hy)) (hy' : y ∉ W.drop (k + 1))
    (hc' : c ∉ W.drop k) (ha' : a ∉ W.drop k) (hb' : b ∉ W.drop k) (V : Valuation τ sig Val) :
    after l V (Proc.devRef .tc y)
      = f (after l V (Proc.devRef .tc c)) (after l V (Proc.devRef .tc a)) (after l V (Proc.devRef .tc b)) := by
  rw [after_step hW k _ hk y hy' V, ternary_result, after_keep hW k c hc' V, after_keep hW k a ha' V, after_keep hW k b hb' V]

/-- A buffer a reshape writes. -/
theorem reshape_at (hW : WritesAre l W) (k : Nat) (x y : Ref sig .tc) (he : x.ty.elt = y.ty.elt)
    (hn : x.ty.shape.ShapeCasts y.ty.shape) (hx hy)
    (hk : l[k]? = some (reshape (τ := τ) (Val := Val) x y he hn hx hy)) (hy' : y ∉ W.drop (k + 1)) (hx' : x ∉ W.drop k)
    (V : Valuation τ sig Val) :
    after l V (Proc.devRef .tc y) = fun i => he ▸ shapeCast y.ty.shape (after l V (Proc.devRef .tc x)) hn i := by
  rw [after_step hW k _ hk y hy' V, reshape_result, after_keep hW k x hx' V]

/-- A buffer an operation over a family of operands writes. -/
theorem nary_at (hW : WritesAre l W) (k : Nat) {n : Nat} (xs : Fin n → Ref sig .tc) (y : Ref sig .tc)
    (f : ((j : Fin n) → (xs j).ty.Contents Val) → y.ty.Contents Val) (hxs hy)
    (hk : l[k]? = some (nary (τ := τ) xs y f hxs hy)) (hy' : y ∉ W.drop (k + 1)) (hx' : ∀ j, xs j ∉ W.drop k)
    (V : Valuation τ sig Val) :
    after l V (Proc.devRef .tc y) = f (fun j => after l V (Proc.devRef .tc (xs j))) := by
  rw [after_step hW k _ hk y hy' V, nary_result]
  congr 1
  funext j
  exact (after_keep hW k (xs j) (hx' j) V).symm

end Cert.AfterAt

/-! ## The reference line's buffers -/

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer each operation of the line writes, in order. -/
noncomputable def wrs : List (Ref sig .tc) :=
  [main_v0, main_c, main_v1, main_v2, main_v3, main_v4, main_c_0, main_v5,
   main_v6, main_call0_v0, main_call0_v1, main_v7, main_call1_v0, main_call1_v1_0, main_v8, main_v9,
   main_call2_c, main_call2_v0, main_call2_v1, main_call2_c_0, main_call2_v2, main_call2_v3, main_call2_v4, main_call2_c_1,
   main_call2_c_2, main_call2_v5, main_call2_v6, main_call2_v7, main_call2_v8, main_call2_v9, main_call2_v10, main_call2_c_3,
   main_call2_v11, main_call2_v12, main_call2_v13, main_call2_cst, main_call2_v14, main_v10, main_call3_c, main_call3_v0,
   main_call3_v1, main_call3_c_0, main_call3_v2, main_call3_v3, main_call3_v4, main_call3_v5, main_call3_c_1, main_call3_c_2,
   main_call3_v6, main_call3_v7, main_call3_v8, main_call3_v9, main_call3_v10, main_call3_v11, main_call3_c_3, main_call3_v12,
   main_call3_v13, main_call3_c_4, main_call3_v14, main_v11, main_v12, main_v13, main_v14, main_v15,
   main_c_1, main_v16, main_v17, main_v18, main_c_2, main_call4_c, main_call4_v0, main_call4_v1,
   main_call4_v2, main_v19, main_v20, main_v21, main_v22, main_call5_call0_c, main_call5_call0_v0, main_v23,
   main_c_3, main_v24, main_v25, main_v26, main_c_4, main_call6_v0, main_call6_v1, main_call6_v2,
   main_v27, main_call7_c, main_call7_v0, main_v28, main_v29, main_v30, main_v31, main_c_5,
   main_v32, main_v33, main_v34, main_c_6, main_v35, main_v36, main_v37, main_c_7,
   main_call8_v0, main_call8_v1, main_v38, main_c_8, main_c_9, main_call9_v0, main_call9_v1, main_call9_v2,
   main_call9_v3, main_call9_v4, main_v39, main_cst, main_v40, main_v41, main_v42, main_c_10,
   main_v43, main_v44, main_c_11, main_v45, main_v46, main_v47, main_c_12, main_v48,
   main_v49, main_c_13, main_v50, main_v51, main_v52, main_c_14, main_v53, main_v54,
   main_c_15, main_v55, main_v56, main_v57, main_v58, main_v59, main_v60, main_v61,
   main_v62, main_v63, main_v64]

set_option maxRecDepth 8192 in
/-- Each operation writes exactly the buffer listed at its place. -/
theorem ops_writes : Cert.AfterAt.WritesAre (ops (F := F)) wrs := rfl

-- the equations below never look inside the fold or the big host functions: kept folded, so that comparing the two
-- sides of an equation cannot start evaluating them
attribute [local irreducible] after Host.reduce Host.reduceWindow Host.gather Host.scatter Host.sort2 pad

theorem val_main_arg0 (V : Valuation τ sig (Elt F)) :
    after ops V (main_arg0 : DevRef τ sig) = V (main_arg0 : DevRef τ sig) :=
  after_of_forall_not_mem _ V (Cert.AfterAt.not_written (ops_writes (F := F)) 0 (by decide))

theorem val_main_arg1 (V : Valuation τ sig (Elt F)) :
    after ops V (main_arg1 : DevRef τ sig) = V (main_arg1 : DevRef τ sig) :=
  after_of_forall_not_mem _ V (Cert.AfterAt.not_written (ops_writes (F := F)) 0 (by decide))

theorem val_main_v0 (V : Valuation τ sig (Elt F)) :
    after ops V (main_v0 : DevRef τ sig) = (iotaInDim S512 32 0) := by
  have h := Cert.AfterAt.nullary_at (ops_writes (F := F)) 0 main_v0 _ _ rfl (by decide) V
  exact h

theorem val_main_c (V : Valuation τ sig (Elt F)) :
    after ops V (main_c : DevRef τ sig) = (constantI S_ 32 2#32) := by
  have h := Cert.AfterAt.nullary_at (ops_writes (F := F)) 1 main_c _ _ rfl (by decide) V
  exact h

theorem val_main_v1 (V : Valuation τ sig (Elt F)) :
    after ops V (main_v1 : DevRef τ sig) = ((broadcastInDim S32x512 ![] bcast_S_S32x512) (after ops V (main_c : DevRef τ sig)) : (⟨S32x512, .i32⟩ : BufTy).Contents (Elt F)) := by
  have h := Cert.AfterAt.unary_at (ops_writes (F := F)) 2 main_c main_v1 _ _ _ rfl (by decide) (by decide) V
  exact h

theorem val_main_v2 (V : Valuation τ sig (Elt F)) :
    after ops V (main_v2 : DevRef τ sig) = ((cmpi .eq) (after ops V (main_arg1 : DevRef τ sig)) (after ops V (main_v1 : DevRef τ sig)) : (⟨S32x512, .i1⟩ : BufTy).Contents (Elt F)) := by
  have h := Cert.AfterAt.binary_at (ops_writes (F := F)) 3 main_arg1 main_v1 main_v2 _ _ _ _ rfl (by decide) (by decide) (by decide) V
  exact h

theorem val_main_v3 (V : Valuation τ sig (Elt F)) :
    after ops V (main_v3 : DevRef τ sig) = ((broadcastInDim S1x512 ![1] bcast_S512_S1x512_1) (after ops V (main_v0 : DevRef τ sig)) : (⟨S1x512, .i32⟩ : BufTy).Contents (Elt F)) := by
  have h := Cert.AfterAt.unary_at (ops_writes (F := F)) 4 main_v0 main_v3 _ _ _ rfl (by decide) (by decide) V
  exact h

theorem val_main_v4 (V : Valuation τ sig (Elt F)) :
    after ops V (main_v4 : DevRef τ sig) = ((broadcastInDim S1x512 ![1] bcast_S512_S1x512_1) (after ops V (main_v0 : DevRef τ sig)) : (⟨S1x512, .i32⟩ : BufTy).Contents (Elt F)) := by
  have h := Cert.AfterAt.unary_at (ops_writes (F := F)) 5 main_v0 main_v4 _ _ _ rfl (by decide) (by decide) V
  exact h

theorem val_main_c_0 (V : Valuation τ sig (Elt F)) :
    after ops V (main_c_0 : DevRef τ sig) = (constantI S_ 32 512#32) := by
  have h := Cert.AfterAt.nullary_at (ops_writes (F := F)) 6 main_c_0 _ _ rfl (by decide) V
  exact h

theorem val_main_v5 (V : Valuation τ sig (Elt F)) :
    after ops V (main_v5 : DevRef τ sig) = ((broadcastInDim S1x512 ![] bcast_S_S1x512) (after ops V (main_c_0 : DevRef τ sig)) : (⟨S1x512, .i32⟩ : BufTy).Contents (Elt F)) := by
  have h := Cert.AfterAt.unary_at (ops_writes (F := F)) 7 main_c_0 main_v5 _ _ _ rfl (by decide) (by decide) V
  exact h

theorem val_main_v6 (V : Valuation τ sig (Elt F)) :
    after ops V (main_v6 : DevRef τ sig) = (addi (after ops V (main_v5 : DevRef τ sig)) (after ops V (main_v4 : DevRef τ sig)) : (⟨S1x512, .i32⟩ : BufTy).Contents (Elt F)) := by
  have h := Cert.AfterAt.binary_at (ops_writes (F := F)) 8 main_v5 main_v4 main_v6 _ _ _ _ rfl (by decide) (by decide) (by decide) V
  exact h

theorem val_main_call0_v0 (V : Valuation τ sig (Elt F)) :
    after ops V (main_call0_v0 : DevRef τ sig) = ((broadcastInDim S32x512 ![0, 1] bcast_S1x512_S32x512_0_1) (after ops V (main_v3 : DevRef τ sig)) : (⟨S32x512, .i32⟩ : BufTy).Contents (Elt F)) := by
  have h := Cert.AfterAt.unary_at (ops_writes (F := F)) 9 main_v3 main_call0_v0 _ _ _ rfl (by decide) (by decide) V
  exact h

theorem val_main_call0_v1 (V : Valuation τ sig (Elt F)) :
    after ops V (main_call0_v1 : DevRef τ sig) = ((broadcastInDim S32x512 ![0, 1] bcast_S1x512_S32x512_0_1) (after ops V (main_v6 : DevRef τ sig)) : (⟨S32x512, .i32⟩ : BufTy).Contents (Elt F)) := by
  have h := Cert.AfterAt.unary_at (ops_writes (F := F)) 10 main_v6 main_call0_v1 _ _ _ rfl (by decide) (by decide) V
  exact h

theorem val_main_v7 (V : Valuation τ sig (Elt F)) :
    after ops V (main_v7 : DevRef τ sig) = (select (after ops V (main_v2 : DevRef τ sig)) (after ops V (main_call0_v0 : DevRef τ sig)) (after ops V (main_call0_v1 : DevRef τ sig)) : (⟨S32x512, .i32⟩ : BufTy).Contents (Elt F)) := by
  have h := Cert.AfterAt.ternary_at (ops_writes (F := F)) 11 main_v2 main_call0_v0 main_call0_v1 main_v7 _ _ _ _ _ rfl (by decide) (by decide) (by decide) (by decide) V
  exact h

theorem val_main_call1_v0 (V : Valuation τ sig (Elt F)) :
    after ops V (main_call1_v0 : DevRef τ sig) = ((iotaInDim S32x512 32 1) : (⟨S32x512, .i32⟩ : BufTy).Contents (Elt F)) := by
  have h := Cert.AfterAt.nullary_at (ops_writes (F := F)) 12 main_call1_v0 _ _ rfl (by decide) V
  exact h

theorem val_main_call1_v1_0 (V : Valuation τ sig (Elt F)) :
    after ops V (main_call1_v1_0 : DevRef τ sig) = ((Host.sort2 S32x512 1 comparator_i32_i32_d1 (after ops V (main_v7 : DevRef τ sig)) (after ops V (main_call1_v0 : DevRef τ sig))).1 : (⟨S32x512, .i32⟩ : BufTy).Contents (Elt F)) := by
  have h := Cert.AfterAt.binary_at (ops_writes (F := F)) 13 main_v7 main_call1_v0 main_call1_v1_0 _ _ _ _ rfl (by decide) (by decide) (by decide) V
  exact h

theorem val_main_v8 (V : Valuation τ sig (Elt F)) :
    after ops V (main_v8 : DevRef τ sig) = ((Host.sort2 S32x512 1 comparator_i32_i32_d1 (after ops V (main_v7 : DevRef τ sig)) (after ops V (main_call1_v0 : DevRef τ sig))).2 : (⟨S32x512, .i32⟩ : BufTy).Contents (Elt F)) := by
  have h := Cert.AfterAt.binary_at (ops_writes (F := F)) 14 main_v7 main_call1_v0 main_v8 _ _ _ _ rfl (by decide) (by decide) (by decide) V
  exact h

theorem val_main_v9 (V : Valuation τ sig (Elt F)) :
    after ops V (main_v9 : DevRef τ sig) = ((broadcastInDim S32x512x1 ![0, 1] bcast_S32x512_S32x512x1_0_1) (after ops V (main_v8 : DevRef τ sig)) : (⟨S32x512x1, .i32⟩ : BufTy).Contents (Elt F)) := by
  have h := Cert.AfterAt.unary_at (ops_writes (F := F)) 15 main_v8 main_v9 _ _ _ rfl (by decide) (by decide) V
  exact h

theorem val_main_call2_c (V : Valuation τ sig (Elt F)) :
    after ops V (main_call2_c : DevRef τ sig) = ((constantI S_ 32 0#32) : (⟨S_, .i32⟩ : BufTy).Contents (Elt F)) := by
  have h := Cert.AfterAt.nullary_at (ops_writes (F := F)) 16 main_call2_c _ _ rfl (by decide) V
  exact h

theorem val_main_call2_v0 (V : Valuation τ sig (Elt F)) :
    after ops V (main_call2_v0 : DevRef τ sig) = ((broadcastInDim S32x512x1 ![] bcast_S_S32x512x1) (after ops V (main_call2_c : DevRef τ sig)) : (⟨S32x512x1, .i32⟩ : BufTy).Contents (Elt F)) := by
  have h := Cert.AfterAt.unary_at (ops_writes (F := F)) 17 main_call2_c main_call2_v0 _ _ _ rfl (by decide) (by decide) V
  exact h

theorem val_main_call2_v1 (V : Valuation τ sig (Elt F)) :
    after ops V (main_call2_v1 : DevRef τ sig) = ((cmpi .slt) (after ops V (main_v9 : DevRef τ sig)) (after ops V (main_call2_v0 : DevRef τ sig)) : (⟨S32x512x1, .i1⟩ : BufTy).Contents (Elt F)) := by
  have h := Cert.AfterAt.binary_at (ops_writes (F := F)) 18 main_v9 main_call2_v0 main_call2_v1 _ _ _ _ rfl (by decide) (by decide) (by decide) V
  exact h

theorem val_main_call2_c_0 (V : Valuation τ sig (Elt F)) :
    after ops V (main_call2_c_0 : DevRef τ sig) = ((constantI S_ 32 512#32) : (⟨S_, .i32⟩ : BufTy).Contents (Elt F)) := by
  have h := Cert.AfterAt.nullary_at (ops_writes (F := F)) 19 main_call2_c_0 _ _ rfl (by decide) V
  exact h

theorem val_main_call2_v2 (V : Valuation τ sig (Elt F)) :
    after ops V (main_call2_v2 : DevRef τ sig) = ((broadcastInDim S32x512x1 ![] bcast_S_S32x512x1) (after ops V (main_call2_c_0 : DevRef τ sig)) : (⟨S32x512x1, .i32⟩ : BufTy).Contents (Elt F)) := by
  have h := Cert.AfterAt.unary_at (ops_writes (F := F)) 20 main_call2_c_0 main_call2_v2 _ _ _ rfl (by decide) (by decide) V
  exact h

theorem val_main_call2_v3 (V : Valuation τ sig (Elt F)) :
    after ops V (main_call2_v3 : DevRef τ sig) = (addi (after ops V (main_v9 : DevRef τ sig)) (after ops V (main_call2_v2 : DevRef τ sig)) : (⟨S32x512x1, .i32⟩ : BufTy).Contents (Elt F)) := by
  have h := Cert.AfterAt.binary_at (ops_writes (F := F)) 21 main_v9 main_call2_v2 main_call2_v3 _ _ _ _ rfl (by decide) (by decide) (by decide) V
  exact h

theorem val_main_call2_v4 (V : Valuation τ sig (Elt F)) :
    after ops V (main_call2_v4 : DevRef τ sig) = (select (after ops V (main_call2_v1 : DevRef τ sig)) (after ops V (main_call2_v3 : DevRef τ sig)) (after ops V (main_v9 : DevRef τ sig)) : (⟨S32x512x1, .i32⟩ : BufTy).Contents (Elt F)) := by
  have h := Cert.AfterAt.ternary_at (ops_writes (F := F)) 22 main_call2_v1 main_call2_v3 main_v9 main_call2_v4 _ _ _ _ _ rfl (by decide) (by decide) (by decide) (by decide) V
  exact h

theorem val_main_call2_c_1 (V : Valuation τ sig (Elt F)) :
    after ops V (main_call2_c_1 : DevRef τ sig) = ((constantI S1 32 511#32) : (⟨S1, .i32⟩ : BufTy).Contents (Elt F)) := by
  have h := Cert.AfterAt.nullary_at (ops_writes (F := F)) 23 main_call2_c_1 _ _ rfl (by decide) V
  exact h

theorem val_main_call2_c_2 (V : Valuation τ sig (Elt F)) :
    after ops V (main_call2_c_2 : DevRef τ sig) = ((constantI S_ 32 0#32) : (⟨S_, .i32⟩ : BufTy).Contents (Elt F)) := by
  have h := Cert.AfterAt.nullary_at (ops_writes (F := F)) 24 main_call2_c_2 _ _ rfl (by decide) V
  exact h

theorem val_main_call2_v5 (V : Valuation τ sig (Elt F)) :
    after ops V (main_call2_v5 : DevRef τ sig) = ((broadcastInDim S32x512x1 ![] bcast_S_S32x512x1) (after ops V (main_call2_c_2 : DevRef τ sig)) : (⟨S32x512x1, .i32⟩ : BufTy).Contents (Elt F)) := by
  have h := Cert.AfterAt.unary_at (ops_writes (F := F)) 25 main_call2_c_2 main_call2_v5 _ _ _ rfl (by decide) (by decide) V
  exact h

theorem val_main_call2_v6 (V : Valuation τ sig (Elt F)) :
    after ops V (main_call2_v6 : DevRef τ sig) = ((cmpi .sge) (after ops V (main_call2_v4 : DevRef τ sig)) (after ops V (main_call2_v5 : DevRef τ sig)) : (⟨S32x512x1, .i1⟩ : BufTy).Contents (Elt F)) := by
  have h := Cert.AfterAt.binary_at (ops_writes (F := F)) 26 main_call2_v4 main_call2_v5 main_call2_v6 _ _ _ _ rfl (by decide) (by decide) (by decide) V
  exact h

theorem val_main_call2_v7 (V : Valuation τ sig (Elt F)) :
    after ops V (main_call2_v7 : DevRef τ sig) = ((broadcastInDim S1x1x1 ![2] bcast_S1_S1x1x1_2) (after ops V (main_call2_c_1 : DevRef τ sig)) : (⟨S1x1x1, .i32⟩ : BufTy).Contents (Elt F)) := by
  have h := Cert.AfterAt.unary_at (ops_writes (F := F)) 27 main_call2_c_1 main_call2_v7 _ _ _ rfl (by decide) (by decide) V
  exact h

theorem val_main_call2_v8 (V : Valuation τ sig (Elt F)) :
    after ops V (main_call2_v8 : DevRef τ sig) = ((broadcastInDim S32x512x1 ![0, 1, 2] bcast_S1x1x1_S32x512x1_0_1_2) (after ops V (main_call2_v7 : DevRef τ sig)) : (⟨S32x512x1, .i32⟩ : BufTy).Contents (Elt F)) := by
  have h := Cert.AfterAt.unary_at (ops_writes (F := F)) 28 main_call2_v7 main_call2_v8 _ _ _ rfl (by decide) (by decide) V
  exact h

theorem val_main_call2_v9 (V : Valuation τ sig (Elt F)) :
    after ops V (main_call2_v9 : DevRef τ sig) = ((cmpi .sle) (after ops V (main_call2_v4 : DevRef τ sig)) (after ops V (main_call2_v8 : DevRef τ sig)) : (⟨S32x512x1, .i1⟩ : BufTy).Contents (Elt F)) := by
  have h := Cert.AfterAt.binary_at (ops_writes (F := F)) 29 main_call2_v4 main_call2_v8 main_call2_v9 _ _ _ _ rfl (by decide) (by decide) (by decide) V
  exact h

theorem val_main_call2_v10 (V : Valuation τ sig (Elt F)) :
    after ops V (main_call2_v10 : DevRef τ sig) = (andi (after ops V (main_call2_v6 : DevRef τ sig)) (after ops V (main_call2_v9 : DevRef τ sig)) : (⟨S32x512x1, .i1⟩ : BufTy).Contents (Elt F)) := by
  have h := Cert.AfterAt.binary_at (ops_writes (F := F)) 30 main_call2_v6 main_call2_v9 main_call2_v10 _ _ _ _ rfl (by decide) (by decide) (by decide) V
  exact h

theorem val_main_call2_c_3 (V : Valuation τ sig (Elt F)) :
    after ops V (main_call2_c_3 : DevRef τ sig) = ((constantI S_ 1 1#1) : (⟨S_, .i1⟩ : BufTy).Contents (Elt F)) := by
  have h := Cert.AfterAt.nullary_at (ops_writes (F := F)) 31 main_call2_c_3 _ _ rfl (by decide) V
  exact h

theorem val_main_call2_v11 (V : Valuation τ sig (Elt F)) :
    after ops V (main_call2_v11 : DevRef τ sig) = (Host.reduce IntOp.andi (after ops V (main_call2_v10 : DevRef τ sig)) (after ops V (main_call2_c_3 : DevRef τ sig)) reducesTo_S32x512x1_S32x512_d2 h_S_ : (⟨S32x512, .i1⟩ : BufTy).Contents (Elt F)) := by
  have h := Cert.AfterAt.binary_at (ops_writes (F := F)) 32 main_call2_v10 main_call2_c_3 main_call2_v11 _ _ _ _ rfl (by decide) (by decide) (by decide) V
  exact h

theorem val_main_call2_v12 (V : Valuation τ sig (Elt F)) :
    after ops V (main_call2_v12 : DevRef τ sig) = (Host.gather gather_S32x512x1024_S32x512x1_S32x512x1024_2_1_0_0_1_2_111024 (after ops V (main_arg0 : DevRef τ sig)) (after ops V (main_call2_v4 : DevRef τ sig)) : (⟨S32x512x1024, .f32⟩ : BufTy).Contents (Elt F)) := by
  have h := Cert.AfterAt.binary_at (ops_writes (F := F)) 33 main_arg0 main_call2_v4 main_call2_v12 _ _ _ _ rfl (by decide) (by decide) (by decide) V
  exact h

theorem val_main_call2_v13 (V : Valuation τ sig (Elt F)) :
    after ops V (main_call2_v13 : DevRef τ sig) = ((broadcastInDim S32x512x1024 ![0, 1] bcast_S32x512_S32x512x1024_0_1) (after ops V (main_call2_v11 : DevRef τ sig)) : (⟨S32x512x1024, .i1⟩ : BufTy).Contents (Elt F)) := by
  have h := Cert.AfterAt.unary_at (ops_writes (F := F)) 34 main_call2_v11 main_call2_v13 _ _ _ rfl (by decide) (by decide) V
  exact h

theorem val_main_call2_cst (V : Valuation τ sig (Elt F)) :
    after ops V (main_call2_cst : DevRef τ sig) = ((constant S_ .f32 0x7FC00000#32) : (⟨S_, .f32⟩ : BufTy).Contents (Elt F)) := by
  have h := Cert.AfterAt.nullary_at (ops_writes (F := F)) 35 main_call2_cst _ _ rfl (by decide) V
  exact h

theorem val_main_call2_v14 (V : Valuation τ sig (Elt F)) :
    after ops V (main_call2_v14 : DevRef τ sig) = ((broadcastInDim S32x512x1024 ![] bcast_S_S32x512x1024) (after ops V (main_call2_cst : DevRef τ sig)) : (⟨S32x512x1024, .f32⟩ : BufTy).Contents (Elt F)) := by
  have h := Cert.AfterAt.unary_at (ops_writes (F := F)) 36 main_call2_cst main_call2_v14 _ _ _ rfl (by decide) (by decide) V
  exact h

theorem val_main_v10 (V : Valuation τ sig (Elt F)) :
    after ops V (main_v10 : DevRef τ sig) = (select (after ops V (main_call2_v13 : DevRef τ sig)) (after ops V (main_call2_v12 : DevRef τ sig)) (after ops V (main_call2_v14 : DevRef τ sig)) : (⟨S32x512x1024, .f32⟩ : BufTy).Contents (Elt F)) := by
  have h := Cert.AfterAt.ternary_at (ops_writes (F := F)) 37 main_call2_v13 main_call2_v12 main_call2_v14 main_v10 _ _ _ _ _ rfl (by decide) (by decide) (by decide) (by decide) V
  exact h

theorem val_main_call3_c (V : Valuation τ sig (Elt F)) :
    after ops V (main_call3_c : DevRef τ sig) = ((constantI S_ 32 0#32) : (⟨S_, .i32⟩ : BufTy).Contents (Elt F)) := by
  have h := Cert.AfterAt.nullary_at (ops_writes (F := F)) 38 main_call3_c _ _ rfl (by decide) V
  exact h

theorem val_main_call3_v0 (V : Valuation τ sig (Elt F)) :
    after ops V (main_call3_v0 : DevRef τ sig) = ((broadcastInDim S32x512 ![] bcast_S_S32x512) (after ops V (main_call3_c : DevRef τ sig)) : (⟨S32x512, .i32⟩ : BufTy).Contents (Elt F)) := by
  have h := Cert.AfterAt.unary_at (ops_writes (F := F)) 39 main_call3_c main_call3_v0 _ _ _ rfl (by decide) (by decide) V
  exact h

theorem val_main_call3_v1 (V : Valuation τ sig (Elt F)) :
    after ops V (main_call3_v1 : DevRef τ sig) = ((cmpi .slt) (after ops V (main_v8 : DevRef τ sig)) (after ops V (main_call3_v0 : DevRef τ sig)) : (⟨S32x512, .i1⟩ : BufTy).Contents (Elt F)) := by
  have h := Cert.AfterAt.binary_at (ops_writes (F := F)) 40 main_v8 main_call3_v0 main_call3_v1 _ _ _ _ rfl (by decide) (by decide) (by decide) V
  exact h

theorem val_main_call3_c_0 (V : Valuation τ sig (Elt F)) :
    after ops V (main_call3_c_0 : DevRef τ sig) = ((constantI S_ 32 512#32) : (⟨S_, .i32⟩ : BufTy).Contents (Elt F)) := by
  have h := Cert.AfterAt.nullary_at (ops_writes (F := F)) 41 main_call3_c_0 _ _ rfl (by decide) V
  exact h

theorem val_main_call3_v2 (V : Valuation τ sig (Elt F)) :
    after ops V (main_call3_v2 : DevRef τ sig) = ((broadcastInDim S32x512 ![] bcast_S_S32x512) (after ops V (main_call3_c_0 : DevRef τ sig)) : (⟨S32x512, .i32⟩ : BufTy).Contents (Elt F)) := by
  have h := Cert.AfterAt.unary_at (ops_writes (F := F)) 42 main_call3_c_0 main_call3_v2 _ _ _ rfl (by decide) (by decide) V
  exact h

theorem val_main_call3_v3 (V : Valuation τ sig (Elt F)) :
    after ops V (main_call3_v3 : DevRef τ sig) = (addi (after ops V (main_v8 : DevRef τ sig)) (after ops V (main_call3_v2 : DevRef τ sig)) : (⟨S32x512, .i32⟩ : BufTy).Contents (Elt F)) := by
  have h := Cert.AfterAt.binary_at (ops_writes (F := F)) 43 main_v8 main_call3_v2 main_call3_v3 _ _ _ _ rfl (by decide) (by decide) (by decide) V
  exact h

theorem val_main_call3_v4 (V : Valuation τ sig (Elt F)) :
    after ops V (main_call3_v4 : DevRef τ sig) = (select (after ops V (main_call3_v1 : DevRef τ sig)) (after ops V (main_call3_v3 : DevRef τ sig)) (after ops V (main_v8 : DevRef τ sig)) : (⟨S32x512, .i32⟩ : BufTy).Contents (Elt F)) := by
  have h := Cert.AfterAt.ternary_at (ops_writes (F := F)) 44 main_call3_v1 main_call3_v3 main_v8 main_call3_v4 _ _ _ _ _ rfl (by decide) (by decide) (by decide) (by decide) V
  exact h

theorem val_main_call3_v5 (V : Valuation τ sig (Elt F)) :
    after ops V (main_call3_v5 : DevRef τ sig) = (shapeCast _ (after ops V (main_call3_v4 : DevRef τ sig)) shapeCasts_S32x512_S32x512x1 : (⟨S32x512x1, .i32⟩ : BufTy).Contents (Elt F)) := by
  have h := Cert.AfterAt.reshape_at (ops_writes (F := F)) 45 main_call3_v4 main_call3_v5 _ _ _ _ rfl (by decide) (by decide) V
  exact h

theorem val_main_call3_c_1 (V : Valuation τ sig (Elt F)) :
    after ops V (main_call3_c_1 : DevRef τ sig) = ((constantI S1 32 511#32) : (⟨S1, .i32⟩ : BufTy).Contents (Elt F)) := by
  have h := Cert.AfterAt.nullary_at (ops_writes (F := F)) 46 main_call3_c_1 _ _ rfl (by decide) V
  exact h

theorem val_main_call3_c_2 (V : Valuation τ sig (Elt F)) :
    after ops V (main_call3_c_2 : DevRef τ sig) = ((constantI S_ 32 0#32) : (⟨S_, .i32⟩ : BufTy).Contents (Elt F)) := by
  have h := Cert.AfterAt.nullary_at (ops_writes (F := F)) 47 main_call3_c_2 _ _ rfl (by decide) V
  exact h

theorem val_main_call3_v6 (V : Valuation τ sig (Elt F)) :
    after ops V (main_call3_v6 : DevRef τ sig) = ((broadcastInDim S32x512x1 ![] bcast_S_S32x512x1) (after ops V (main_call3_c_2 : DevRef τ sig)) : (⟨S32x512x1, .i32⟩ : BufTy).Contents (Elt F)) := by
  have h := Cert.AfterAt.unary_at (ops_writes (F := F)) 48 main_call3_c_2 main_call3_v6 _ _ _ rfl (by decide) (by decide) V
  exact h

theorem val_main_call3_v7 (V : Valuation τ sig (Elt F)) :
    after ops V (main_call3_v7 : DevRef τ sig) = ((cmpi .sge) (after ops V (main_call3_v5 : DevRef τ sig)) (after ops V (main_call3_v6 : DevRef τ sig)) : (⟨S32x512x1, .i1⟩ : BufTy).Contents (Elt F)) := by
  have h := Cert.AfterAt.binary_at (ops_writes (F := F)) 49 main_call3_v5 main_call3_v6 main_call3_v7 _ _ _ _ rfl (by decide) (by decide) (by decide) V
  exact h

theorem val_main_call3_v8 (V : Valuation τ sig (Elt F)) :
    after ops V (main_call3_v8 : DevRef τ sig) = ((broadcastInDim S1x1x1 ![2] bcast_S1_S1x1x1_2) (after ops V (main_call3_c_1 : DevRef τ sig)) : (⟨S1x1x1, .i32⟩ : BufTy).Contents (Elt F)) := by
  have h := Cert.AfterAt.unary_at (ops_writes (F := F)) 50 main_call3_c_1 main_call3_v8 _ _ _ rfl (by decide) (by decide) V
  exact h

theorem val_main_call3_v9 (V : Valuation τ sig (Elt F)) :
    after ops V (main_call3_v9 : DevRef τ sig) = ((broadcastInDim S32x512x1 ![0, 1, 2] bcast_S1x1x1_S32x512x1_0_1_2) (after ops V (main_call3_v8 : DevRef τ sig)) : (⟨S32x512x1, .i32⟩ : BufTy).Contents (Elt F)) := by
  have h := Cert.AfterAt.unary_at (ops_writes (F := F)) 51 main_call3_v8 main_call3_v9 _ _ _ rfl (by decide) (by decide) V
  exact h

theorem val_main_call3_v10 (V : Valuation τ sig (Elt F)) :
    after ops V (main_call3_v10 : DevRef τ sig) = ((cmpi .sle) (after ops V (main_call3_v5 : DevRef τ sig)) (after ops V (main_call3_v9 : DevRef τ sig)) : (⟨S32x512x1, .i1⟩ : BufTy).Contents (Elt F)) := by
  have h := Cert.AfterAt.binary_at (ops_writes (F := F)) 52 main_call3_v5 main_call3_v9 main_call3_v10 _ _ _ _ rfl (by decide) (by decide) (by decide) V
  exact h

theorem val_main_call3_v11 (V : Valuation τ sig (Elt F)) :
    after ops V (main_call3_v11 : DevRef τ sig) = (andi (after ops V (main_call3_v7 : DevRef τ sig)) (after ops V (main_call3_v10 : DevRef τ sig)) : (⟨S32x512x1, .i1⟩ : BufTy).Contents (Elt F)) := by
  have h := Cert.AfterAt.binary_at (ops_writes (F := F)) 53 main_call3_v7 main_call3_v10 main_call3_v11 _ _ _ _ rfl (by decide) (by decide) (by decide) V
  exact h

theorem val_main_call3_c_3 (V : Valuation τ sig (Elt F)) :
    after ops V (main_call3_c_3 : DevRef τ sig) = ((constantI S_ 1 1#1) : (⟨S_, .i1⟩ : BufTy).Contents (Elt F)) := by
  have h := Cert.AfterAt.nullary_at (ops_writes (F := F)) 54 main_call3_c_3 _ _ rfl (by decide) V
  exact h

theorem val_main_call3_v12 (V : Valuation τ sig (Elt F)) :
    after ops V (main_call3_v12 : DevRef τ sig) = (Host.reduce IntOp.andi (after ops V (main_call3_v11 : DevRef τ sig)) (after ops V (main_call3_c_3 : DevRef τ sig)) reducesTo_S32x512x1_S32x512_d2 h_S_ : (⟨S32x512, .i1⟩ : BufTy).Contents (Elt F)) := by
  have h := Cert.AfterAt.binary_at (ops_writes (F := F)) 55 main_call3_v11 main_call3_c_3 main_call3_v12 _ _ _ _ rfl (by decide) (by decide) (by decide) V
  exact h

theorem val_main_call3_v13 (V : Valuation τ sig (Elt F)) :
    after ops V (main_call3_v13 : DevRef τ sig) = (Host.gather gather_S32x512_S32x512x1_S32x512_n_1_0_0_1_2_11 (after ops V (main_v2 : DevRef τ sig)) (after ops V (main_call3_v5 : DevRef τ sig)) : (⟨S32x512, .i1⟩ : BufTy).Contents (Elt F)) := by
  have h := Cert.AfterAt.binary_at (ops_writes (F := F)) 56 main_v2 main_call3_v5 main_call3_v13 _ _ _ _ rfl (by decide) (by decide) (by decide) V
  exact h

theorem val_main_call3_c_4 (V : Valuation τ sig (Elt F)) :
    after ops V (main_call3_c_4 : DevRef τ sig) = ((constantI S_ 1 1#1) : (⟨S_, .i1⟩ : BufTy).Contents (Elt F)) := by
  have h := Cert.AfterAt.nullary_at (ops_writes (F := F)) 57 main_call3_c_4 _ _ rfl (by decide) V
  exact h

theorem val_main_call3_v14 (V : Valuation τ sig (Elt F)) :
    after ops V (main_call3_v14 : DevRef τ sig) = ((broadcastInDim S32x512 ![] bcast_S_S32x512) (after ops V (main_call3_c_4 : DevRef τ sig)) : (⟨S32x512, .i1⟩ : BufTy).Contents (Elt F)) := by
  have h := Cert.AfterAt.unary_at (ops_writes (F := F)) 58 main_call3_c_4 main_call3_v14 _ _ _ rfl (by decide) (by decide) V
  exact h

theorem val_main_v11 (V : Valuation τ sig (Elt F)) :
    after ops V (main_v11 : DevRef τ sig) = (select (after ops V (main_call3_v12 : DevRef τ sig)) (after ops V (main_call3_v13 : DevRef τ sig)) (after ops V (main_call3_v14 : DevRef τ sig)) : (⟨S32x512, .i1⟩ : BufTy).Contents (Elt F)) := by
  have h := Cert.AfterAt.ternary_at (ops_writes (F := F)) 59 main_call3_v12 main_call3_v13 main_call3_v14 main_v11 _ _ _ _ _ rfl (by decide) (by decide) (by decide) (by decide) V
  exact h

theorem val_main_v12 (V : Valuation τ sig (Elt F)) :
    after ops V (main_v12 : DevRef τ sig) = ((broadcastInDim S32x512x1 ![0, 1] bcast_S32x512_S32x512x1_0_1) (after ops V (main_v11 : DevRef τ sig)) : (⟨S32x512x1, .i1⟩ : BufTy).Contents (Elt F)) := by
  have h := Cert.AfterAt.unary_at (ops_writes (F := F)) 60 main_v11 main_v12 _ _ _ rfl (by decide) (by decide) V
  exact h

theorem val_main_v13 (V : Valuation τ sig (Elt F)) :
    after ops V (main_v13 : DevRef τ sig) = ((uitofp .f32) (after ops V (main_v12 : DevRef τ sig)) : (⟨S32x512x1, .f32⟩ : BufTy).Contents (Elt F)) := by
  have h := Cert.AfterAt.unary_at (ops_writes (F := F)) 61 main_v12 main_v13 _ _ _ rfl (by decide) (by decide) V
  exact h

theorem val_main_v14 (V : Valuation τ sig (Elt F)) :
    after ops V (main_v14 : DevRef τ sig) = ((broadcastInDim S32x512x1024 ![0, 1, 2] bcast_S32x512x1_S32x512x1024_0_1_2) (after ops V (main_v13 : DevRef τ sig)) : (⟨S32x512x1024, .f32⟩ : BufTy).Contents (Elt F)) := by
  have h := Cert.AfterAt.unary_at (ops_writes (F := F)) 62 main_v13 main_v14 _ _ _ rfl (by decide) (by decide) V
  exact h

theorem val_main_v15 (V : Valuation τ sig (Elt F)) :
    after ops V (main_v15 : DevRef τ sig) = (mulf (after ops V (main_v10 : DevRef τ sig)) (after ops V (main_v14 : DevRef τ sig)) : (⟨S32x512x1024, .f32⟩ : BufTy).Contents (Elt F)) := by
  have h := Cert.AfterAt.binary_at (ops_writes (F := F)) 63 main_v10 main_v14 main_v15 _ _ _ _ rfl (by decide) (by decide) (by decide) V
  exact h

theorem val_main_c_1 (V : Valuation τ sig (Elt F)) :
    after ops V (main_c_1 : DevRef τ sig) = (constantI S_ 32 1#32) := by
  have h := Cert.AfterAt.nullary_at (ops_writes (F := F)) 64 main_c_1 _ _ rfl (by decide) V
  exact h

theorem val_main_v16 (V : Valuation τ sig (Elt F)) :
    after ops V (main_v16 : DevRef τ sig) = ((broadcastInDim S32x512 ![] bcast_S_S32x512) (after ops V (main_c_1 : DevRef τ sig)) : (⟨S32x512, .i32⟩ : BufTy).Contents (Elt F)) := by
  have h := Cert.AfterAt.unary_at (ops_writes (F := F)) 65 main_c_1 main_v16 _ _ _ rfl (by decide) (by decide) V
  exact h

theorem val_main_v17 (V : Valuation τ sig (Elt F)) :
    after ops V (main_v17 : DevRef τ sig) = ((cmpi .eq) (after ops V (main_arg1 : DevRef τ sig)) (after ops V (main_v16 : DevRef τ sig)) : (⟨S32x512, .i1⟩ : BufTy).Contents (Elt F)) := by
  have h := Cert.AfterAt.binary_at (ops_writes (F := F)) 66 main_arg1 main_v16 main_v17 _ _ _ _ rfl (by decide) (by decide) (by decide) V
  exact h

theorem val_main_v18 (V : Valuation τ sig (Elt F)) :
    after ops V (main_v18 : DevRef τ sig) = (extractStridedSlice S32x511 ![0, 0] (after ops V (main_v17 : DevRef τ sig)) slices_S32x512_S32x511_0_0 : (⟨S32x511, .i1⟩ : BufTy).Contents (Elt F)) := by
  have h := Cert.AfterAt.unary_at (ops_writes (F := F)) 67 main_v17 main_v18 _ _ _ rfl (by decide) (by decide) V
  exact h

theorem val_main_c_2 (V : Valuation τ sig (Elt F)) :
    after ops V (main_c_2 : DevRef τ sig) = (constantI S_ 32 0#32) := by
  have h := Cert.AfterAt.nullary_at (ops_writes (F := F)) 68 main_c_2 _ _ rfl (by decide) V
  exact h

theorem val_main_call4_c (V : Valuation τ sig (Elt F)) :
    after ops V (main_call4_c : DevRef τ sig) = ((constantI S_ 32 0#32) : (⟨S_, .i32⟩ : BufTy).Contents (Elt F)) := by
  have h := Cert.AfterAt.nullary_at (ops_writes (F := F)) 69 main_call4_c _ _ rfl (by decide) V
  exact h

theorem val_main_call4_v0 (V : Valuation τ sig (Elt F)) :
    after ops V (main_call4_v0 : DevRef τ sig) = ((broadcastInDim S_ ![] bcast_S_S_) (after ops V (main_call4_c : DevRef τ sig)) : (⟨S_, .i32⟩ : BufTy).Contents (Elt F)) := by
  have h := Cert.AfterAt.unary_at (ops_writes (F := F)) 70 main_call4_c main_call4_v0 _ _ _ rfl (by decide) (by decide) V
  exact h

theorem val_main_call4_v1 (V : Valuation τ sig (Elt F)) :
    after ops V (main_call4_v1 : DevRef τ sig) = ((cmpi .ne) (after ops V (main_c_2 : DevRef τ sig)) (after ops V (main_call4_v0 : DevRef τ sig)) : (⟨S_, .i1⟩ : BufTy).Contents (Elt F)) := by
  have h := Cert.AfterAt.binary_at (ops_writes (F := F)) 71 main_c_2 main_call4_v0 main_call4_v1 _ _ _ _ rfl (by decide) (by decide) (by decide) V
  exact h

theorem val_main_call4_v2 (V : Valuation τ sig (Elt F)) :
    after ops V (main_call4_v2 : DevRef τ sig) = (id (after ops V (main_call4_v1 : DevRef τ sig)) : (⟨S_, .i1⟩ : BufTy).Contents (Elt F)) := by
  have h := Cert.AfterAt.unary_at (ops_writes (F := F)) 72 main_call4_v1 main_call4_v2 _ _ _ rfl (by decide) (by decide) V
  exact h

theorem val_main_v19 (V : Valuation τ sig (Elt F)) :
    after ops V (main_v19 : DevRef τ sig) = (pad S32x512 ![0, 1] ![0, 0] ![0, 0] (after ops V (main_v18 : DevRef τ sig)) (after ops V (main_call4_v2 : DevRef τ sig)) pads_S32x511_S32x512_000_100 h_S_ : (⟨S32x512, .i1⟩ : BufTy).Contents (Elt F)) := by
  have h := Cert.AfterAt.binary_at (ops_writes (F := F)) 73 main_v18 main_call4_v2 main_v19 _ _ _ _ rfl (by decide) (by decide) (by decide) V
  exact h

theorem val_main_v20 (V : Valuation τ sig (Elt F)) :
    after ops V (main_v20 : DevRef τ sig) = (noti (after ops V (main_v19 : DevRef τ sig)) : (⟨S32x512, .i1⟩ : BufTy).Contents (Elt F)) := by
  have h := Cert.AfterAt.unary_at (ops_writes (F := F)) 74 main_v19 main_v20 _ _ _ rfl (by decide) (by decide) V
  exact h

theorem val_main_v21 (V : Valuation τ sig (Elt F)) :
    after ops V (main_v21 : DevRef τ sig) = (andi (after ops V (main_v17 : DevRef τ sig)) (after ops V (main_v20 : DevRef τ sig)) : (⟨S32x512, .i1⟩ : BufTy).Contents (Elt F)) := by
  have h := Cert.AfterAt.binary_at (ops_writes (F := F)) 75 main_v17 main_v20 main_v21 _ _ _ _ rfl (by decide) (by decide) (by decide) V
  exact h

theorem val_main_v22 (V : Valuation τ sig (Elt F)) :
    after ops V (main_v22 : DevRef τ sig) = (extui 32 (after ops V (main_v21 : DevRef τ sig)) natLt_1_32 : (⟨S32x512, .i32⟩ : BufTy).Contents (Elt F)) := by
  have h := Cert.AfterAt.unary_at (ops_writes (F := F)) 76 main_v21 main_v22 _ _ _ rfl (by decide) (by decide) V
  exact h

theorem val_main_call5_call0_c (V : Valuation τ sig (Elt F)) :
    after ops V (main_call5_call0_c : DevRef τ sig) = ((constantI S_ 32 0#32) : (⟨S_, .i32⟩ : BufTy).Contents (Elt F)) := by
  have h := Cert.AfterAt.nullary_at (ops_writes (F := F)) 77 main_call5_call0_c _ _ rfl (by decide) V
  exact h

theorem val_main_call5_call0_v0 (V : Valuation τ sig (Elt F)) :
    after ops V (main_call5_call0_v0 : DevRef τ sig) = ((broadcastInDim S_ ![] bcast_S_S_) (after ops V (main_call5_call0_c : DevRef τ sig)) : (⟨S_, .i32⟩ : BufTy).Contents (Elt F)) := by
  have h := Cert.AfterAt.unary_at (ops_writes (F := F)) 78 main_call5_call0_c main_call5_call0_v0 _ _ _ rfl (by decide) (by decide) V
  exact h

theorem val_main_v23 (V : Valuation τ sig (Elt F)) :
    after ops V (main_v23 : DevRef τ sig) = (Host.reduceWindow IntOp.addi ![1, 512] ![1, 1] ![0, 511] ![0, 0] (after ops V (main_v22 : DevRef τ sig)) (after ops V (main_call5_call0_v0 : DevRef τ sig)) reduceWindows_S32x512_S32x512_w1s1p0_0_w512s1p511_0 h_S_ : (⟨S32x512, .i32⟩ : BufTy).Contents (Elt F)) := by
  have h := Cert.AfterAt.binary_at (ops_writes (F := F)) 79 main_v22 main_call5_call0_v0 main_v23 _ _ _ _ rfl (by decide) (by decide) (by decide) V
  exact h

theorem val_main_c_3 (V : Valuation τ sig (Elt F)) :
    after ops V (main_c_3 : DevRef τ sig) = (constantI S_ 32 1#32) := by
  have h := Cert.AfterAt.nullary_at (ops_writes (F := F)) 80 main_c_3 _ _ rfl (by decide) V
  exact h

theorem val_main_v24 (V : Valuation τ sig (Elt F)) :
    after ops V (main_v24 : DevRef τ sig) = ((broadcastInDim S32x512 ![] bcast_S_S32x512) (after ops V (main_c_3 : DevRef τ sig)) : (⟨S32x512, .i32⟩ : BufTy).Contents (Elt F)) := by
  have h := Cert.AfterAt.unary_at (ops_writes (F := F)) 81 main_c_3 main_v24 _ _ _ rfl (by decide) (by decide) V
  exact h

theorem val_main_v25 (V : Valuation τ sig (Elt F)) :
    after ops V (main_v25 : DevRef τ sig) = (subi (after ops V (main_v23 : DevRef τ sig)) (after ops V (main_v24 : DevRef τ sig)) : (⟨S32x512, .i32⟩ : BufTy).Contents (Elt F)) := by
  have h := Cert.AfterAt.binary_at (ops_writes (F := F)) 82 main_v23 main_v24 main_v25 _ _ _ _ rfl (by decide) (by decide) (by decide) V
  exact h

theorem val_main_v26 (V : Valuation τ sig (Elt F)) :
    after ops V (main_v26 : DevRef τ sig) = ((broadcastInDim S1x512 ![1] bcast_S512_S1x512_1) (after ops V (main_v0 : DevRef τ sig)) : (⟨S1x512, .i32⟩ : BufTy).Contents (Elt F)) := by
  have h := Cert.AfterAt.unary_at (ops_writes (F := F)) 83 main_v0 main_v26 _ _ _ rfl (by decide) (by decide) V
  exact h

theorem val_main_c_4 (V : Valuation τ sig (Elt F)) :
    after ops V (main_c_4 : DevRef τ sig) = (constantI S_ 32 4294967295#32) := by
  have h := Cert.AfterAt.nullary_at (ops_writes (F := F)) 84 main_c_4 _ _ rfl (by decide) V
  exact h

theorem val_main_call6_v0 (V : Valuation τ sig (Elt F)) :
    after ops V (main_call6_v0 : DevRef τ sig) = (id (after ops V (main_c_4 : DevRef τ sig)) : (⟨S_, .i32⟩ : BufTy).Contents (Elt F)) := by
  have h := Cert.AfterAt.unary_at (ops_writes (F := F)) 85 main_c_4 main_call6_v0 _ _ _ rfl (by decide) (by decide) V
  exact h

theorem val_main_call6_v1 (V : Valuation τ sig (Elt F)) :
    after ops V (main_call6_v1 : DevRef τ sig) = ((broadcastInDim S32x512 ![0, 1] bcast_S1x512_S32x512_0_1) (after ops V (main_v26 : DevRef τ sig)) : (⟨S32x512, .i32⟩ : BufTy).Contents (Elt F)) := by
  have h := Cert.AfterAt.unary_at (ops_writes (F := F)) 86 main_v26 main_call6_v1 _ _ _ rfl (by decide) (by decide) V
  exact h

theorem val_main_call6_v2 (V : Valuation τ sig (Elt F)) :
    after ops V (main_call6_v2 : DevRef τ sig) = ((broadcastInDim S32x512 ![] bcast_S_S32x512) (after ops V (main_call6_v0 : DevRef τ sig)) : (⟨S32x512, .i32⟩ : BufTy).Contents (Elt F)) := by
  have h := Cert.AfterAt.unary_at (ops_writes (F := F)) 87 main_call6_v0 main_call6_v2 _ _ _ rfl (by decide) (by decide) V
  exact h

theorem val_main_v27 (V : Valuation τ sig (Elt F)) :
    after ops V (main_v27 : DevRef τ sig) = (select (after ops V (main_v21 : DevRef τ sig)) (after ops V (main_call6_v1 : DevRef τ sig)) (after ops V (main_call6_v2 : DevRef τ sig)) : (⟨S32x512, .i32⟩ : BufTy).Contents (Elt F)) := by
  have h := Cert.AfterAt.ternary_at (ops_writes (F := F)) 88 main_v21 main_call6_v1 main_call6_v2 main_v27 _ _ _ _ _ rfl (by decide) (by decide) (by decide) (by decide) V
  exact h

theorem val_main_call7_c (V : Valuation τ sig (Elt F)) :
    after ops V (main_call7_c : DevRef τ sig) = ((constantI S_ 32 2147483648#32) : (⟨S_, .i32⟩ : BufTy).Contents (Elt F)) := by
  have h := Cert.AfterAt.nullary_at (ops_writes (F := F)) 89 main_call7_c _ _ rfl (by decide) V
  exact h

theorem val_main_call7_v0 (V : Valuation τ sig (Elt F)) :
    after ops V (main_call7_v0 : DevRef τ sig) = ((broadcastInDim S_ ![] bcast_S_S_) (after ops V (main_call7_c : DevRef τ sig)) : (⟨S_, .i32⟩ : BufTy).Contents (Elt F)) := by
  have h := Cert.AfterAt.unary_at (ops_writes (F := F)) 90 main_call7_c main_call7_v0 _ _ _ rfl (by decide) (by decide) V
  exact h

theorem val_main_v28 (V : Valuation τ sig (Elt F)) :
    after ops V (main_v28 : DevRef τ sig) = (Host.reduceWindow IntOp.maxsi ![1, 512] ![1, 1] ![0, 511] ![0, 0] (after ops V (main_v27 : DevRef τ sig)) (after ops V (main_call7_v0 : DevRef τ sig)) reduceWindows_S32x512_S32x512_w1s1p0_0_w512s1p511_0 h_S_ : (⟨S32x512, .i32⟩ : BufTy).Contents (Elt F)) := by
  have h := Cert.AfterAt.binary_at (ops_writes (F := F)) 91 main_v27 main_call7_v0 main_v28 _ _ _ _ rfl (by decide) (by decide) (by decide) V
  exact h

theorem val_main_v29 (V : Valuation τ sig (Elt F)) :
    after ops V (main_v29 : DevRef τ sig) = ((broadcastInDim S1x512 ![1] bcast_S512_S1x512_1) (after ops V (main_v0 : DevRef τ sig)) : (⟨S1x512, .i32⟩ : BufTy).Contents (Elt F)) := by
  have h := Cert.AfterAt.unary_at (ops_writes (F := F)) 92 main_v0 main_v29 _ _ _ rfl (by decide) (by decide) V
  exact h

theorem val_main_v30 (V : Valuation τ sig (Elt F)) :
    after ops V (main_v30 : DevRef τ sig) = ((broadcastInDim S32x512 ![0, 1] bcast_S1x512_S32x512_0_1) (after ops V (main_v29 : DevRef τ sig)) : (⟨S32x512, .i32⟩ : BufTy).Contents (Elt F)) := by
  have h := Cert.AfterAt.unary_at (ops_writes (F := F)) 93 main_v29 main_v30 _ _ _ rfl (by decide) (by decide) V
  exact h

theorem val_main_v31 (V : Valuation τ sig (Elt F)) :
    after ops V (main_v31 : DevRef τ sig) = (subi (after ops V (main_v30 : DevRef τ sig)) (after ops V (main_v28 : DevRef τ sig)) : (⟨S32x512, .i32⟩ : BufTy).Contents (Elt F)) := by
  have h := Cert.AfterAt.binary_at (ops_writes (F := F)) 94 main_v30 main_v28 main_v31 _ _ _ _ rfl (by decide) (by decide) (by decide) V
  exact h

theorem val_main_c_5 (V : Valuation τ sig (Elt F)) :
    after ops V (main_c_5 : DevRef τ sig) = (constantI S_ 32 12#32) := by
  have h := Cert.AfterAt.nullary_at (ops_writes (F := F)) 95 main_c_5 _ _ rfl (by decide) V
  exact h

theorem val_main_v32 (V : Valuation τ sig (Elt F)) :
    after ops V (main_v32 : DevRef τ sig) = ((broadcastInDim S32x512 ![] bcast_S_S32x512) (after ops V (main_c_5 : DevRef τ sig)) : (⟨S32x512, .i32⟩ : BufTy).Contents (Elt F)) := by
  have h := Cert.AfterAt.unary_at (ops_writes (F := F)) 96 main_c_5 main_v32 _ _ _ rfl (by decide) (by decide) V
  exact h

theorem val_main_v33 (V : Valuation τ sig (Elt F)) :
    after ops V (main_v33 : DevRef τ sig) = ((cmpi .slt) (after ops V (main_v31 : DevRef τ sig)) (after ops V (main_v32 : DevRef τ sig)) : (⟨S32x512, .i1⟩ : BufTy).Contents (Elt F)) := by
  have h := Cert.AfterAt.binary_at (ops_writes (F := F)) 97 main_v31 main_v32 main_v33 _ _ _ _ rfl (by decide) (by decide) (by decide) V
  exact h

theorem val_main_v34 (V : Valuation τ sig (Elt F)) :
    after ops V (main_v34 : DevRef τ sig) = (andi (after ops V (main_v17 : DevRef τ sig)) (after ops V (main_v33 : DevRef τ sig)) : (⟨S32x512, .i1⟩ : BufTy).Contents (Elt F)) := by
  have h := Cert.AfterAt.binary_at (ops_writes (F := F)) 98 main_v17 main_v33 main_v34 _ _ _ _ rfl (by decide) (by decide) (by decide) V
  exact h

theorem val_main_c_6 (V : Valuation τ sig (Elt F)) :
    after ops V (main_c_6 : DevRef τ sig) = (constantI S_ 32 32#32) := by
  have h := Cert.AfterAt.nullary_at (ops_writes (F := F)) 99 main_c_6 _ _ rfl (by decide) V
  exact h

theorem val_main_v35 (V : Valuation τ sig (Elt F)) :
    after ops V (main_v35 : DevRef τ sig) = ((broadcastInDim S32x512 ![] bcast_S_S32x512) (after ops V (main_c_6 : DevRef τ sig)) : (⟨S32x512, .i32⟩ : BufTy).Contents (Elt F)) := by
  have h := Cert.AfterAt.unary_at (ops_writes (F := F)) 100 main_c_6 main_v35 _ _ _ rfl (by decide) (by decide) V
  exact h

theorem val_main_v36 (V : Valuation τ sig (Elt F)) :
    after ops V (main_v36 : DevRef τ sig) = ((cmpi .slt) (after ops V (main_v25 : DevRef τ sig)) (after ops V (main_v35 : DevRef τ sig)) : (⟨S32x512, .i1⟩ : BufTy).Contents (Elt F)) := by
  have h := Cert.AfterAt.binary_at (ops_writes (F := F)) 101 main_v25 main_v35 main_v36 _ _ _ _ rfl (by decide) (by decide) (by decide) V
  exact h

theorem val_main_v37 (V : Valuation τ sig (Elt F)) :
    after ops V (main_v37 : DevRef τ sig) = (andi (after ops V (main_v34 : DevRef τ sig)) (after ops V (main_v36 : DevRef τ sig)) : (⟨S32x512, .i1⟩ : BufTy).Contents (Elt F)) := by
  have h := Cert.AfterAt.binary_at (ops_writes (F := F)) 102 main_v34 main_v36 main_v37 _ _ _ _ rfl (by decide) (by decide) (by decide) V
  exact h

theorem val_main_c_7 (V : Valuation τ sig (Elt F)) :
    after ops V (main_c_7 : DevRef τ sig) = (constantI S_ 32 32#32) := by
  have h := Cert.AfterAt.nullary_at (ops_writes (F := F)) 103 main_c_7 _ _ rfl (by decide) V
  exact h

theorem val_main_call8_v0 (V : Valuation τ sig (Elt F)) :
    after ops V (main_call8_v0 : DevRef τ sig) = (id (after ops V (main_c_7 : DevRef τ sig)) : (⟨S_, .i32⟩ : BufTy).Contents (Elt F)) := by
  have h := Cert.AfterAt.unary_at (ops_writes (F := F)) 104 main_c_7 main_call8_v0 _ _ _ rfl (by decide) (by decide) V
  exact h

theorem val_main_call8_v1 (V : Valuation τ sig (Elt F)) :
    after ops V (main_call8_v1 : DevRef τ sig) = ((broadcastInDim S32x512 ![] bcast_S_S32x512) (after ops V (main_call8_v0 : DevRef τ sig)) : (⟨S32x512, .i32⟩ : BufTy).Contents (Elt F)) := by
  have h := Cert.AfterAt.unary_at (ops_writes (F := F)) 105 main_call8_v0 main_call8_v1 _ _ _ rfl (by decide) (by decide) V
  exact h

theorem val_main_v38 (V : Valuation τ sig (Elt F)) :
    after ops V (main_v38 : DevRef τ sig) = (select (after ops V (main_v37 : DevRef τ sig)) (after ops V (main_v25 : DevRef τ sig)) (after ops V (main_call8_v1 : DevRef τ sig)) : (⟨S32x512, .i32⟩ : BufTy).Contents (Elt F)) := by
  have h := Cert.AfterAt.ternary_at (ops_writes (F := F)) 106 main_v37 main_v25 main_call8_v1 main_v38 _ _ _ _ _ rfl (by decide) (by decide) (by decide) (by decide) V
  exact h

theorem val_main_c_8 (V : Valuation τ sig (Elt F)) :
    after ops V (main_c_8 : DevRef τ sig) = (constantI S_ 32 0#32) := by
  have h := Cert.AfterAt.nullary_at (ops_writes (F := F)) 107 main_c_8 _ _ rfl (by decide) V
  exact h

theorem val_main_c_9 (V : Valuation τ sig (Elt F)) :
    after ops V (main_c_9 : DevRef τ sig) = (constantI S_ 32 11#32) := by
  have h := Cert.AfterAt.nullary_at (ops_writes (F := F)) 108 main_c_9 _ _ rfl (by decide) V
  exact h

theorem val_main_call9_v0 (V : Valuation τ sig (Elt F)) :
    after ops V (main_call9_v0 : DevRef τ sig) = (id (after ops V (main_c_8 : DevRef τ sig)) : (⟨S_, .i32⟩ : BufTy).Contents (Elt F)) := by
  have h := Cert.AfterAt.unary_at (ops_writes (F := F)) 109 main_c_8 main_call9_v0 _ _ _ rfl (by decide) (by decide) V
  exact h

theorem val_main_call9_v1 (V : Valuation τ sig (Elt F)) :
    after ops V (main_call9_v1 : DevRef τ sig) = ((broadcastInDim S32x512 ![] bcast_S_S32x512) (after ops V (main_call9_v0 : DevRef τ sig)) : (⟨S32x512, .i32⟩ : BufTy).Contents (Elt F)) := by
  have h := Cert.AfterAt.unary_at (ops_writes (F := F)) 110 main_call9_v0 main_call9_v1 _ _ _ rfl (by decide) (by decide) V
  exact h

theorem val_main_call9_v2 (V : Valuation τ sig (Elt F)) :
    after ops V (main_call9_v2 : DevRef τ sig) = (maxsi (after ops V (main_call9_v1 : DevRef τ sig)) (after ops V (main_v31 : DevRef τ sig)) : (⟨S32x512, .i32⟩ : BufTy).Contents (Elt F)) := by
  have h := Cert.AfterAt.binary_at (ops_writes (F := F)) 111 main_call9_v1 main_v31 main_call9_v2 _ _ _ _ rfl (by decide) (by decide) (by decide) V
  exact h

theorem val_main_call9_v3 (V : Valuation τ sig (Elt F)) :
    after ops V (main_call9_v3 : DevRef τ sig) = (id (after ops V (main_c_9 : DevRef τ sig)) : (⟨S_, .i32⟩ : BufTy).Contents (Elt F)) := by
  have h := Cert.AfterAt.unary_at (ops_writes (F := F)) 112 main_c_9 main_call9_v3 _ _ _ rfl (by decide) (by decide) V
  exact h

theorem val_main_call9_v4 (V : Valuation τ sig (Elt F)) :
    after ops V (main_call9_v4 : DevRef τ sig) = ((broadcastInDim S32x512 ![] bcast_S_S32x512) (after ops V (main_call9_v3 : DevRef τ sig)) : (⟨S32x512, .i32⟩ : BufTy).Contents (Elt F)) := by
  have h := Cert.AfterAt.unary_at (ops_writes (F := F)) 113 main_call9_v3 main_call9_v4 _ _ _ rfl (by decide) (by decide) V
  exact h

theorem val_main_v39 (V : Valuation τ sig (Elt F)) :
    after ops V (main_v39 : DevRef τ sig) = (minsi (after ops V (main_call9_v4 : DevRef τ sig)) (after ops V (main_call9_v2 : DevRef τ sig)) : (⟨S32x512, .i32⟩ : BufTy).Contents (Elt F)) := by
  have h := Cert.AfterAt.binary_at (ops_writes (F := F)) 114 main_call9_v4 main_call9_v2 main_v39 _ _ _ _ rfl (by decide) (by decide) (by decide) V
  exact h

theorem val_main_cst (V : Valuation τ sig (Elt F)) :
    after ops V (main_cst : DevRef τ sig) = (constant S_ .f32 0x00000000#32) := by
  have h := Cert.AfterAt.nullary_at (ops_writes (F := F)) 115 main_cst _ _ rfl (by decide) V
  exact h

theorem val_main_v40 (V : Valuation τ sig (Elt F)) :
    after ops V (main_v40 : DevRef τ sig) = ((broadcastInDim S32x33x12x1024 ![] bcast_S_S32x33x12x1024) (after ops V (main_cst : DevRef τ sig)) : (⟨S32x33x12x1024, .f32⟩ : BufTy).Contents (Elt F)) := by
  have h := Cert.AfterAt.unary_at (ops_writes (F := F)) 116 main_cst main_v40 _ _ _ rfl (by decide) (by decide) V
  exact h

theorem val_main_v41 (V : Valuation τ sig (Elt F)) :
    after ops V (main_v41 : DevRef τ sig) = (iotaInDim S32 32 0) := by
  have h := Cert.AfterAt.nullary_at (ops_writes (F := F)) 117 main_v41 _ _ rfl (by decide) V
  exact h

theorem val_main_v42 (V : Valuation τ sig (Elt F)) :
    after ops V (main_v42 : DevRef τ sig) = ((broadcastInDim S32x1 ![0] bcast_S32_S32x1_0) (after ops V (main_v41 : DevRef τ sig)) : (⟨S32x1, .i32⟩ : BufTy).Contents (Elt F)) := by
  have h := Cert.AfterAt.unary_at (ops_writes (F := F)) 118 main_v41 main_v42 _ _ _ rfl (by decide) (by decide) V
  exact h

theorem val_main_c_10 (V : Valuation τ sig (Elt F)) :
    after ops V (main_c_10 : DevRef τ sig) = (constantI S_ 32 0#32) := by
  have h := Cert.AfterAt.nullary_at (ops_writes (F := F)) 119 main_c_10 _ _ rfl (by decide) V
  exact h

theorem val_main_v43 (V : Valuation τ sig (Elt F)) :
    after ops V (main_v43 : DevRef τ sig) = ((broadcastInDim S32x1 ![] bcast_S_S32x1) (after ops V (main_c_10 : DevRef τ sig)) : (⟨S32x1, .i32⟩ : BufTy).Contents (Elt F)) := by
  have h := Cert.AfterAt.unary_at (ops_writes (F := F)) 120 main_c_10 main_v43 _ _ _ rfl (by decide) (by decide) V
  exact h

theorem val_main_v44 (V : Valuation τ sig (Elt F)) :
    after ops V (main_v44 : DevRef τ sig) = ((cmpi .slt) (after ops V (main_v42 : DevRef τ sig)) (after ops V (main_v43 : DevRef τ sig)) : (⟨S32x1, .i1⟩ : BufTy).Contents (Elt F)) := by
  have h := Cert.AfterAt.binary_at (ops_writes (F := F)) 121 main_v42 main_v43 main_v44 _ _ _ _ rfl (by decide) (by decide) (by decide) V
  exact h

theorem val_main_c_11 (V : Valuation τ sig (Elt F)) :
    after ops V (main_c_11 : DevRef τ sig) = (constantI S_ 32 32#32) := by
  have h := Cert.AfterAt.nullary_at (ops_writes (F := F)) 122 main_c_11 _ _ rfl (by decide) V
  exact h

theorem val_main_v45 (V : Valuation τ sig (Elt F)) :
    after ops V (main_v45 : DevRef τ sig) = ((broadcastInDim S32x1 ![] bcast_S_S32x1) (after ops V (main_c_11 : DevRef τ sig)) : (⟨S32x1, .i32⟩ : BufTy).Contents (Elt F)) := by
  have h := Cert.AfterAt.unary_at (ops_writes (F := F)) 123 main_c_11 main_v45 _ _ _ rfl (by decide) (by decide) V
  exact h

theorem val_main_v46 (V : Valuation τ sig (Elt F)) :
    after ops V (main_v46 : DevRef τ sig) = (addi (after ops V (main_v42 : DevRef τ sig)) (after ops V (main_v45 : DevRef τ sig)) : (⟨S32x1, .i32⟩ : BufTy).Contents (Elt F)) := by
  have h := Cert.AfterAt.binary_at (ops_writes (F := F)) 124 main_v42 main_v45 main_v46 _ _ _ _ rfl (by decide) (by decide) (by decide) V
  exact h

theorem val_main_v47 (V : Valuation τ sig (Elt F)) :
    after ops V (main_v47 : DevRef τ sig) = (select (after ops V (main_v44 : DevRef τ sig)) (after ops V (main_v46 : DevRef τ sig)) (after ops V (main_v42 : DevRef τ sig)) : (⟨S32x1, .i32⟩ : BufTy).Contents (Elt F)) := by
  have h := Cert.AfterAt.ternary_at (ops_writes (F := F)) 125 main_v44 main_v46 main_v42 main_v47 _ _ _ _ _ rfl (by decide) (by decide) (by decide) (by decide) V
  exact h

theorem val_main_c_12 (V : Valuation τ sig (Elt F)) :
    after ops V (main_c_12 : DevRef τ sig) = (constantI S_ 32 0#32) := by
  have h := Cert.AfterAt.nullary_at (ops_writes (F := F)) 126 main_c_12 _ _ rfl (by decide) V
  exact h

theorem val_main_v48 (V : Valuation τ sig (Elt F)) :
    after ops V (main_v48 : DevRef τ sig) = ((broadcastInDim S32x512 ![] bcast_S_S32x512) (after ops V (main_c_12 : DevRef τ sig)) : (⟨S32x512, .i32⟩ : BufTy).Contents (Elt F)) := by
  have h := Cert.AfterAt.unary_at (ops_writes (F := F)) 127 main_c_12 main_v48 _ _ _ rfl (by decide) (by decide) V
  exact h

theorem val_main_v49 (V : Valuation τ sig (Elt F)) :
    after ops V (main_v49 : DevRef τ sig) = ((cmpi .slt) (after ops V (main_v38 : DevRef τ sig)) (after ops V (main_v48 : DevRef τ sig)) : (⟨S32x512, .i1⟩ : BufTy).Contents (Elt F)) := by
  have h := Cert.AfterAt.binary_at (ops_writes (F := F)) 128 main_v38 main_v48 main_v49 _ _ _ _ rfl (by decide) (by decide) (by decide) V
  exact h

theorem val_main_c_13 (V : Valuation τ sig (Elt F)) :
    after ops V (main_c_13 : DevRef τ sig) = (constantI S_ 32 33#32) := by
  have h := Cert.AfterAt.nullary_at (ops_writes (F := F)) 129 main_c_13 _ _ rfl (by decide) V
  exact h

theorem val_main_v50 (V : Valuation τ sig (Elt F)) :
    after ops V (main_v50 : DevRef τ sig) = ((broadcastInDim S32x512 ![] bcast_S_S32x512) (after ops V (main_c_13 : DevRef τ sig)) : (⟨S32x512, .i32⟩ : BufTy).Contents (Elt F)) := by
  have h := Cert.AfterAt.unary_at (ops_writes (F := F)) 130 main_c_13 main_v50 _ _ _ rfl (by decide) (by decide) V
  exact h

theorem val_main_v51 (V : Valuation τ sig (Elt F)) :
    after ops V (main_v51 : DevRef τ sig) = (addi (after ops V (main_v38 : DevRef τ sig)) (after ops V (main_v50 : DevRef τ sig)) : (⟨S32x512, .i32⟩ : BufTy).Contents (Elt F)) := by
  have h := Cert.AfterAt.binary_at (ops_writes (F := F)) 131 main_v38 main_v50 main_v51 _ _ _ _ rfl (by decide) (by decide) (by decide) V
  exact h

theorem val_main_v52 (V : Valuation τ sig (Elt F)) :
    after ops V (main_v52 : DevRef τ sig) = (select (after ops V (main_v49 : DevRef τ sig)) (after ops V (main_v51 : DevRef τ sig)) (after ops V (main_v38 : DevRef τ sig)) : (⟨S32x512, .i32⟩ : BufTy).Contents (Elt F)) := by
  have h := Cert.AfterAt.ternary_at (ops_writes (F := F)) 132 main_v49 main_v51 main_v38 main_v52 _ _ _ _ _ rfl (by decide) (by decide) (by decide) (by decide) V
  exact h

theorem val_main_c_14 (V : Valuation τ sig (Elt F)) :
    after ops V (main_c_14 : DevRef τ sig) = (constantI S_ 32 0#32) := by
  have h := Cert.AfterAt.nullary_at (ops_writes (F := F)) 133 main_c_14 _ _ rfl (by decide) V
  exact h

theorem val_main_v53 (V : Valuation τ sig (Elt F)) :
    after ops V (main_v53 : DevRef τ sig) = ((broadcastInDim S32x512 ![] bcast_S_S32x512) (after ops V (main_c_14 : DevRef τ sig)) : (⟨S32x512, .i32⟩ : BufTy).Contents (Elt F)) := by
  have h := Cert.AfterAt.unary_at (ops_writes (F := F)) 134 main_c_14 main_v53 _ _ _ rfl (by decide) (by decide) V
  exact h

theorem val_main_v54 (V : Valuation τ sig (Elt F)) :
    after ops V (main_v54 : DevRef τ sig) = ((cmpi .slt) (after ops V (main_v39 : DevRef τ sig)) (after ops V (main_v53 : DevRef τ sig)) : (⟨S32x512, .i1⟩ : BufTy).Contents (Elt F)) := by
  have h := Cert.AfterAt.binary_at (ops_writes (F := F)) 135 main_v39 main_v53 main_v54 _ _ _ _ rfl (by decide) (by decide) (by decide) V
  exact h

theorem val_main_c_15 (V : Valuation τ sig (Elt F)) :
    after ops V (main_c_15 : DevRef τ sig) = (constantI S_ 32 12#32) := by
  have h := Cert.AfterAt.nullary_at (ops_writes (F := F)) 136 main_c_15 _ _ rfl (by decide) V
  exact h

theorem val_main_v55 (V : Valuation τ sig (Elt F)) :
    after ops V (main_v55 : DevRef τ sig) = ((broadcastInDim S32x512 ![] bcast_S_S32x512) (after ops V (main_c_15 : DevRef τ sig)) : (⟨S32x512, .i32⟩ : BufTy).Contents (Elt F)) := by
  have h := Cert.AfterAt.unary_at (ops_writes (F := F)) 137 main_c_15 main_v55 _ _ _ rfl (by decide) (by decide) V
  exact h

theorem val_main_v56 (V : Valuation τ sig (Elt F)) :
    after ops V (main_v56 : DevRef τ sig) = (addi (after ops V (main_v39 : DevRef τ sig)) (after ops V (main_v55 : DevRef τ sig)) : (⟨S32x512, .i32⟩ : BufTy).Contents (Elt F)) := by
  have h := Cert.AfterAt.binary_at (ops_writes (F := F)) 138 main_v39 main_v55 main_v56 _ _ _ _ rfl (by decide) (by decide) (by decide) V
  exact h

theorem val_main_v57 (V : Valuation τ sig (Elt F)) :
    after ops V (main_v57 : DevRef τ sig) = (select (after ops V (main_v54 : DevRef τ sig)) (after ops V (main_v56 : DevRef τ sig)) (after ops V (main_v39 : DevRef τ sig)) : (⟨S32x512, .i32⟩ : BufTy).Contents (Elt F)) := by
  have h := Cert.AfterAt.ternary_at (ops_writes (F := F)) 139 main_v54 main_v56 main_v39 main_v57 _ _ _ _ _ rfl (by decide) (by decide) (by decide) (by decide) V
  exact h

theorem val_main_v58 (V : Valuation τ sig (Elt F)) :
    after ops V (main_v58 : DevRef τ sig) = ((broadcastInDim S32x512 ![0, 1] bcast_S32x1_S32x512_0_1) (after ops V (main_v47 : DevRef τ sig)) : (⟨S32x512, .i32⟩ : BufTy).Contents (Elt F)) := by
  have h := Cert.AfterAt.unary_at (ops_writes (F := F)) 140 main_v47 main_v58 _ _ _ rfl (by decide) (by decide) V
  exact h

theorem val_main_v59 (V : Valuation τ sig (Elt F)) :
    after ops V (main_v59 : DevRef τ sig) = ((broadcastInDim S32x512x1 ![0, 1] bcast_S32x512_S32x512x1_0_1) (after ops V (main_v58 : DevRef τ sig)) : (⟨S32x512x1, .i32⟩ : BufTy).Contents (Elt F)) := by
  have h := Cert.AfterAt.unary_at (ops_writes (F := F)) 141 main_v58 main_v59 _ _ _ rfl (by decide) (by decide) V
  exact h

theorem val_main_v60 (V : Valuation τ sig (Elt F)) :
    after ops V (main_v60 : DevRef τ sig) = ((broadcastInDim S32x512x1 ![0, 1] bcast_S32x512_S32x512x1_0_1) (after ops V (main_v52 : DevRef τ sig)) : (⟨S32x512x1, .i32⟩ : BufTy).Contents (Elt F)) := by
  have h := Cert.AfterAt.unary_at (ops_writes (F := F)) 142 main_v52 main_v60 _ _ _ rfl (by decide) (by decide) V
  exact h

theorem val_main_v61 (V : Valuation τ sig (Elt F)) :
    after ops V (main_v61 : DevRef τ sig) = ((broadcastInDim S32x512x1 ![0, 1] bcast_S32x512_S32x512x1_0_1) (after ops V (main_v57 : DevRef τ sig)) : (⟨S32x512x1, .i32⟩ : BufTy).Contents (Elt F)) := by
  have h := Cert.AfterAt.unary_at (ops_writes (F := F)) 143 main_v57 main_v61 _ _ _ rfl (by decide) (by decide) V
  exact h

theorem val_main_v62 (V : Valuation τ sig (Elt F)) :
    after ops V (main_v62 : DevRef τ sig) = concatenate S32x512x3 2 [⟨S32x512x1, after ops V (main_v59 : DevRef τ sig)⟩, ⟨S32x512x1, after ops V (main_v60 : DevRef τ sig)⟩, ⟨S32x512x1, after ops V (main_v61 : DevRef τ sig)⟩] concatenates_S32x512x1_S32x512x1_S32x512x1_S32x512x3_d2 := by
  have h := Cert.AfterAt.nary_at (ops_writes (F := F)) 144 ![main_v59, main_v60, main_v61] main_v62 _ _ _ rfl (by decide) (by decide) V
  exact h

theorem val_main_v63 (V : Valuation τ sig (Elt F)) :
    after ops V (main_v63 : DevRef τ sig) = (Host.scatter scatter_S32x33x12x1024_S32x512x3_S32x512x1024_2_012_012_2 (fun _ b => b) (after ops V (main_v40 : DevRef τ sig)) (after ops V (main_v62 : DevRef τ sig)) (after ops V (main_arg0 : DevRef τ sig)) : (⟨S32x33x12x1024, .f32⟩ : BufTy).Contents (Elt F)) := by
  have h := Cert.AfterAt.ternary_at (ops_writes (F := F)) 145 main_v40 main_v62 main_arg0 main_v63 _ _ _ _ _ rfl (by decide) (by decide) (by decide) (by decide) V
  exact h

theorem val_main_v64 (V : Valuation τ sig (Elt F)) :
    after ops V (main_v64 : DevRef τ sig) = (extractStridedSlice S32x32x12x1024 ![0, 0, 0, 0] (after ops V (main_v63 : DevRef τ sig)) slices_S32x33x12x1024_S32x32x12x1024_0_0_0_0 : (⟨S32x32x12x1024, .f32⟩ : BufTy).Contents (Elt F)) := by
  have h := Cert.AfterAt.unary_at (ops_writes (F := F)) 146 main_v63 main_v64 _ _ _ rfl (by decide) (by decide) V
  exact h

end Cert.ReferenceIdeal.HandRun

end
-- ==== Proof.LibColumnBroadcast.lean ====
/-
  A column broadcast along the rows: an [a, 1] array broadcast to [a, b] reads, at (i, j), the operand's entry (i, 0).
-/
import Idealize.ShloMosaic.Lib.Pipeline.Value
import Idealize.ShloMosaic.Lib.ValueIdx

namespace Cert.Lib.ColumnBroadcast

open Idealize.ShloMosaic Idealize.ShloMosaic.ValueIdx

variable {α : Type}

/-- An [a, 1] column broadcast to [a, b] reads, at (i, j), the operand at (i, 0): the row coordinate is kept (also when
    a = 1, where the only row is row 0) and the unit axis is read at its one position. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.ColumnBroadcast
-- ==== Proof.LibColumnCast.lean ====
/-
  A vector and a one-column matrix hold the same entries: the shape casts between [a] and [a, 1], read at an index.
  (The casts a row sum kept as a column meets: the sum is taken as a vector, stored as a column, and read back as a vector.)
-/
import Idealize.ShloMosaic.Lib.ValueLayout
import Idealize.ShloMosaic.Lib.Pipeline.Value

namespace Cert.LibColumnCast

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.KPay.lean ====
/-
  The kernel body's two stored values, read at an index, at the ideal instance.

  The body turns a vector of 512 row indices into a 0/1 matrix (entry (i, l) is one exactly when the i-th index
  equals l) and multiplies it with the 512 × 1024 block of the input. At the ideal instance the conversions between
  float formats are the identity and the conversion of the 0/1 integers is exact, so row i of the product is the sum
  over l of (1 or 0) · x(l, ·): the selected row of the block. The first store scales row i by the i-th entry of a
  second vector; the second store uses 384 target rows and tests "the l-th index equals r" instead.
-/
import proofs.«139113_j90056874263205_2_alg».proof.Proof.Gen.KernelIdeal.Skeleton
import proofs.«139113_j90056874263205_2_alg».proof.Proof.LibColumnBroadcast
import proofs.«139113_j90056874263205_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open Cert.KernelIdeal.Facts₀

/-- The 0/1 factor of a selection matrix: one when the two words are equal. -/
def hot (a b : BitVec 32) : EReal := if a = b then 1 else 0

/-- An equality test widened to 32 bits and read as a signed integer is that factor. -/
theorem hot_eq (a b : BitVec 32) :
    (((((IntOp.cmpi .eq a b).setWidth 32).toInt : ℤ) : ℝ) : EReal) = hot a b := by
  unfold hot IntOp.cmpi
  by_cases h : a = b
  · subst h; simp
  · have : (a == b) = false := by simpa using h
    simp [this, h]

/-- A [1, 1, a] array viewed as a vector reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- The block of the input with its unit axis dropped: entry (l, h) is the block's (0, l, h). -/
theorem pay1_apply (v0 : Vec Ideal S1x512x1024 .f32) (l : Fin 512) (h : Fin 1024) :
    k0_pay1 (F := Ideal) v0 (ix2 l h) = v0 (ix3 (0 : Fin 1) l h) := by
  unfold k0_pay1
  exact shapeCast_1ab_ab_apply v0 _ l h

theorem lhs2_0 (j : S512x1024.Idx) (q : dot_S512x512_S512x1024_S512x1024_1_0_0_1_n_n.contr.Idx) : (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs2_1 (j : S512x1024.Idx) (q : dot_S512x512_S512x1024_S512x1024_1_0_0_1_n_n.contr.Idx) : (dot_S512x512_S512x1024_S512x1024_1_0_0_1_n_n.lhsIdx j q 1).val = (q ⟨0, by decide⟩).val :=
  dot_S512x512_S512x1024_S512x1024_1_0_0_1_n_n.lhsIdx_val_of_single rfl j q
theorem rhs2_0 (j : S512x1024.Idx) (q : dot_S512x512_S512x1024_S512x1024_1_0_0_1_n_n.contr.Idx) : (dot_S512x512_S512x1024_S512x1024_1_0_0_1_n_n.rhsIdx j q 0).val = (q ⟨0, by decide⟩).val :=
  dot_S512x512_S512x1024_S512x1024_1_0_0_1_n_n.rhsIdx_val_of_single rfl j q
theorem rhs2_1 (j : S512x1024.Idx) (q : dot_S512x512_S512x1024_S512x1024_1_0_0_1_n_n.contr.Idx) : (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product into a zero accumulator, at (i, h): the sum over the contracted position l of left (i, l) times right (l, h). -/
theorem matmul2_apply (L : FVec Ideal S512x512 .bf16) (Rm : FVec Ideal S512x1024 .bf16) (i : Fin 512) (h : Fin 1024) :
    matmul dot_S512x512_S512x1024_S512x1024_1_0_0_1_n_n none L Rm (constant (F := Ideal) S512x1024 .f32 0x00000000#32) (ix2 i h)
      = ∑ l : Fin 512, L (ix2 i l) * Rm (ix2 l h) := by
  refine (Ideal.matmul_constant_zero_apply dot_S512x512_S512x1024_S512x1024_1_0_0_1_n_n none L Rm (ix2 i h)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 i h) ((ValueIdx.contrEquiv1 dot_S512x512_S512x1024_S512x1024_1_0_0_1_n_n 512 rfl rfl).symm k) = ix2 i k := funext fun a => Fin.ext (by
    match a with
    | ⟨0, _⟩ => exact lhs2_0 _ _
    | ⟨1, _⟩ => exact (lhs2_1 _ _).trans hk)
  have er : dot_S512x512_S512x1024_S512x1024_1_0_0_1_n_n.rhsIdx (ix2 i h) ((ValueIdx.contrEquiv1 dot_S512x512_S512x1024_S512x1024_1_0_0_1_n_n 512 rfl rfl).symm k) = ix2 k h := funext fun a => Fin.ext (by
    match a with
    | ⟨0, _⟩ => exact (rhs2_0 _ _).trans hk
    | ⟨1, _⟩ => exact rhs2_1 _ _)
  rw [el, er]

theorem lhs3_0 (j : S384x1024.Idx) (q : dot_S384x512_S512x1024_S384x1024_1_0_0_1_n_n.contr.Idx) : (dot_S384x512_S512x1024_S384x1024_1_0_0_1_n_n.lhsIdx j q 0).val = (j 0).val := by
  unfold DotDims.lhsIdx
  rw [dif_neg (show ¬(0 : Fin S384x512.rank) ∈ dot_S384x512_S512x1024_S384x1024_1_0_0_1_n_n.lhsBatch by decide), dif_pos (show (0 : Fin S384x512.rank) ∈ dot_S384x512_S512x1024_S384x1024_1_0_0_1_n_n.lhsNonContracting by decide)]
  rfl
theorem lhs3_1 (j : S384x1024.Idx) (q : dot_S384x512_S512x1024_S384x1024_1_0_0_1_n_n.contr.Idx) : (dot_S384x512_S512x1024_S384x1024_1_0_0_1_n_n.lhsIdx j q 1).val = (q ⟨0, by decide⟩).val :=
  dot_S384x512_S512x1024_S384x1024_1_0_0_1_n_n.lhsIdx_val_of_single rfl j q
theorem rhs3_0 (j : S384x1024.Idx) (q : dot_S384x512_S512x1024_S384x1024_1_0_0_1_n_n.contr.Idx) : (dot_S384x512_S512x1024_S384x1024_1_0_0_1_n_n.rhsIdx j q 0).val = (q ⟨0, by decide⟩).val :=
  dot_S384x512_S512x1024_S384x1024_1_0_0_1_n_n.rhsIdx_val_of_single rfl j q
theorem rhs3_1 (j : S384x1024.Idx) (q : dot_S384x512_S512x1024_S384x1024_1_0_0_1_n_n.contr.Idx) : (dot_S384x512_S512x1024_S384x1024_1_0_0_1_n_n.rhsIdx j q 1).val = (j 1).val := by
  unfold DotDims.rhsIdx
  rw [dif_neg (show ¬(1 : Fin S512x1024.rank) ∈ dot_S384x512_S512x1024_S384x1024_1_0_0_1_n_n.rhsBatch by decide), dif_pos (show (1 : Fin S512x1024.rank) ∈ dot_S384x512_S512x1024_S384x1024_1_0_0_1_n_n.rhsNonContracting by decide)]
  rfl

/-- The product into a zero accumulator, at (i, h): the sum over the contracted position l of left (i, l) times right (l, h). -/
theorem matmul3_apply (L : FVec Ideal S384x512 .bf16) (Rm : FVec Ideal S512x1024 .bf16) (i : Fin 384) (h : Fin 1024) :
    matmul dot_S384x512_S512x1024_S384x1024_1_0_0_1_n_n none L Rm (constant (F := Ideal) S384x1024 .f32 0x00000000#32) (ix2 i h)
      = ∑ l : Fin 512, L (ix2 i l) * Rm (ix2 l h) := by
  refine (Ideal.matmul_constant_zero_apply dot_S384x512_S512x1024_S384x1024_1_0_0_1_n_n none L Rm (ix2 i h)).trans ?_
  rw [← Equiv.sum_comp (ValueIdx.contrEquiv1 dot_S384x512_S512x1024_S384x1024_1_0_0_1_n_n 512 rfl rfl).symm]
  refine Finset.sum_congr rfl fun k _ => ?_
  have hk := ValueIdx.contrEquiv1_symm_val dot_S384x512_S512x1024_S384x1024_1_0_0_1_n_n 512 rfl rfl k
  have el : dot_S384x512_S512x1024_S384x1024_1_0_0_1_n_n.lhsIdx (ix2 i h) ((ValueIdx.contrEquiv1 dot_S384x512_S512x1024_S384x1024_1_0_0_1_n_n 512 rfl rfl).symm k) = ix2 i k := funext fun a => Fin.ext (by
    match a with
    | ⟨0, _⟩ => exact lhs3_0 _ _
    | ⟨1, _⟩ => exact (lhs3_1 _ _).trans hk)
  have er : dot_S384x512_S512x1024_S384x1024_1_0_0_1_n_n.rhsIdx (ix2 i h) ((ValueIdx.contrEquiv1 dot_S384x512_S512x1024_S384x1024_1_0_0_1_n_n 512 rfl rfl).symm k) = ix2 k h := funext fun a => Fin.ext (by
    match a with
    | ⟨0, _⟩ => exact (rhs3_0 _ _).trans hk
    | ⟨1, _⟩ => exact rhs3_1 _ _)
  rw [el, er]

/-- The first stored value at (·, i, h): the block's row selected by the i-th index word, scaled by the i-th entry of the
    scale vector. Written as the sum it is: Σ_l [index i = l] · x(l, h), times scale i. -/
theorem pay2_apply (v0 : Vec Ideal S1x512x1024 .f32) (v3 : Vec Ideal S1x1x512 .i32) (v13 : Vec Ideal S1x1x512 .f32)
    (u : Fin 1) (i : Fin 512) (h : Fin 1024) :
    k0_pay2 (F := Ideal) v0 v3 v13 (ix3 u i h)
      = (∑ l : Fin 512, hot (v3 (ix3 (0 : Fin 1) (0 : Fin 1) i)) (BitVec.ofNat 32 l.val) * v0 (ix3 (0 : Fin 1) l h))
          * v13 (ix3 (0 : Fin 1) (0 : Fin 1) i) := by
  unfold k0_pay2
  rw [shapeCast_ab_1ab_apply]
  refine congrArg₂ (fun x y : EReal => x * y) ?_ ?_
  · rw [matmul2_apply]
    refine Finset.sum_congr rfl fun l _ => congrArg₂ (fun x y : EReal => x * y) ?_ (pay1_apply v0 l h)
    refine (hot_eq _ _).trans (congrArg₂ hot ?_ ?_)
    · rw [Cert.Lib.ColumnBroadcast.broadcastTo_a1_ab_apply, Cert.LibColumnCast.shapeCast_a_a1_apply, shapeCast_11a_a_apply]
    · rw [iota_single_apply]
  · rw [Cert.Lib.ColumnBroadcast.broadcastTo_a1_ab_apply, Cert.LibColumnCast.shapeCast_a_a1_apply, shapeCast_11a_a_apply]

/-- The second stored value at (·, r, h): Σ_l [target l = r] · x(l, h), the rows of the block whose target word is r. -/
theorem pay3_apply (v0 : Vec Ideal S1x512x1024 .f32) (v21 : Vec Ideal S1x1x512 .i32)
    (u : Fin 1) (r : Fin 384) (h : Fin 1024) :
    k0_pay3 (F := Ideal) v0 v21 (ix3 u r h)
      = ∑ l : Fin 512, hot (v21 (ix3 (0 : Fin 1) (0 : Fin 1) l)) (BitVec.ofNat 32 r.val) * v0 (ix3 (0 : Fin 1) l h) := by
  unfold k0_pay3
  rw [shapeCast_ab_1ab_apply, matmul3_apply]
  refine Finset.sum_congr rfl fun l _ => congrArg₂ (fun x y : EReal => x * y) ?_ (pay1_apply v0 l h)
  refine (hot_eq _ _).trans (congrArg₂ hot ?_ ?_)
  · rw [broadcastTo_1b_ab_apply, shapeCast_a_1a_apply, shapeCast_11a_a_apply]
  · rw [iota_single_apply]

end Cert.KernelIdeal.Pay

end
-- ==== Proof.KValue.lean ====
/-
  What the kernel's two output arrays hold after the run, as whole-array functions of the arrays the region finds.

  The grid has 32 points; point t stages row-block t of every array (the index maps are t ↦ (t, 0, 0)) and writes back
  block t of both outputs. So the first output at (b, i, h) is the body's first stored value for batch b:
  Σ_l [index(b, i) = l] · x(b, l, h), times scale(b, i); the second at (b, r, h) is Σ_l [target(b, l) = r] · x(b, l, h).
  The blocks of each output tile its array, so these formulas hold at every index.
-/
import proofs.«139113_j90056874263205_2_alg».proof.Proof.Gen.KernelIdeal.Frame
import proofs.«139113_j90056874263205_2_alg».proof.Proof.KPay
import Idealize.ShloMosaic.Lib.Pipeline.Value

set_option maxRecDepth 16384

noncomputable section

namespace Cert.KernelIdeal.KV

open Cert.KernelIdeal Cert.KernelIdeal.Gen Cert.KernelIdeal.Pay Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The gathered-and-scaled array: at (b, i, h), the row of x selected by the index word (b, i), times the scale (b, i). -/
def Gq (x : S32x512x1024.Idx → EReal) (ix : S32x1x512.Idx → BitVec 32) (sc : S32x1x512.Idx → EReal) : S32x512x1024.Idx → EReal :=
  fun j => (∑ l : Fin 512, hot (ix (ix3 (j 0) (0 : Fin 1) (j 1))) (BitVec.ofNat 32 l.val) * x (ix3 (j 0) l (j 2)))
    * sc (ix3 (j 0) (0 : Fin 1) (j 1))

/-- The scattered array: at (b, r, h), the sum of the rows l of x whose target word (b, l) is r. -/
def Gh (x : S32x512x1024.Idx → EReal) (tg : S32x1x512.Idx → BitVec 32) : S32x384x1024.Idx → EReal :=
  fun j => ∑ l : Fin 512, hot (tg (ix3 (j 0) (0 : Fin 1) l)) (BitVec.ofNat 32 (j 1).val) * x (ix3 (j 0) l (j 2))

/-- The index maps, decided over the 32 grid points: every window's block index at point t is (t, 0, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- The batch a grid point works on. -/
def bt (t : Fin cfg0.N) : Fin 32 := ⟨t.val, lt_of_lt_of_eq t.isLt N_0⟩

/-- A block's coordinate is index × size + the coordinate inside the block: block t of each array is its row-block t. -/
theorem emb0 (t : Fin cfg0.N) (u : Fin 1) (p : Fin 512) (q : Fin 1024) :
    ((cfg0.win 0).blk t).view.emb (ix3 u p q) = ix3 (bt t) p q := by
  obtain ⟨e0, e1, e2⟩ := idx0 t
  funext a; apply Fin.ext
  match a with
  | ⟨0, _⟩ => show win0_0.index t (0 : Fin 3) * 1 + 1 * u.val = t.val; have := u.isLt; omega
  | ⟨1, _⟩ => show win0_0.index t (1 : Fin 3) * 512 + 1 * p.val = p.val; omega
  | ⟨2, _⟩ => show win0_0.index t (2 : Fin 3) * 1024 + 1 * q.val = q.val; omega
theorem emb1 (t : Fin cfg0.N) (u : Fin 1) (p : Fin 1) (q : Fin 512) :
    ((cfg0.win 1).blk t).view.emb (ix3 u p q) = ix3 (bt t) p q := by
  obtain ⟨e0, e1, e2⟩ := idx1 t
  funext a; apply Fin.ext
  match a with
  | ⟨0, _⟩ => show win0_1.index t (0 : Fin 3) * 1 + 1 * u.val = t.val; have := u.isLt; omega
  | ⟨1, _⟩ => show win0_1.index t (1 : Fin 3) * 1 + 1 * p.val = p.val; omega
  | ⟨2, _⟩ => show win0_1.index t (2 : Fin 3) * 512 + 1 * q.val = q.val; omega
theorem emb2 (t : Fin cfg0.N) (u : Fin 1) (p : Fin 1) (q : Fin 512) :
    ((cfg0.win 2).blk t).view.emb (ix3 u p q) = ix3 (bt t) p q := by
  obtain ⟨e0, e1, e2⟩ := idx2 t
  funext a; apply Fin.ext
  match a with
  | ⟨0, _⟩ => show win0_2.index t (0 : Fin 3) * 1 + 1 * u.val = t.val; have := u.isLt; omega
  | ⟨1, _⟩ => show win0_2.index t (1 : Fin 3) * 1 + 1 * p.val = p.val; omega
  | ⟨2, _⟩ => show win0_2.index t (2 : Fin 3) * 512 + 1 * q.val = q.val; omega
theorem emb3 (t : Fin cfg0.N) (u : Fin 1) (p : Fin 1) (q : Fin 512) :
    ((cfg0.win 3).blk t).view.emb (ix3 u p q) = ix3 (bt t) p q := by
  obtain ⟨e0, e1, e2⟩ := idx3 t
  funext a; apply Fin.ext
  match a with
  | ⟨0, _⟩ => show win0_3.index t (0 : Fin 3) * 1 + 1 * u.val = t.val; have := u.isLt; omega
  | ⟨1, _⟩ => show win0_3.index t (1 : Fin 3) * 1 + 1 * p.val = p.val; omega
  | ⟨2, _⟩ => show win0_3.index t (2 : Fin 3) * 512 + 1 * q.val = q.val; omega
theorem emb4 (t : Fin cfg0.N) (u : Fin 1) (p : Fin 512) (q : Fin 1024) :
    ((cfg0.win 4).blk t).view.emb (ix3 u p q) = ix3 (bt t) p q := by
  obtain ⟨e0, e1, e2⟩ := idx4 t
  funext a; apply Fin.ext
  match a with
  | ⟨0, _⟩ => show win0_4.index t (0 : Fin 3) * 1 + 1 * u.val = t.val; have := u.isLt; omega
  | ⟨1, _⟩ => show win0_4.index t (1 : Fin 3) * 512 + 1 * p.val = p.val; omega
  | ⟨2, _⟩ => show win0_4.index t (2 : Fin 3) * 1024 + 1 * q.val = q.val; omega
theorem emb5 (t : Fin cfg0.N) (u : Fin 1) (p : Fin 384) (q : Fin 1024) :
    ((cfg0.win 5).blk t).view.emb (ix3 u p q) = ix3 (bt t) p q := by
  obtain ⟨e0, e1, e2⟩ := idx5 t
  funext a; apply Fin.ext
  match a with
  | ⟨0, _⟩ => show win0_5.index t (0 : Fin 3) * 1 + 1 * u.val = t.val; have := u.isLt; omega
  | ⟨1, _⟩ => show win0_5.index t (1 : Fin 3) * 384 + 1 * p.val = p.val; omega
  | ⟨2, _⟩ => show win0_5.index t (2 : Fin 3) * 1024 + 1 * q.val = q.val; omega

/-- An input window's block at point t, read at a coordinate: the array's entry in row-block t. -/
theorem iblk0_apply (c : Dev nD) (t : Fin cfg0.N) (u : Fin 1) (p : Fin 512) (q : Fin 1024) :
    iblk m c 0 t (ix3 u p q) = V m c main_arg0 (ix3 (bt t) p q) := by
  show V m c main_arg0 (((cfg0.win 0).blk t).view.emb (ix3 u p q)) = _
  rw [emb0]
theorem iblk1_apply (c : Dev nD) (t : Fin cfg0.N) (u : Fin 1) (p : Fin 1) (q : Fin 512) :
    iblk m c 1 t (ix3 u p q) = V m c main_v37 (ix3 (bt t) p q) := by
  show V m c main_v37 (((cfg0.win 1).blk t).view.emb (ix3 u p q)) = _
  rw [emb1]
theorem iblk2_apply (c : Dev nD) (t : Fin cfg0.N) (u : Fin 1) (p : Fin 1) (q : Fin 512) :
    iblk m c 2 t (ix3 u p q) = V m c main_v38 (ix3 (bt t) p q) := by
  show V m c main_v38 (((cfg0.win 2).blk t).view.emb (ix3 u p q)) = _
  rw [emb2]
theorem iblk3_apply (c : Dev nD) (t : Fin cfg0.N) (u : Fin 1) (p : Fin 1) (q : Fin 512) :
    iblk m c 3 t (ix3 u p q) = V m c main_v39 (ix3 (bt t) p q) := by
  show V m c main_v39 (((cfg0.win 3).blk t).view.emb (ix3 u p q)) = _
  rw [emb3]

/-- What point t writes back to the first output is block t of `Gq` of the arrays as the region finds them. -/
theorem flushed4_eq (c : Dev nD) (t : Fin cfg0.N) :
    (dats m 0 c).flushed 4 t = ((cfg0.win 4).blk t).view.read (Elt Ideal) (Gq (V m c main_arg0) (V m c main_v37) (V m c main_v38)) := by
  show (cfg0.win 4).cut (grid0.coords t) ((dats m 0 c).after 4 t) = _
  rw [after0_4]
  unfold out0_4
  rw [View.canon_unit_zero hz3]
  simp only [View.ld_unit_zero (S := S1x512x1024) hz3, View.ld_unit_zero (S := S1x1x512) hz3]
  funext j
  obtain ⟨u, i, h, rfl⟩ : ∃ (u : Fin 1) (i : Fin 512) (h : Fin 1024), j = ix3 u i h := ⟨j 0, j 1, j 2, eq_ix3 j⟩
  show k0_pay2 (F := Ideal) (iblk m c 0 t) (iblk m c 1 t) (iblk m c 2 t) (ix3 u i h)
    = Gq (V m c main_arg0) (V m c main_v37) (V m c main_v38) (((cfg0.win 4).blk t).view.emb (ix3 u i h))
  rw [pay2_apply, emb4 t u i h]
  simp only [iblk0_apply, iblk1_apply, iblk2_apply]
  rfl

/-- What point t writes back to the second output is block t of `Gh`. -/
theorem flushed5_eq (c : Dev nD) (t : Fin cfg0.N) :
    (dats m 0 c).flushed 5 t = ((cfg0.win 5).blk t).view.read (Elt Ideal) (Gh (V m c main_arg0) (V m c main_v39)) := by
  show (cfg0.win 5).cut (grid0.coords t) ((dats m 0 c).after 5 t) = _
  rw [after0_5]
  unfold out0_5
  rw [View.canon_unit_zero hz3]
  simp only [View.ld_unit_zero (S := S1x512x1024) hz3, View.ld_unit_zero (S := S1x1x512) hz3]
  funext j
  obtain ⟨u, r, h, rfl⟩ : ∃ (u : Fin 1) (r : Fin 384) (h : Fin 1024), j = ix3 u r h := ⟨j 0, j 1, j 2, eq_ix3 j⟩
  show k0_pay3 (F := Ideal) (iblk m c 0 t) (iblk m c 3 t) (ix3 u r h)
    = Gh (V m c main_arg0) (V m c main_v39) (((cfg0.win 5).blk t).view.emb (ix3 u r h))
  rw [pay3_apply, emb5 t u r h]
  simp only [iblk0_apply, iblk3_apply]
  rfl

theorem mem_blk4 (t : Fin cfg0.N) (i : S32x512x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v40_0).slice (win0_4.rect t)).set ↔ _
  rw [View.set_slice_whole, Rect.mem_set_unit]
  exact Iff.rfl

/-- Every index of the array lies in the block of the point named by its first coordinate. -/
theorem cover4 (i : S32x512x1024.Idx) : ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 1024 := (i 2).isLt
  refine ⟨⟨(i 0).val, lt_of_lt_of_eq h0 N_0.symm⟩, flush0_4 _, ?_⟩
  rw [mem_blk4]
  obtain ⟨e0, e1, e2⟩ := idx4 ⟨(i 0).val, lt_of_lt_of_eq h0 N_0.symm⟩
  have e0' : win0_4.index ⟨(i 0).val, lt_of_lt_of_eq h0 N_0.symm⟩ (0 : Fin 3) = (i 0).val := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 1024 ≤ (i 2).val ∧ (i 2).val < win0_4.index _ (2 : Fin 3) * 1024 + 1024; omega

theorem mem_blk5 (t : Fin cfg0.N) (i : S32x384x1024.Idx) :
    i ∈ ((cfg0.win 5).blk t).view.set ↔ ∀ a : Fin 3, win0_5.index t a * S1x384x1024.size a ≤ (i a).val ∧ (i a).val < win0_5.index t a * S1x384x1024.size a + S1x384x1024.size a := by
  show i ∈ ((View.whole main_v40_1).slice (win0_5.rect t)).set ↔ _
  rw [View.set_slice_whole, Rect.mem_set_unit]
  exact Iff.rfl

/-- Every index of the array lies in the block of the point named by its first coordinate. -/
theorem cover5 (i : S32x384x1024.Idx) : ∃ t : Fin cfg0.N, (cfg0.win 5).flush t = true ∧ i ∈ ((cfg0.win 5).blk t).view.set := by
  have h0 : (i 0).val < 32 := (i 0).isLt
  have h1 : (i 1).val < 384 := (i 1).isLt
  have h2 : (i 2).val < 1024 := (i 2).isLt
  refine ⟨⟨(i 0).val, lt_of_lt_of_eq h0 N_0.symm⟩, flush0_5 _, ?_⟩
  rw [mem_blk5]
  obtain ⟨e0, e1, e2⟩ := idx5 ⟨(i 0).val, lt_of_lt_of_eq h0 N_0.symm⟩
  have e0' : win0_5.index ⟨(i 0).val, lt_of_lt_of_eq h0 N_0.symm⟩ (0 : Fin 3) = (i 0).val := e0
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 384 ≤ (i 1).val ∧ (i 1).val < win0_5.index _ (1 : Fin 3) * 384 + 384; omega
  | ⟨2, _⟩ => show win0_5.index _ (2 : Fin 3) * 1024 ≤ (i 2).val ∧ (i 2).val < win0_5.index _ (2 : Fin 3) * 1024 + 1024; omega

/-- The first output array after the run. -/
theorem final4 (c : Dev nD) : (dats m 0 c).arrAt 4 cfg0.N = Gq (V m c main_arg0) (V m c main_v37) (V m c main_v38) :=
  (dats m 0 c).arrAt_eq_of_cover 4 _ (fun t _ => flushed4_eq m c t) cover4

/-- The second output array after the run. -/
theorem final5 (c : Dev nD) : (dats m 0 c).arrAt 5 cfg0.N = Gh (V m c main_arg0) (V m c main_v39) :=
  (dats m 0 c).arrAt_eq_of_cover 5 _ (fun t _ => flushed5_eq m c t) cover5

end Cert.KernelIdeal.KV

end
-- ==== Proof.KRun.lean ====
/-
  The kernel program's run, with its two results and its two arguments named.

  After the region the program only views the second output, 384 rows per batch, as 32 × 12 rows; so the first result
  is the gathered-and-scaled array and the second the scattered array under that change of shape, both as functions
  of what the region finds in the four arrays it reads.
-/
import proofs.«139113_j90056874263205_2_alg».proof.Proof.KValue
import Idealize.ShloMosaic.Lib.StableHlo.Run

set_option maxRecDepth 16384

noncomputable section

namespace Cert.KernelIdeal.KV

open Cert.KernelIdeal Cert.KernelIdeal.Gen Cert.KernelIdeal.Pay Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The line after the region: the second output array viewed with its 384 rows as 32 × 12. -/
theorem tail_v41 (c : Dev nD) : Pipeline.afterTail₀ cfgs (dats m) 0 (V0 m) [hostOps1] c main_v41
    = shapeCast S32x32x12x1024 (Gh (V m c main_arg0) (V m c main_v39)) Cert.KernelIdeal.Facts₀.shapeCasts_S32x384x1024_S32x32x12x1024 := by
  unfold Pipeline.afterTail₀
  show StableHlo.after hostOps1 _ (Proc.devRef .tc main_v41) = _
  after_results
  have hw : Pipeline.withArrays (cfgs 0).spec c (V0 m c) (fun w => (dats m 0 c).arrAt w (cfgs 0).N) (Proc.tc.devRef main_v40_1)
      = Gh (V m c main_arg0) (V m c main_v39) :=
    (Pipeline.withArrays_arr spec0 launch0.win.arr_inj c _ _ 5).trans (final5 m c)
  rw [hw]
  rfl

/-- Every weakly fair execution of the kernel program terminates with the first result at `Gq`, the second at `Gh`
    viewed 32 × 12, and both arguments unchanged. -/
theorem run : θ_run defs (onTc (τ := τ) (main (F := Ideal))) ⟨m, fun _ => 0, ρ⟩ fun r => ∀ c : Dev nD,
      r.2.mem ((c.tc : Thread nD τ).loc main_v40_0) = Gq (V m c main_arg0) (V m c main_v37) (V m c main_v38)
      ∧ r.2.mem ((c.tc : Thread nD τ).loc main_v41)
          = shapeCast S32x32x12x1024 (Gh (V m c main_arg0) (V m c main_v39)) Cert.KernelIdeal.Facts₀.shapeCasts_S32x384x1024_S32x32x12x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 4).trans (final4 m c),
      ((h c).2 main_v41 (Pipeline.mem_restRefs_of main_v41 (by decide) (by decide))).trans (tail_v41 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KV

end
-- ==== Proof.KVals.lean ====
/- What each buffer holds when the region starts, one operation at a time. The program runs its host operations in
   order before the region; `V m c b` is buffer `b`'s contents after all of them, from the launch contents `m`. For each
   buffer some operation writes, those contents are that operation's function of ITS OPERANDS' contents after all of them:
   the operations are in single-assignment form (the one operation that writes a buffer runs after the ones that write
   its operands and nothing later touches either), so reading after the whole line or at the operation's own place is
   the same. Each equation is by computation: the fold of results unrolls, each operation's result decides whether the
   buffer read is the one it writes, and the typed references' casts are identities at literal references. The sorting
   network, the windowed and plain reductions, the gather and the padding stay folded: no equation looks inside them. -/
import proofs.«139113_j90056874263205_2_alg».proof.Proof.Gen.KernelIdeal.Frame
import Idealize.ShloMosaic.Lib.StableHlo.Run

noncomputable section

namespace Cert.KernelIdeal.KVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduceWindow Host.gather Host.scatter Host.sort2 pad

set_option maxRecDepth 8192 in
set_option maxHeartbeats 1000000 in
theorem val_main_v0 (c : Dev nD) :
    V m c main_v0 = ((iotaInDim S512 32 0) : (⟨S512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c (c : Dev nD) :
    V m c main_c = ((constantI S_ 32 2#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v1 (c : Dev nD) :
    V m c main_v1 = ((broadcastInDim S32x512 ![] bcast_S_S32x512) (V m c main_c) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v2 (c : Dev nD) :
    V m c main_v2 = ((cmpi .eq) (V m c main_arg1) (V m c main_v1) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v3 (c : Dev nD) :
    V m c main_v3 = ((broadcastInDim S1x512 ![1] bcast_S512_S1x512_1) (V m c main_v0) : (⟨S1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v4 (c : Dev nD) :
    V m c main_v4 = ((broadcastInDim S1x512 ![1] bcast_S512_S1x512_1) (V m c main_v0) : (⟨S1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_0 (c : Dev nD) :
    V m c main_c_0 = ((constantI S_ 32 512#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v5 (c : Dev nD) :
    V m c main_v5 = ((broadcastInDim S1x512 ![] bcast_S_S1x512) (V m c main_c_0) : (⟨S1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v6 (c : Dev nD) :
    V m c main_v6 = (addi (V m c main_v5) (V m c main_v4) : (⟨S1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call0_v0 (c : Dev nD) :
    V m c main_call0_v0 = ((broadcastInDim S32x512 ![0, 1] bcast_S1x512_S32x512_0_1) (V m c main_v3) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call0_v1 (c : Dev nD) :
    V m c main_call0_v1 = ((broadcastInDim S32x512 ![0, 1] bcast_S1x512_S32x512_0_1) (V m c main_v6) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v7 (c : Dev nD) :
    V m c main_v7 = (select (V m c main_v2) (V m c main_call0_v0) (V m c main_call0_v1) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call1_v0 (c : Dev nD) :
    V m c main_call1_v0 = ((iotaInDim S32x512 32 1) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call1_v1_0 (c : Dev nD) :
    V m c main_call1_v1_0 = ((Host.sort2 S32x512 1 comparator_i32_i32_d1 (V m c main_v7) (V m c main_call1_v0)).1 : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v8 (c : Dev nD) :
    V m c main_v8 = ((Host.sort2 S32x512 1 comparator_i32_i32_d1 (V m c main_v7) (V m c main_call1_v0)).2 : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_c (c : Dev nD) :
    V m c main_call2_c = ((constantI S_ 32 0#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v0 (c : Dev nD) :
    V m c main_call2_v0 = ((broadcastInDim S32x512 ![] bcast_S_S32x512) (V m c main_call2_c) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v1 (c : Dev nD) :
    V m c main_call2_v1 = ((cmpi .slt) (V m c main_v8) (V m c main_call2_v0) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_c_0 (c : Dev nD) :
    V m c main_call2_c_0 = ((constantI S_ 32 512#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v2 (c : Dev nD) :
    V m c main_call2_v2 = ((broadcastInDim S32x512 ![] bcast_S_S32x512) (V m c main_call2_c_0) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v3 (c : Dev nD) :
    V m c main_call2_v3 = (addi (V m c main_v8) (V m c main_call2_v2) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v5 (c : Dev nD) :
    V m c main_call2_v5 = (shapeCast _ (V m c main_call2_v4) shapeCasts_S32x512_S32x512x1 : (⟨S32x512x1, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_c_1 (c : Dev nD) :
    V m c main_call2_c_1 = ((constantI S1 32 511#32) : (⟨S1, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_c_2 (c : Dev nD) :
    V m c main_call2_c_2 = ((constantI S_ 32 0#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v6 (c : Dev nD) :
    V m c main_call2_v6 = ((broadcastInDim S32x512x1 ![] bcast_S_S32x512x1) (V m c main_call2_c_2) : (⟨S32x512x1, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v8 (c : Dev nD) :
    V m c main_call2_v8 = ((broadcastInDim S1x1x1 ![2] bcast_S1_S1x1x1_2) (V m c main_call2_c_1) : (⟨S1x1x1, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v9 (c : Dev nD) :
    V m c main_call2_v9 = ((broadcastInDim S32x512x1 ![0, 1, 2] bcast_S1x1x1_S32x512x1_0_1_2) (V m c main_call2_v8) : (⟨S32x512x1, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v11 (c : Dev nD) :
    V m c main_call2_v11 = (andi (V m c main_call2_v7) (V m c main_call2_v10) : (⟨S32x512x1, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_c_3 (c : Dev nD) :
    V m c main_call2_c_3 = ((constantI S_ 1 1#1) : (⟨S_, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v12 (c : Dev nD) :
    V m c main_call2_v12 = (Host.reduce IntOp.andi (V m c main_call2_v11) (V m c main_call2_c_3) reducesTo_S32x512x1_S32x512_d2 h_S_ : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v13 (c : Dev nD) :
    V m c main_call2_v13 = (Host.gather gather_S32x512_S32x512x1_S32x512_n_1_0_0_1_2_11 (V m c main_v2) (V m c main_call2_v5) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_c_4 (c : Dev nD) :
    V m c main_call2_c_4 = ((constantI S_ 1 1#1) : (⟨S_, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v14 (c : Dev nD) :
    V m c main_call2_v14 = ((broadcastInDim S32x512 ![] bcast_S_S32x512) (V m c main_call2_c_4) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v9 (c : Dev nD) :
    V m c main_v9 = (select (V m c main_call2_v12) (V m c main_call2_v13) (V m c main_call2_v14) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v10 (c : Dev nD) :
    V m c main_v10 = ((uitofp .f32) (V m c main_v9) : (⟨S32x512, .f32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_1 (c : Dev nD) :
    V m c main_c_1 = ((constantI S_ 32 1#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v11 (c : Dev nD) :
    V m c main_v11 = ((broadcastInDim S32x512 ![] bcast_S_S32x512) (V m c main_c_1) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v12 (c : Dev nD) :
    V m c main_v12 = ((cmpi .eq) (V m c main_arg1) (V m c main_v11) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v13 (c : Dev nD) :
    V m c main_v13 = (extractStridedSlice S32x511 ![0, 0] (V m c main_v12) slices_S32x512_S32x511_0_0 : (⟨S32x511, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_2 (c : Dev nD) :
    V m c main_c_2 = ((constantI S_ 32 0#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call3_c (c : Dev nD) :
    V m c main_call3_c = ((constantI S_ 32 0#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call3_v0 (c : Dev nD) :
    V m c main_call3_v0 = ((broadcastInDim S_ ![] bcast_S_S_) (V m c main_call3_c) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call3_v1 (c : Dev nD) :
    V m c main_call3_v1 = ((cmpi .ne) (V m c main_c_2) (V m c main_call3_v0) : (⟨S_, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call3_v2 (c : Dev nD) :
    V m c main_call3_v2 = (id (V m c main_call3_v1) : (⟨S_, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v14 (c : Dev nD) :
    V m c main_v14 = (pad S32x512 ![0, 1] ![0, 0] ![0, 0] (V m c main_v13) (V m c main_call3_v2) pads_S32x511_S32x512_000_100 h_S_ : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v15 (c : Dev nD) :
    V m c main_v15 = (noti (V m c main_v14) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v16 (c : Dev nD) :
    V m c main_v16 = (andi (V m c main_v12) (V m c main_v15) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v17 (c : Dev nD) :
    V m c main_v17 = (extui 32 (V m c main_v16) natLt_1_32 : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call4_call0_c (c : Dev nD) :
    V m c main_call4_call0_c = ((constantI S_ 32 0#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call4_call0_v0 (c : Dev nD) :
    V m c main_call4_call0_v0 = ((broadcastInDim S_ ![] bcast_S_S_) (V m c main_call4_call0_c) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v18 (c : Dev nD) :
    V m c main_v18 = (Host.reduceWindow IntOp.addi ![1, 512] ![1, 1] ![0, 511] ![0, 0] (V m c main_v17) (V m c main_call4_call0_v0) reduceWindows_S32x512_S32x512_w1s1p0_0_w512s1p511_0 h_S_ : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_3 (c : Dev nD) :
    V m c main_c_3 = ((constantI S_ 32 1#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v19 (c : Dev nD) :
    V m c main_v19 = ((broadcastInDim S32x512 ![] bcast_S_S32x512) (V m c main_c_3) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v20 (c : Dev nD) :
    V m c main_v20 = (subi (V m c main_v18) (V m c main_v19) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v21 (c : Dev nD) :
    V m c main_v21 = ((broadcastInDim S1x512 ![1] bcast_S512_S1x512_1) (V m c main_v0) : (⟨S1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_4 (c : Dev nD) :
    V m c main_c_4 = ((constantI S_ 32 4294967295#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call5_v0 (c : Dev nD) :
    V m c main_call5_v0 = (id (V m c main_c_4) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call5_v1 (c : Dev nD) :
    V m c main_call5_v1 = ((broadcastInDim S32x512 ![0, 1] bcast_S1x512_S32x512_0_1) (V m c main_v21) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call5_v2 (c : Dev nD) :
    V m c main_call5_v2 = ((broadcastInDim S32x512 ![] bcast_S_S32x512) (V m c main_call5_v0) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v22 (c : Dev nD) :
    V m c main_v22 = (select (V m c main_v16) (V m c main_call5_v1) (V m c main_call5_v2) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call6_c (c : Dev nD) :
    V m c main_call6_c = ((constantI S_ 32 2147483648#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call6_v0 (c : Dev nD) :
    V m c main_call6_v0 = ((broadcastInDim S_ ![] bcast_S_S_) (V m c main_call6_c) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v23 (c : Dev nD) :
    V m c main_v23 = (Host.reduceWindow IntOp.maxsi ![1, 512] ![1, 1] ![0, 511] ![0, 0] (V m c main_v22) (V m c main_call6_v0) reduceWindows_S32x512_S32x512_w1s1p0_0_w512s1p511_0 h_S_ : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v24 (c : Dev nD) :
    V m c main_v24 = ((broadcastInDim S1x512 ![1] bcast_S512_S1x512_1) (V m c main_v0) : (⟨S1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v25 (c : Dev nD) :
    V m c main_v25 = ((broadcastInDim S32x512 ![0, 1] bcast_S1x512_S32x512_0_1) (V m c main_v24) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v26 (c : Dev nD) :
    V m c main_v26 = (subi (V m c main_v25) (V m c main_v23) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_5 (c : Dev nD) :
    V m c main_c_5 = ((constantI S_ 32 12#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v27 (c : Dev nD) :
    V m c main_v27 = ((broadcastInDim S32x512 ![] bcast_S_S32x512) (V m c main_c_5) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v28 (c : Dev nD) :
    V m c main_v28 = ((cmpi .slt) (V m c main_v26) (V m c main_v27) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v29 (c : Dev nD) :
    V m c main_v29 = (andi (V m c main_v12) (V m c main_v28) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_6 (c : Dev nD) :
    V m c main_c_6 = ((constantI S_ 32 32#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v30 (c : Dev nD) :
    V m c main_v30 = ((broadcastInDim S32x512 ![] bcast_S_S32x512) (V m c main_c_6) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v31 (c : Dev nD) :
    V m c main_v31 = ((cmpi .slt) (V m c main_v20) (V m c main_v30) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v32 (c : Dev nD) :
    V m c main_v32 = (andi (V m c main_v29) (V m c main_v31) : (⟨S32x512, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_7 (c : Dev nD) :
    V m c main_c_7 = ((constantI S_ 32 12#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v33 (c : Dev nD) :
    V m c main_v33 = ((broadcastInDim S32x512 ![] bcast_S_S32x512) (V m c main_c_7) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v34 (c : Dev nD) :
    V m c main_v34 = (muli (V m c main_v20) (V m c main_v33) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v35 (c : Dev nD) :
    V m c main_v35 = (addi (V m c main_v34) (V m c main_v26) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_c_8 (c : Dev nD) :
    V m c main_c_8 = ((constantI S_ 32 4294967295#32) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call7_v0 (c : Dev nD) :
    V m c main_call7_v0 = (id (V m c main_c_8) : (⟨S_, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call7_v1 (c : Dev nD) :
    V m c main_call7_v1 = ((broadcastInDim S32x512 ![] bcast_S_S32x512) (V m c main_call7_v0) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v36 (c : Dev nD) :
    V m c main_v36 = (select (V m c main_v32) (V m c main_v35) (V m c main_call7_v1) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v37 (c : Dev nD) :
    V m c main_v37 = (shapeCast _ (V m c main_v8) shapeCasts_S32x512_S32x1x512 : (⟨S32x1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v38 (c : Dev nD) :
    V m c main_v38 = (shapeCast _ (V m c main_v10) shapeCasts_S32x512_S32x1x512 : (⟨S32x1x512, .f32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_v39 (c : Dev nD) :
    V m c main_v39 = (shapeCast _ (V m c main_v36) shapeCasts_S32x512_S32x1x512 : (⟨S32x1x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

end Cert.KernelIdeal.KVals

end
-- ==== Proof.LibPrefixScan.lean ====
import Idealize.ShloMosaic.PureOps.Contract
import Idealize.ShloMosaic.Lib.ValueIdx
import Mathlib

/-!
  General lemmas on prefix scans along the rows of a 32 × 512 array of 32-bit words, and on the
  "runs" (maximal stretches) of a predicate on the naturals.

  * `runs_facts`: for a predicate `isH` with run starts `rs`, the number `c l` of run starts at
    positions `≤ l` and the last run start `mx l` at a position `≤ l` (or `-1`) determine the position
    `l` inside the runs: `(c l, l - mx l)` is injective on `{l | isH l}`.
  * `reduceWindow_prefix`: a `reduce_window` with window `[1, 512]`, unit strides and low padding
    `[0, 511]` — a prefix scan along each row — is, at column `l`, the left fold of the body over the
    columns `0, …, l` of that row, when the initial value is a right identity of the body.
  * `cumsum_toNat`: the prefix sum of a row of zeros and ones counts the ones at columns `≤ l`.
  * `cummax_spec`: the prefix signed maximum of a row, from the least word, bounds every element at a
    column `≤ l` and is attained at one of them.
-/

namespace Cert.PrefixScan

open Idealize.ShloMosaic Idealize.ShloMosaic.ValueIdx

/-! ## Runs of a predicate on ℕ -/

/-- Every position of a run lies at or after a run start: walk left until the predicate fails or the
    origin is met. -/
theorem exists_runStart (isH rs : ℕ → Prop)
    (hrs : ∀ l, rs l ↔ isH l ∧ (l = 0 ∨ ¬ isH (l - 1))) :
    ∀ l, isH l → ∃ s, s ≤ l ∧ rs s := by
  intro l
  induction l with
  | zero => intro h; exact ⟨0, le_refl _, (hrs 0).2 ⟨h, Or.inl rfl⟩⟩
  | succ n ih =>
    intro h
    by_cases hn : isH n
    · obtain ⟨s, hs, hr⟩ := ih hn
      exact ⟨s, Nat.le_succ_of_le hs, hr⟩
    · exact ⟨n + 1, le_refl _, (hrs (n + 1)).2 ⟨h, Or.inr (by simpa using hn)⟩⟩

/-- The facts about runs: `c l` counts the run starts at positions `≤ l`, `mx l` is the greatest of the values
    `k` (at a run start `k ≤ l`) and `-1` (elsewhere). On a run position both are "live" (`1 ≤ c l`, `0 ≤ mx l`);
    they are bounded; and the pair `(c l, l - mx l)` — which run, and how far into it — separates the run positions. -/
theorem runs_facts (isH rs : ℕ → Prop) [DecidablePred isH] [DecidablePred rs]
    (hrs : ∀ l, rs l ↔ isH l ∧ (l = 0 ∨ ¬ isH (l - 1)))
    (c : ℕ → ℕ) (hc : ∀ l, c l = ((Finset.range (l + 1)).filter rs).card)
    (mx : ℕ → ℤ) (hmx1 : ∀ l k, k ≤ l → (if rs k then (k : ℤ) else -1) ≤ mx l)
    (hmx2 : ∀ l, ∃ k, k ≤ l ∧ mx l = if rs k then (k : ℤ) else -1) :
    (∀ l, isH l → 1 ≤ c l ∧ 0 ≤ mx l) ∧ (∀ l, c l ≤ l + 1 ∧ mx l ≤ l ∧ -1 ≤ mx l)
    ∧ (∀ l1 l2, isH l1 → isH l2 → c l1 = c l2 → (l1 : ℤ) - mx l1 = (l2 : ℤ) - mx l2 → l1 = l2) := by
  -- on a run position the scan is live
  have live : ∀ l, isH l → 1 ≤ c l ∧ 0 ≤ mx l := by
    intro l hl
    obtain ⟨s, hs, hr⟩ := exists_runStart isH rs hrs l hl
    constructor
    · rw [hc l]
      exact Finset.card_pos.2 ⟨s, Finset.mem_filter.2 ⟨Finset.mem_range.2 (Nat.lt_succ_of_le hs), hr⟩⟩
    · have := hmx1 l s hs
      rw [if_pos hr] at this
      exact le_trans (Int.natCast_nonneg s) this
  -- the last run start is monotone in the position
  have mono : ∀ l1 l2, l1 ≤ l2 → mx l1 ≤ mx l2 := by
    intro l1 l2 h
    obtain ⟨k, hk, e⟩ := hmx2 l1
    rw [e]; exact hmx1 l2 k (le_trans hk h)
  -- equal counts at two run positions l1 < l2: no run start in between, so the last run start is the same
  have key : ∀ l1 l2, l1 < l2 → isH l1 → c l1 = c l2 → mx l2 = mx l1 := by
    intro l1 l2 hlt h1 hcc
    have hsub : (Finset.range (l1 + 1)).filter rs ⊆ (Finset.range (l2 + 1)).filter rs := by
      intro k hk
      rw [Finset.mem_filter, Finset.mem_range] at hk ⊢
      exact ⟨by omega, hk.2⟩
    have heq : (Finset.range (l1 + 1)).filter rs = (Finset.range (l2 + 1)).filter rs :=
      Finset.eq_of_subset_of_card_le hsub (by rw [← hc l1, ← hc l2, hcc])
    have nors : ∀ k, l1 < k → k ≤ l2 → ¬ rs k := by
      intro k h1k hk2 hr
      have : k ∈ (Finset.range (l1 + 1)).filter rs := by
        rw [heq]; exact Finset.mem_filter.2 ⟨Finset.mem_range.2 (Nat.lt_succ_of_le hk2), hr⟩
      have := Finset.mem_range.1 (Finset.mem_filter.1 this).1
      omega
    apply le_antisymm _ (mono l1 l2 (le_of_lt hlt))
    obtain ⟨k, hk, e⟩ := hmx2 l2
    by_cases hk1 : k ≤ l1
    · rw [e]; exact hmx1 l1 k hk1
    · have hn := nors k (by omega) hk
      rw [if_neg hn] at e
      have := (live l1 h1).2
      omega
  refine ⟨live, ?_, ?_⟩
  · intro l
    refine ⟨?_, ?_, ?_⟩
    · rw [hc l]
      calc ((Finset.range (l + 1)).filter rs).card ≤ (Finset.range (l + 1)).card := Finset.card_filter_le _ _
        _ = l + 1 := Finset.card_range _
    · obtain ⟨k, hk, e⟩ := hmx2 l
      rw [e]; split_ifs
      · exact_mod_cast hk
      · have := Int.natCast_nonneg l; omega
    · obtain ⟨k, _, e⟩ := hmx2 l
      rw [e]; split_ifs
      · have := Int.natCast_nonneg k; omega
      · exact le_refl _
  · intro l1 l2 h1 h2 hcc hd
    rcases Nat.lt_trichotomy l1 l2 with hlt | heq | hgt
    · have := key l1 l2 hlt h1 hcc
      rw [this] at hd
      have : (l1 : ℤ) = l2 := by omega
      exact_mod_cast this
    · exact heq
    · have := key l2 l1 hgt h2 hcc.symm
      rw [this] at hd
      have : (l1 : ℤ) = l2 := by omega
      exact_mod_cast this

/-! ## The prefix-scan window on a 32 × 512 array -/

/-- The array's shape: 32 rows of 512 columns. -/
abbrev R : Shape := ⟨2, ![32, 512]⟩
/-- The scalar shape (of the initial value). -/
abbrev Z : Shape := ⟨0, ![]⟩
/-- The window's shape: one row, 512 columns. -/
abbrev Wn : Shape := ⟨2, ![1, 512]⟩

/-- The window has 512 positions. -/
theorem Wn_numel : Wn.numel = 512 := by decide

/-- In row-major order the window's positions are `(0, 0), (0, 1), …, (0, 511)`. -/
theorem window_positions :
    (List.finRange Wn.numel).map Wn.rowMajor.symm
      = (List.finRange 512).map (fun k => (ix2 (0 : Fin 1) k : Wn.Idx)) := by
  apply List.ext_getElem
  · simp [Wn_numel]
  · intro i h1 h2
    simp only [List.getElem_map, List.getElem_finRange]
    rw [Equiv.symm_apply_eq]
    apply Fin.ext
    rw [Shape.rowMajor_val_two]
    simp

/-- The same, read as the list of row-major numbers. -/
theorem finRange_window :
    List.finRange Wn.numel = (List.finRange 512).map (fun k => Wn.rowMajor (ix2 (0 : Fin 1) k)) := by
  have := congrArg (List.map Wn.rowMajor) window_positions
  simpa [List.map_map, Function.comp_def] using this

/-- A fold over the window's row-major numbers is a fold over its 512 columns. -/
theorem foldl_window' {β : Type} (G : β → Fin Wn.numel → β) (init : β) :
    (List.finRange Wn.numel).foldl G init
      = (List.finRange 512).foldl (fun r k => G r (Wn.rowMajor (ix2 (0 : Fin 1) k))) init := by
  rw [finRange_window, List.foldl_map]

/-- The values of `0, …, n - 1 : Fin n` are `0, …, n - 1`. -/
theorem map_val_finRange (n : ℕ) : (List.finRange n).map Fin.val = List.range n := by
  apply List.ext_getElem
  · simp
  · intro i h1 h2
    simp

/-- Row `b` of `x` as a sequence on ℕ, `d` past its end. -/
def rowAt {α : Type} (x : R.Idx → α) (d : α) (b : Fin 32) (k : ℕ) : α :=
  if h : k < 512 then x (ix2 b ⟨k, h⟩) else d

/-- The scan at `(b, l)`: window column `k` reads column `l + k - 511` of row `b` where `511 ≤ l + k`, and the
    padding (the initial value) before. -/
theorem reduceWindow_row {α : Type} (f : α → α → α) (x : R.Idx → α) (v : Z.Idx → α)
    (h : R.ReduceWindows (![1, 512] : Fin 2 → Nat) ![1, 1] ![0, 511] ![0, 0] R) (hu : 0 < Z.numel)
    (b : Fin 32) (l : Fin 512) :
    Host.reduceWindow f ![1, 512] ![1, 1] ![0, 511] ![0, 0] x v h hu (ix2 b l)
      = (List.range 512).foldl (fun r k =>
          f r (if 511 ≤ l.val + k then rowAt x (v ix0) b (l.val + k - 511) else v ix0)) (v ix0) := by
  have hv0 : v (Shape.Idx.first hu) = v ix0 := congrArg v (eq_ix0 _)
  unfold Host.reduceWindow
  simp only []
  rw [hv0, foldl_window', ← map_val_finRange, List.foldl_map]
  simp only [Equiv.symm_apply_apply]
  congr 1
  funext r k
  congr 1
  by_cases hk : 511 ≤ l.val + k.val
  · rw [if_pos hk, dif_pos]
    · unfold rowAt
      rw [dif_pos (by omega : l.val + k.val - 511 < 512)]
      congr 1
      funext a
      match a with
      | ⟨0, _⟩ => apply Fin.ext; show b.val * 1 + 0 - 0 = b.val; omega
      | ⟨1, _⟩ => apply Fin.ext; show l.val * 1 + k.val - 511 = l.val + k.val - 511; omega
    · refine Fin.forall_fin_two.2 ⟨?_, ?_⟩
      · show 0 ≤ b.val * 1 + 0 ∧ b.val * 1 + 0 - 0 < 32; omega
      · show 511 ≤ l.val * 1 + k.val ∧ l.val * 1 + k.val - 511 < 512; omega
  · rw [if_neg hk, dif_neg]
    intro hall
    have := (hall 1).1
    change 511 ≤ l.val * 1 + k.val at this
    omega

/-- Folding in elements that leave the accumulator unchanged returns the initial value. -/
theorem foldl_eq_init {α β : Type} (g : α → β → α) (init : α) (L : List β)
    (hg : ∀ r, ∀ k ∈ L, g r k = r) : L.foldl g init = init := by
  induction L with
  | nil => rfl
  | cons a t ih =>
    rw [List.foldl_cons, hg init a (List.mem_cons_self ..)]
    exact ih (fun r k hk => hg r k (List.mem_cons_of_mem _ hk))

/-- When the initial value is a right identity of the body, the `511 - l` padding positions drop out and the scan
    at `(b, l)` is the left fold of the body over columns `0, …, l` of row `b`. -/
theorem reduceWindow_prefix {α : Type} (f : α → α → α) (x : R.Idx → α) (v : Z.Idx → α)
    (h : R.ReduceWindows (![1, 512] : Fin 2 → Nat) ![1, 1] ![0, 511] ![0, 0] R) (hu : 0 < Z.numel)
    (hf : ∀ r, f r (v ix0) = r) (b : Fin 32) (l : Fin 512) :
    Host.reduceWindow f ![1, 512] ![1, 1] ![0, 511] ![0, 0] x v h hu (ix2 b l)
      = (List.range (l.val + 1)).foldl (fun r k => f r (rowAt x (v ix0) b k)) (v ix0) := by
  rw [reduceWindow_row]
  have e : List.range 512
      = List.range (511 - l.val) ++ (List.range (l.val + 1)).map (fun j => 511 - l.val + j) := by
    rw [← List.range_add]; congr 1; omega
  rw [e, List.foldl_append, foldl_eq_init (L := List.range (511 - l.val)), List.foldl_map]
  · congr 1
    funext r k
    have c : 511 ≤ l.val + (511 - l.val + k) := by omega
    have e2 : l.val + (511 - l.val + k) - 511 = k := by omega
    rw [if_pos c, e2]
  · intro r k hk
    have := List.mem_range.1 hk
    rw [if_neg (by omega), hf]

/-! ## Prefix sums of zeros and ones -/

/-- A prefix sum of words that are 0 or 1 counts the ones (no wrap: at most 512 terms). -/
theorem foldl_add_toNat (X : ℕ → BitVec 32) (n : ℕ) (hn : n ≤ 512)
    (hX : ∀ k < n, X k = 0#32 ∨ X k = 1#32) :
    ((List.range n).foldl (fun r k => IntOp.addi r (X k)) 0#32).toNat
      = ((Finset.range n).filter fun k => X k = 1#32).card := by
  induction n with
  | zero => rfl
  | succ m ih =>
    have ihm := ih (by omega) (fun k hk => hX k (by omega))
    have hb : ((Finset.range m).filter fun k => X k = 1#32).card ≤ m :=
      (Finset.card_filter_le _ _).trans (by simp)
    rw [List.range_succ, List.foldl_append, List.foldl_cons, List.foldl_nil, Finset.range_add_one,
      Finset.filter_insert]
    have hadd : ∀ a c : BitVec 32, IntOp.addi a c = a + c := fun _ _ => rfl
    rw [hadd, BitVec.toNat_add, ihm]
    rcases hX m (by omega) with h0 | h1
    · rw [h0, if_neg (by decide)]
      have : (0#32 : BitVec 32).toNat = 0 := rfl
      rw [this, Nat.add_zero, Nat.mod_eq_of_lt (by omega)]
    · rw [h1, if_pos rfl, Finset.card_insert_of_notMem (by simp)]
      have : (1#32 : BitVec 32).toNat = 1 := rfl
      rw [this, Nat.mod_eq_of_lt (by omega)]

/-- The prefix sum along a row of zeros and ones, at column `l`, is the number of ones at columns `≤ l`. -/
theorem cumsum_toNat (x : IVec R 32) (v : IVec Z 32) (hv : ∀ i, v i = 0#32)
    (h : R.ReduceWindows (![1, 512] : Fin 2 → Nat) ![1, 1] ![0, 511] ![0, 0] R) (hu : 0 < Z.numel)
    (hx : ∀ j, x j = 0#32 ∨ x j = 1#32) (b : Fin 32) (l : Fin 512) :
    (Host.reduceWindow IntOp.addi ![1, 512] ![1, 1] ![0, 511] ![0, 0] x v h hu (ix2 b l)).toNat
      = (Finset.univ.filter fun k : Fin 512 => k ≤ l ∧ x (ix2 b k) = 1#32).card := by
  rw [reduceWindow_prefix IntOp.addi x v h hu (by intro r; rw [hv]; exact BitVec.add_zero r) b l, hv,
      foldl_add_toNat _ _ (by omega) ?_]
  · symm
    apply Finset.card_bij (fun (k : Fin 512) _ => k.val)
    · intro k hk
      rw [Finset.mem_filter] at hk ⊢
      have h1 := Fin.le_def.1 hk.2.1
      refine ⟨Finset.mem_range.2 (by omega), ?_⟩
      unfold rowAt
      rw [dif_pos k.isLt]
      exact hk.2.2
    · intro a _ c _ hac
      exact Fin.ext hac
    · intro n hn
      rw [Finset.mem_filter, Finset.mem_range] at hn
      have hlt : n < 512 := by omega
      refine ⟨⟨n, hlt⟩, ?_, rfl⟩
      rw [Finset.mem_filter]
      refine ⟨Finset.mem_univ _, Fin.le_def.2 (by show n ≤ l.val; omega), ?_⟩
      have := hn.2
      unfold rowAt at this
      rwa [dif_pos hlt] at this
  · intro k _
    unfold rowAt
    split_ifs
    · exact hx _
    · exact Or.inl rfl

/-! ## Prefix signed maxima -/

/-- The signed maximum of two words is one of them, and at least the other. -/
theorem maxsi_cases (a c : BitVec 32) :
    (IntOp.maxsi a c = a ∧ c.toInt ≤ a.toInt) ∨ (IntOp.maxsi a c = c ∧ a.toInt ≤ c.toInt) := by
  unfold IntOp.maxsi
  by_cases h : c.toInt < a.toInt
  · left; rw [if_pos (by simpa [BitVec.slt] using h)]; exact ⟨rfl, le_of_lt h⟩
  · right; rw [if_neg (by simpa [BitVec.slt] using h)]; exact ⟨rfl, not_lt.1 h⟩

/-- A running signed maximum from the least word is at least every member, and is the least word or a member. -/
theorem foldl_maxsi_spec (X : ℕ → BitVec 32) (n : ℕ) :
    (∀ k < n, (X k).toInt ≤ ((List.range n).foldl (fun r k => IntOp.maxsi r (X k)) (BitVec.intMin 32)).toInt)
    ∧ ((List.range n).foldl (fun r k => IntOp.maxsi r (X k)) (BitVec.intMin 32) = BitVec.intMin 32
        ∨ ∃ k < n, (List.range n).foldl (fun r k => IntOp.maxsi r (X k)) (BitVec.intMin 32) = X k) := by
  induction n with
  | zero => exact ⟨fun k hk => absurd hk (Nat.not_lt_zero _), Or.inl rfl⟩
  | succ m ih =>
    rw [List.range_succ, List.foldl_append, List.foldl_cons, List.foldl_nil]
    generalize (List.range m).foldl (fun r k => IntOp.maxsi r (X k)) (BitVec.intMin 32) = M at ih ⊢
    obtain ⟨ih1, ih2⟩ := ih
    rcases maxsi_cases M (X m) with ⟨e, hle⟩ | ⟨e, hle⟩
    · rw [e]
      refine ⟨fun k hk => ?_, ?_⟩
      · rcases Nat.lt_succ_iff_lt_or_eq.1 hk with h | h
        · exact ih1 k h
        · rw [h]; exact hle
      · rcases ih2 with h | ⟨k, hk, h⟩
        · exact Or.inl h
        · exact Or.inr ⟨k, Nat.lt_succ_of_lt hk, h⟩
    · rw [e]
      refine ⟨fun k hk => ?_, Or.inr ⟨m, Nat.lt_succ_self m, rfl⟩⟩
      rcases Nat.lt_succ_iff_lt_or_eq.1 hk with h | h
      · exact le_trans (ih1 k h) hle
      · rw [h]

/-- The prefix signed maximum along a row, at column `l`: at least every element at a column `≤ l`, and equal to one
    of them. -/
theorem cummax_spec (x : IVec R 32) (v : IVec Z 32) (hv : ∀ i, v i = 2147483648#32)
    (h : R.ReduceWindows (![1, 512] : Fin 2 → Nat) ![1, 1] ![0, 511] ![0, 0] R) (hu : 0 < Z.numel)
    (b : Fin 32) (l : Fin 512) :
    (∀ k : Fin 512, k ≤ l → (x (ix2 b k)).toInt
        ≤ (Host.reduceWindow IntOp.maxsi ![1, 512] ![1, 1] ![0, 511] ![0, 0] x v h hu (ix2 b l)).toInt)
    ∧ (∃ k : Fin 512, k ≤ l
        ∧ Host.reduceWindow IntOp.maxsi ![1, 512] ![1, 1] ![0, 511] ![0, 0] x v h hu (ix2 b l) = x (ix2 b k)) := by
  have hmin : (2147483648#32 : BitVec 32) = BitVec.intMin 32 := by decide
  have hleast : ∀ r : BitVec 32, r.toInt ≤ (BitVec.intMin 32).toInt → r = BitVec.intMin 32 := fun r hr =>
    BitVec.toInt_inj.1 (le_antisymm hr (BitVec.toInt_intMin_le r))
  have hid : ∀ r : BitVec 32, IntOp.maxsi r (v ix0) = r := by
    intro r; rw [hv, hmin]
    rcases maxsi_cases r (BitVec.intMin 32) with ⟨e, _⟩ | ⟨e, hle⟩
    · exact e
    · rw [e]; exact (hleast r hle).symm
  rw [reduceWindow_prefix IntOp.maxsi x v h hu hid b l, hv, hmin]
  obtain ⟨s1, s2⟩ := foldl_maxsi_spec (rowAt x (BitVec.intMin 32) b) (l.val + 1)
  have hrow : ∀ k : Fin 512, rowAt x (BitVec.intMin 32) b k.val = x (ix2 b k) := by
    intro k; unfold rowAt; rw [dif_pos k.isLt]
  refine ⟨fun k hk => ?_, ?_⟩
  · have h1 := Fin.le_def.1 hk
    rw [← hrow k]
    exact s1 k.val (by omega)
  · rcases s2 with e | ⟨k, hk, e⟩
    · refine ⟨⟨0, by omega⟩, Fin.le_def.2 (Nat.zero_le _), ?_⟩
      have h0 := s1 0 (by omega)
      rw [e] at h0 ⊢
      rw [← hrow ⟨0, by omega⟩]
      exact (hleast _ h0).symm
    · have hlt : k < 512 := by omega
      refine ⟨⟨k, hlt⟩, Fin.le_def.2 (by show k ≤ l.val; omega), ?_⟩
      rw [e, ← hrow ⟨k, hlt⟩]

end Cert.PrefixScan
-- ==== Proof.RunSlots.lean ====
import proofs.«139113_j90056874263205_2_alg».proof.Proof.LibPrefixScan
import Idealize.ShloMosaic.PureOps.Contract
import Idealize.ShloMosaic.Lib.ValueIdx
import Mathlib

/-!
  The run-slot facts of a 32 × 512 array of segment words, at the level of 32-bit and 1-bit words.

  A row's header positions (`isH`) fall into runs; `rs` marks the first position of each run, the prefix count `cs` of
  run starts numbers the runs from 1 (`runId = cs - 1`), the prefix maximum `cm` of "column at a run start, else -1"
  is the start of the current run, and `pos = column - cm` is the offset inside the run. A position is `valid` when
  it is a header position with `pos < 12` and `runId < 32`.

  * `slot_range`: at a valid position `runId` is a natural below 32 and `pos` one below 12.
  * `slot_inj`: within a row, `(runId, pos)` separates the valid positions.
  * `rowt_eq_iff`: the word `12 runId + pos` (all ones where invalid) is `12 r + p` exactly at the valid positions of
    slot `(r, p)`.
  * `coords_eq_iff`: the pair (run number or 32 where invalid, distance clamped to `[0, 11]`), wrapped if negative, is
    `(r, p)` with `r < 32` exactly at the valid positions of slot `(r, p)`.
  * `Hyps.unique`: the arrays are functions of the segment words.
-/

namespace Cert.RunSlots

open Idealize.ShloMosaic Idealize.ShloMosaic.ValueIdx Cert.PrefixScan

/-! ## One-bit words -/

theorem bit_cases (a : BitVec 1) : a = 0#1 ∨ a = 1#1 := BitVec.eq_zero_or_eq_one a

theorem and_not_eq_one (a c : BitVec 1) : IntOp.andi a (~~~ c) = 1#1 ↔ a = 1#1 ∧ ¬ c = 1#1 := by
  rcases bit_cases a with rfl | rfl <;> rcases bit_cases c with rfl | rfl <;> decide

theorem and3_eq_one (a c d : BitVec 1) :
    IntOp.andi (IntOp.andi a c) d = 1#1 ↔ a = 1#1 ∧ c = 1#1 ∧ d = 1#1 := by
  rcases bit_cases a with rfl | rfl <;> rcases bit_cases c with rfl | rfl <;>
    rcases bit_cases d with rfl | rfl <;> decide

theorem setWidth_01 (a : BitVec 1) : a.setWidth 32 = 0#32 ∨ a.setWidth 32 = 1#32 := by
  rcases bit_cases a with rfl | rfl <;> decide

theorem setWidth_eq_one (a : BitVec 1) : a.setWidth 32 = 1#32 ↔ a = 1#1 := by
  rcases bit_cases a with rfl | rfl <;> decide

theorem ofBool_eq_one (t : Bool) : BitVec.ofBool t = 1#1 ↔ t = true := by
  cases t <;> decide

theorem cmpi_slt_eq_one (x y : BitVec 32) : IntOp.cmpi .slt x y = 1#1 ↔ x.toInt < y.toInt := by
  unfold IntOp.cmpi
  rw [ofBool_eq_one]
  simp [BitVec.slt]

/-! ## Small 32-bit words as integers -/

theorem toInt_of_toNat_small (x : BitVec 32) (h : x.toNat < 2 ^ 31) : x.toInt = x.toNat := by
  rw [BitVec.toInt_eq_toNat_cond]; split_ifs <;> omega

theorem toNat_of_toInt_nonneg (x : BitVec 32) (h : 0 ≤ x.toInt) : x.toNat < 2 ^ 31 ∧ x.toInt = x.toNat := by
  have := x.isLt
  rw [BitVec.toInt_eq_toNat_cond] at h ⊢; split_ifs at h ⊢ <;> omega

theorem toNat_ofNat_small (k : ℕ) (h : k < 2 ^ 32) : (BitVec.ofNat 32 k).toNat = k := by
  rw [BitVec.toNat_ofNat, Nat.mod_eq_of_lt h]

theorem toInt_ofNat_small (k : ℕ) (h : k < 2 ^ 31) : (BitVec.ofNat 32 k).toInt = k := by
  rw [toInt_of_toNat_small _ (by rw [toNat_ofNat_small k (by omega)]; exact h), toNat_ofNat_small k (by omega)]

theorem toInt_allOnes : (4294967295#32 : BitVec 32).toInt = -1 := by decide

/-- A word whose signed value is a small natural is that natural's word. -/
theorem eq_ofNat_of_toInt (x : BitVec 32) (k : ℕ) (hk : k < 2 ^ 31) (h : x.toInt = k) : x = BitVec.ofNat 32 k :=
  BitVec.toInt_inj.1 (by rw [h, toInt_ofNat_small k hk])

/-- Bounded form of the run-start lemma: positions below `N` only. -/
theorem exists_runStart_lt (N : ℕ) (isH rs : ℕ → Prop)
    (hrs : ∀ l < N, rs l ↔ isH l ∧ (l = 0 ∨ ¬ isH (l - 1))) :
    ∀ l < N, isH l → ∃ s, s ≤ l ∧ rs s := by
  intro l
  induction l with
  | zero => intro hN h; exact ⟨0, le_refl _, (hrs 0 hN).2 ⟨h, Or.inl rfl⟩⟩
  | succ n ih =>
    intro hN h
    by_cases hn : isH n
    · obtain ⟨s, hs, hr⟩ := ih (by omega) hn
      exact ⟨s, Nat.le_succ_of_le hs, hr⟩
    · exact ⟨n + 1, le_refl _, (hrs (n + 1) hN).2 ⟨h, Or.inr (by simpa using hn)⟩⟩

/-- Bounded form of the facts about runs: every position ranges below `N`. -/
theorem runs_facts_lt (N : ℕ) (isH rs : ℕ → Prop) [DecidablePred isH] [DecidablePred rs]
    (hrs : ∀ l < N, rs l ↔ isH l ∧ (l = 0 ∨ ¬ isH (l - 1)))
    (c : ℕ → ℕ) (hc : ∀ l < N, c l = ((Finset.range (l + 1)).filter rs).card)
    (mx : ℕ → ℤ) (hmx1 : ∀ l < N, ∀ k, k ≤ l → (if rs k then (k : ℤ) else -1) ≤ mx l)
    (hmx2 : ∀ l < N, ∃ k, k ≤ l ∧ mx l = if rs k then (k : ℤ) else -1) :
    (∀ l < N, isH l → 1 ≤ c l ∧ 0 ≤ mx l) ∧ (∀ l < N, c l ≤ l + 1 ∧ mx l ≤ l ∧ -1 ≤ mx l)
    ∧ (∀ l1 < N, ∀ l2 < N, isH l1 → isH l2 → c l1 = c l2 → (l1 : ℤ) - mx l1 = (l2 : ℤ) - mx l2 → l1 = l2) := by
  have live : ∀ l < N, isH l → 1 ≤ c l ∧ 0 ≤ mx l := by
    intro l hN hl
    obtain ⟨s, hs, hr⟩ := exists_runStart_lt N isH rs hrs l hN hl
    constructor
    · rw [hc l hN]
      exact Finset.card_pos.2 ⟨s, Finset.mem_filter.2 ⟨Finset.mem_range.2 (Nat.lt_succ_of_le hs), hr⟩⟩
    · have := hmx1 l hN s hs
      rw [if_pos hr] at this
      exact le_trans (Int.natCast_nonneg s) this
  have mono : ∀ l1 l2, l2 < N → l1 ≤ l2 → mx l1 ≤ mx l2 := by
    intro l1 l2 hN h
    obtain ⟨k, hk, e⟩ := hmx2 l1 (by omega)
    rw [e]; exact hmx1 l2 hN k (le_trans hk h)
  have key : ∀ l1 l2, l2 < N → l1 < l2 → isH l1 → c l1 = c l2 → mx l2 = mx l1 := by
    intro l1 l2 hN hlt h1 hcc
    have hN1 : l1 < N := by omega
    have hsub : (Finset.range (l1 + 1)).filter rs ⊆ (Finset.range (l2 + 1)).filter rs := by
      intro k hk
      rw [Finset.mem_filter, Finset.mem_range] at hk ⊢
      exact ⟨by omega, hk.2⟩
    have heq : (Finset.range (l1 + 1)).filter rs = (Finset.range (l2 + 1)).filter rs :=
      Finset.eq_of_subset_of_card_le hsub (by rw [← hc l1 hN1, ← hc l2 hN, hcc])
    have nors : ∀ k, l1 < k → k ≤ l2 → ¬ rs k := by
      intro k h1k hk2 hr
      have : k ∈ (Finset.range (l1 + 1)).filter rs := by
        rw [heq]; exact Finset.mem_filter.2 ⟨Finset.mem_range.2 (Nat.lt_succ_of_le hk2), hr⟩
      have := Finset.mem_range.1 (Finset.mem_filter.1 this).1
      omega
    apply le_antisymm _ (mono l1 l2 hN (le_of_lt hlt))
    obtain ⟨k, hk, e⟩ := hmx2 l2 hN
    by_cases hk1 : k ≤ l1
    · rw [e]; exact hmx1 l1 hN1 k hk1
    · have hn := nors k (by omega) hk
      rw [if_neg hn] at e
      have := (live l1 hN1 h1).2
      omega
  refine ⟨live, ?_, ?_⟩
  · intro l hN
    refine ⟨?_, ?_, ?_⟩
    · rw [hc l hN]
      calc ((Finset.range (l + 1)).filter rs).card ≤ (Finset.range (l + 1)).card := Finset.card_filter_le _ _
        _ = l + 1 := Finset.card_range _
    · obtain ⟨k, hk, e⟩ := hmx2 l hN
      rw [e]; split_ifs
      · exact_mod_cast hk
      · have := Int.natCast_nonneg l; omega
    · obtain ⟨k, _, e⟩ := hmx2 l hN
      rw [e]; split_ifs
      · have := Int.natCast_nonneg k; omega
      · exact le_refl _
  · intro l1 hN1 l2 hN2 h1 h2 hcc hd
    rcases Nat.lt_trichotomy l1 l2 with hlt | heq | hgt
    · have := key l1 l2 hN2 hlt h1 hcc
      rw [this] at hd
      have : (l1 : ℤ) = l2 := by omega
      exact_mod_cast this
    · exact heq
    · have := key l2 l1 hN1 hgt h2 hcc.symm
      rw [this] at hd
      have : (l1 : ℤ) = l2 := by omega
      exact_mod_cast this

/-! ## The run-slot facts of one row -/

/-- The pointwise description of the arrays: `isH` marks the header positions, `prev` is `isH` shifted right by one
    column (zero in column 0), `rs` marks the run starts, `cs` is the prefix count of run starts, `runId = cs - 1`,
    `wv` is the column at a run start and `-1` elsewhere, `cm` its prefix maximum, `pos` the distance to it, and
    `valid` marks the header positions with `pos < 12` and `runId < 32`. -/
structure Hyps (seg : IVec R 32) (isH prev rs valid : IVec R 1) (rsI cs runId wv cm pos : IVec R 32)
    (z0 zmin : IVec Z 32)
    (hw : R.ReduceWindows (![1, 512] : Fin 2 → Nat) ![1, 1] ![0, 511] ![0, 0] R) (hu : 0 < Z.numel) : Prop where
  h_isH : ∀ j, isH j = IntOp.cmpi .eq (seg j) 1#32
  h_prev0 : ∀ b, prev (ix2 b (0 : Fin 512)) = 0#1
  h_prevS : ∀ b (l : Fin 511), prev (ix2 b ⟨l.val + 1, by omega⟩) = isH (ix2 b ⟨l.val, by omega⟩)
  h_rs : ∀ j, rs j = IntOp.andi (isH j) (~~~ (prev j))
  h_rsI : ∀ j, rsI j = (rs j).setWidth 32
  hz0 : ∀ i, z0 i = 0#32
  hzmin : ∀ i, zmin i = 2147483648#32
  h_cs : cs = Host.reduceWindow IntOp.addi ![1, 512] ![1, 1] ![0, 511] ![0, 0] rsI z0 hw hu
  h_runId : ∀ j, runId j = IntOp.subi (cs j) 1#32
  h_wv : ∀ b (l : Fin 512), wv (ix2 b l) = Scalar.select (rs (ix2 b l)) (BitVec.ofNat 32 l.val) 4294967295#32
  h_cm : cm = Host.reduceWindow IntOp.maxsi ![1, 512] ![1, 1] ![0, 511] ![0, 0] wv zmin hw hu
  h_pos : ∀ b (l : Fin 512), pos (ix2 b l) = IntOp.subi (BitVec.ofNat 32 l.val) (cm (ix2 b l))
  h_valid : ∀ j, valid j = IntOp.andi (IntOp.andi (isH j) (IntOp.cmpi .slt (pos j) 12#32)) (IntOp.cmpi .slt (runId j) 32#32)

theorem rowAt_lt {α : Type} (x : R.Idx → α) (d : α) (b : Fin 32) (k : ℕ) (h : k < 512) :
    rowAt x d b k = x (ix2 b ⟨k, h⟩) := by
  unfold rowAt; rw [dif_pos h]

section
variable {seg : IVec R 32} {isH prev rs valid : IVec R 1} {rsI cs runId wv cm pos : IVec R 32}
  {z0 zmin : IVec Z 32}
  {hw : R.ReduceWindows (![1, 512] : Fin 2 → Nat) ![1, 1] ![0, 511] ![0, 0] R} {hu : 0 < Z.numel}

/-- The marker word of a column as an integer: the column at a run start, `-1` elsewhere. -/
theorem wv_toInt (H : Hyps seg isH prev rs valid rsI cs runId wv cm pos z0 zmin hw hu) (b : Fin 32) (k : Fin 512) :
    (wv (ix2 b k)).toInt = if rs (ix2 b k) = 1#1 then (k.val : ℤ) else -1 := by
  rw [H.h_wv]
  by_cases h : rs (ix2 b k) = 1#1
  · rw [h, select_one, if_pos rfl]; exact toInt_ofNat_small k.val (by omega)
  · rw [eq_zero_of_ne_one h, select_zero, if_neg (by decide)]; exact toInt_allOnes

/-- The facts about runs, read off the arrays of row `b`. -/
theorem row_facts (H : Hyps seg isH prev rs valid rsI cs runId wv cm pos z0 zmin hw hu) (b : Fin 32) :
    (∀ l : Fin 512, isH (ix2 b l) = 1#1 → 1 ≤ (cs (ix2 b l)).toNat ∧ 0 ≤ (cm (ix2 b l)).toInt)
    ∧ (∀ l : Fin 512, (cs (ix2 b l)).toNat ≤ l.val + 1 ∧ (cm (ix2 b l)).toInt ≤ l.val ∧ -1 ≤ (cm (ix2 b l)).toInt)
    ∧ (∀ l1 l2 : Fin 512, isH (ix2 b l1) = 1#1 → isH (ix2 b l2) = 1#1 →
        (cs (ix2 b l1)).toNat = (cs (ix2 b l2)).toNat →
        (l1.val : ℤ) - (cm (ix2 b l1)).toInt = (l2.val : ℤ) - (cm (ix2 b l2)).toInt → l1 = l2) := by
  -- run starts: a header position whose left neighbour is not one
  have hrs : ∀ l < 512, (rowAt rs 0#1 b l = 1#1) ↔
      (rowAt isH 0#1 b l = 1#1) ∧ (l = 0 ∨ ¬ (rowAt isH 0#1 b (l - 1) = 1#1)) := by
    intro l hl
    rw [rowAt_lt rs _ b l hl, rowAt_lt isH _ b l hl, H.h_rs, and_not_eq_one]
    cases l with
    | zero =>
      have e0 := H.h_prev0 b
      change prev (ix2 b ⟨0, hl⟩) = 0#1 at e0
      rw [e0]
      simp
    | succ m =>
      have eS := H.h_prevS b ⟨m, by omega⟩
      change prev (ix2 b ⟨m + 1, hl⟩) = isH (ix2 b ⟨m, by omega⟩) at eS
      rw [eS, Nat.add_sub_cancel, rowAt_lt isH _ b m (by omega)]
      simp
  -- the prefix count
  have hc : ∀ l < 512, (rowAt cs 0#32 b l).toNat
      = ((Finset.range (l + 1)).filter (fun k => rowAt rs 0#1 b k = 1#1)).card := by
    intro l hl
    rw [rowAt_lt cs _ b l hl, H.h_cs,
      reduceWindow_prefix IntOp.addi rsI z0 hw hu (by intro r; rw [H.hz0]; exact BitVec.add_zero r) b ⟨l, hl⟩,
      H.hz0, foldl_add_toNat _ _ (by show l + 1 ≤ 512; omega) ?_]
    · apply congrArg Finset.card
      apply Finset.filter_congr
      intro k hk
      rw [Finset.mem_range] at hk
      have hk5 : k < 512 := by change k < l + 1 at hk; omega
      rw [rowAt_lt rsI _ b k hk5, rowAt_lt rs _ b k hk5, H.h_rsI, setWidth_eq_one]
    · intro k _
      unfold rowAt
      split_ifs
      · rw [H.h_rsI]; exact setWidth_01 _
      · exact Or.inl rfl
  -- the prefix maximum
  have hmx1 : ∀ l < 512, ∀ k, k ≤ l →
      (if rowAt rs 0#1 b k = 1#1 then (k : ℤ) else -1) ≤ (rowAt cm 0#32 b l).toInt := by
    intro l hl k hk
    have hk5 : k < 512 := by omega
    rw [rowAt_lt cm _ b l hl, rowAt_lt rs _ b k hk5, H.h_cm]
    have := (cummax_spec wv zmin H.hzmin hw hu b ⟨l, hl⟩).1 ⟨k, hk5⟩ (Fin.le_def.2 hk)
    rwa [wv_toInt H b ⟨k, hk5⟩] at this
  have hmx2 : ∀ l < 512, ∃ k, k ≤ l ∧
      (rowAt cm 0#32 b l).toInt = if rowAt rs 0#1 b k = 1#1 then (k : ℤ) else -1 := by
    intro l hl
    obtain ⟨k, hk, e⟩ := (cummax_spec wv zmin H.hzmin hw hu b ⟨l, hl⟩).2
    refine ⟨k.val, Fin.le_def.1 hk, ?_⟩
    rw [rowAt_lt cm _ b l hl, rowAt_lt rs _ b k.val k.isLt, H.h_cm, e]
    exact wv_toInt H b k
  obtain ⟨F1, F2, F3⟩ := runs_facts_lt 512 (fun l => rowAt isH 0#1 b l = 1#1) (fun l => rowAt rs 0#1 b l = 1#1) hrs
    (fun l => (rowAt cs 0#32 b l).toNat) hc (fun l => (rowAt cm 0#32 b l).toInt) hmx1 hmx2
  refine ⟨?_, ?_, ?_⟩
  · intro l hl
    have := F1 l.val l.isLt (by show rowAt isH 0#1 b l.val = 1#1; rw [rowAt_lt isH _ b l.val l.isLt]; exact hl)
    simpa only [rowAt_lt cs _ b l.val l.isLt, rowAt_lt cm _ b l.val l.isLt] using this
  · intro l
    have := F2 l.val l.isLt
    simpa only [rowAt_lt cs _ b l.val l.isLt, rowAt_lt cm _ b l.val l.isLt] using this
  · intro l1 l2 h1 h2 hcc hd
    apply Fin.ext
    apply F3 l1.val l1.isLt l2.val l2.isLt
    · show rowAt isH 0#1 b l1.val = 1#1; rw [rowAt_lt isH _ b l1.val l1.isLt]; exact h1
    · show rowAt isH 0#1 b l2.val = 1#1; rw [rowAt_lt isH _ b l2.val l2.isLt]; exact h2
    · show (rowAt cs 0#32 b l1.val).toNat = (rowAt cs 0#32 b l2.val).toNat
      rw [rowAt_lt cs _ b l1.val l1.isLt, rowAt_lt cs _ b l2.val l2.isLt]; exact hcc
    · show (l1.val : ℤ) - (rowAt cm 0#32 b l1.val).toInt = (l2.val : ℤ) - (rowAt cm 0#32 b l2.val).toInt
      rw [rowAt_lt cm _ b l1.val l1.isLt, rowAt_lt cm _ b l2.val l2.isLt]; exact hd

/-- A difference of words without borrow is the difference of their values. -/
theorem toNat_sub_small (x y : BitVec 32) (h : y.toNat ≤ x.toNat) : (x - y).toNat = x.toNat - y.toNat := by
  have := x.isLt
  have := y.isLt
  rw [BitVec.toNat_sub]; omega

/-- Validity unpacked: a header position whose distance and run number pass the two signed tests. -/
theorem valid_iff (H : Hyps seg isH prev rs valid rsI cs runId wv cm pos z0 zmin hw hu) (j : R.Idx) :
    valid j = 1#1 ↔ isH j = 1#1 ∧ (pos j).toInt < 12 ∧ (runId j).toInt < 32 := by
  have e12 : (12#32 : BitVec 32).toInt = 12 := by decide
  have e32 : (32#32 : BitVec 32).toInt = 32 := by decide
  rw [H.h_valid, and3_eq_one, cmpi_slt_eq_one, cmpi_slt_eq_one, e12, e32]

/-- At a header position the run number is the count less one and the distance is the column less the last run start,
    neither wrapping. -/
theorem slot_vals (H : Hyps seg isH prev rs valid rsI cs runId wv cm pos z0 zmin hw hu) (b : Fin 32) (l : Fin 512)
    (hH : isH (ix2 b l) = 1#1) :
    (runId (ix2 b l)).toInt = ((cs (ix2 b l)).toNat : ℤ) - 1
    ∧ (pos (ix2 b l)).toInt = (l.val : ℤ) - (cm (ix2 b l)).toInt
    ∧ 1 ≤ (cs (ix2 b l)).toNat ∧ (cs (ix2 b l)).toNat ≤ l.val + 1
    ∧ 0 ≤ (cm (ix2 b l)).toInt ∧ (cm (ix2 b l)).toInt ≤ l.val := by
  obtain ⟨F1, F2, _⟩ := row_facts H b
  obtain ⟨c1, m0⟩ := F1 l hH
  obtain ⟨c2, m1, _⟩ := F2 l
  have hl := l.isLt
  have one : (1#32 : BitVec 32).toNat = 1 := rfl
  refine ⟨?_, ?_, c1, c2, m0, m1⟩
  · rw [H.h_runId]
    show (cs (ix2 b l) - 1#32).toInt = _
    have e := toNat_sub_small (cs (ix2 b l)) 1#32 (by rw [one]; exact c1)
    rw [one] at e
    rw [toInt_of_toNat_small _ (by rw [e]; omega), e]
    omega
  · rw [H.h_pos]
    show (BitVec.ofNat 32 l.val - cm (ix2 b l)).toInt = _
    obtain ⟨n1, n2⟩ := toNat_of_toInt_nonneg _ m0
    rw [n2] at m1 ⊢
    have eo := toNat_ofNat_small l.val (by omega)
    have e := toNat_sub_small (BitVec.ofNat 32 l.val) (cm (ix2 b l)) (by rw [eo]; omega)
    rw [eo] at e
    rw [toInt_of_toNat_small _ (by rw [e]; omega), e]
    omega

/-- A valid position's run number is below 32 and its distance below 12. -/
theorem slot_range (H : Hyps seg isH prev rs valid rsI cs runId wv cm pos z0 zmin hw hu) (b : Fin 32) (l : Fin 512)
    (hv : valid (ix2 b l) = 1#1) :
    ∃ (r : Fin 32) (p : Fin 12),
      runId (ix2 b l) = BitVec.ofNat 32 r.val ∧ pos (ix2 b l) = BitVec.ofNat 32 p.val := by
  obtain ⟨hH, hp, hr⟩ := (valid_iff H _).1 hv
  obtain ⟨e1, e2, c1, c2, m0, m1⟩ := slot_vals H b l hH
  have hl := l.isLt
  refine ⟨⟨(cs (ix2 b l)).toNat - 1, by omega⟩, ⟨((l.val : ℤ) - (cm (ix2 b l)).toInt).toNat, by omega⟩, ?_, ?_⟩
  · show runId (ix2 b l) = BitVec.ofNat 32 ((cs (ix2 b l)).toNat - 1)
    apply eq_ofNat_of_toInt _ _ (by omega)
    rw [e1]; omega
  · show pos (ix2 b l) = BitVec.ofNat 32 ((l.val : ℤ) - (cm (ix2 b l)).toInt).toNat
    apply eq_ofNat_of_toInt _ _ (by omega)
    rw [e2]; omega

/-- Two valid positions of a row with the same run number and the same distance are the same position. -/
theorem slot_inj (H : Hyps seg isH prev rs valid rsI cs runId wv cm pos z0 zmin hw hu) (b : Fin 32) (l1 l2 : Fin 512)
    (h1 : valid (ix2 b l1) = 1#1) (h2 : valid (ix2 b l2) = 1#1)
    (hr : runId (ix2 b l1) = runId (ix2 b l2)) (hp : pos (ix2 b l1) = pos (ix2 b l2)) : l1 = l2 := by
  obtain ⟨hH1, _, _⟩ := (valid_iff H _).1 h1
  obtain ⟨hH2, _, _⟩ := (valid_iff H _).1 h2
  obtain ⟨a1, a2, a3, _, _, _⟩ := slot_vals H b l1 hH1
  obtain ⟨b1, b2, b3, _, _, _⟩ := slot_vals H b l2 hH2
  obtain ⟨_, _, F3⟩ := row_facts H b
  apply F3 l1 l2 hH1 hH2
  · have := congrArg BitVec.toInt hr
    rw [a1, b1] at this
    omega
  · have := congrArg BitVec.toInt hp
    rw [a2, b2] at this
    exact this

/-! ## The kernel's target word and the reference's scatter coordinates -/

/-- Equal words of small naturals are equal naturals. -/
theorem ofNat_inj_small (m n : ℕ) (hm : m < 2 ^ 32) (hn : n < 2 ^ 32) (h : BitVec.ofNat 32 m = BitVec.ofNat 32 n) :
    m = n := by
  have := congrArg BitVec.toNat h
  rwa [toNat_ofNat_small m hm, toNat_ofNat_small n hn] at this

/-- `12 r + p` in words, for small `r` and `p`. -/
theorem enc_small (r p : ℕ) (hr : r < 32) (hp : p < 12) :
    IntOp.addi (IntOp.muli (BitVec.ofNat 32 r) 12#32) (BitVec.ofNat 32 p) = BitVec.ofNat 32 (r * 12 + p) := by
  apply BitVec.eq_of_toNat_eq
  show ((BitVec.ofNat 32 r) * 12#32 + BitVec.ofNat 32 p).toNat = _
  have e12 : (12#32 : BitVec 32).toNat = 12 := rfl
  rw [BitVec.toNat_add, BitVec.toNat_mul, toNat_ofNat_small r (by omega), toNat_ofNat_small p (by omega),
    toNat_ofNat_small (r * 12 + p) (by omega), e12]
  omega

/-- The target word `12 runId + pos` (all ones at an invalid position) names the slot `(r, p)` exactly at the valid
    positions with that run number and distance. -/
theorem rowt_eq_iff (H : Hyps seg isH prev rs valid rsI cs runId wv cm pos z0 zmin hw hu) (rowt : IVec R 32)
    (h_rowt : ∀ j, rowt j
      = Scalar.select (valid j) (IntOp.addi (IntOp.muli (runId j) 12#32) (pos j)) 4294967295#32)
    (b : Fin 32) (l : Fin 512) (r : Fin 32) (p : Fin 12) :
    rowt (ix2 b l) = BitVec.ofNat 32 (r.val * 12 + p.val) ↔
      valid (ix2 b l) = 1#1 ∧ runId (ix2 b l) = BitVec.ofNat 32 r.val ∧ pos (ix2 b l) = BitVec.ofNat 32 p.val := by
  have hr := r.isLt
  have hp := p.isLt
  rw [h_rowt]
  by_cases hv : valid (ix2 b l) = 1#1
  · obtain ⟨r', p', e1, e2⟩ := slot_range H b l hv
    have hr' := r'.isLt
    have hp' := p'.isLt
    rw [hv, select_one, e1, e2, enc_small r'.val p'.val hr' hp']
    constructor
    · intro h
      have := ofNat_inj_small _ _ (by omega) (by omega) h
      have er : r'.val = r.val := by omega
      have ep : p'.val = p.val := by omega
      rw [er, ep]; exact ⟨rfl, rfl, rfl⟩
    · rintro ⟨_, h1, h2⟩
      rw [ofNat_inj_small _ _ (by omega) (by omega) h1, ofNat_inj_small _ _ (by omega) (by omega) h2]
  · rw [eq_zero_of_ne_one hv, select_zero]
    constructor
    · intro h
      exfalso
      have := congrArg BitVec.toNat h
      have e : (4294967295#32 : BitVec 32).toNat = 4294967295 := rfl
      rw [toNat_ofNat_small (r.val * 12 + p.val) (by omega), e] at this
      omega
    · rintro ⟨h, _, _⟩
      exact absurd h (by decide)

/-- The signed maximum is the second word when it is at least the first. -/
theorem maxsi_of_le (a c : BitVec 32) (h : a.toInt ≤ c.toInt) : IntOp.maxsi a c = c := by
  rcases maxsi_cases a c with ⟨e, h'⟩ | ⟨e, _⟩
  · rw [e]; exact BitVec.toInt_inj.1 (le_antisymm h h')
  · exact e

/-- The signed minimum is the second word when it is at most the first. -/
theorem minsi_of_le (a c : BitVec 32) (h : c.toInt ≤ a.toInt) : IntOp.minsi a c = c := by
  unfold IntOp.minsi
  rw [if_neg]
  simp only [BitVec.slt, decide_eq_true_eq]
  omega

/-- Wrapping a negative index leaves a non-negative one alone. -/
theorem wrap_nonneg (x n : BitVec 32) (h : 0 ≤ x.toInt) :
    Scalar.select (IntOp.cmpi .slt x 0#32) (IntOp.addi x n) x = x := by
  have e0 : (0#32 : BitVec 32).toInt = 0 := by decide
  have : ¬ IntOp.cmpi .slt x 0#32 = 1#1 := by rw [cmpi_slt_eq_one, e0]; omega
  rw [eq_zero_of_ne_one this, select_zero]

/-- The reference's scatter coordinates: the run number, 32 at an invalid position, and the distance clamped to
    `[0, 11]`, each wrapped if negative. They are `(r, p)` with `r < 32` exactly at the valid positions with that run
    number and distance. -/
theorem coords_eq_iff (H : Hyps seg isH prev rs valid rsI cs runId wv cm pos z0 zmin hw hu)
    (hid pid hidN pidN : IVec R 32)
    (h_hid : ∀ j, hid j = Scalar.select (valid j) (runId j) 32#32)
    (h_pid : ∀ j, pid j = IntOp.minsi 11#32 (IntOp.maxsi 0#32 (pos j)))
    (h_hidN : ∀ j, hidN j = Scalar.select (IntOp.cmpi .slt (hid j) 0#32) (IntOp.addi (hid j) 33#32) (hid j))
    (h_pidN : ∀ j, pidN j = Scalar.select (IntOp.cmpi .slt (pid j) 0#32) (IntOp.addi (pid j) 12#32) (pid j))
    (b : Fin 32) (l : Fin 512) (r : Fin 32) (p : Fin 12) :
    ((hidN (ix2 b l)).toInt = r.val ∧ (pidN (ix2 b l)).toInt = p.val) ↔
      valid (ix2 b l) = 1#1 ∧ runId (ix2 b l) = BitVec.ofNat 32 r.val ∧ pos (ix2 b l) = BitVec.ofNat 32 p.val := by
  have hr := r.isLt
  have hp := p.isLt
  have e0 : (0#32 : BitVec 32).toInt = 0 := by decide
  have e11 : (11#32 : BitVec 32).toInt = 11 := by decide
  -- the coordinates at a valid position with run number r' and distance p'
  have at_slot : ∀ (r' : Fin 32) (p' : Fin 12), valid (ix2 b l) = 1#1 → runId (ix2 b l) = BitVec.ofNat 32 r'.val →
      pos (ix2 b l) = BitVec.ofNat 32 p'.val →
      (hidN (ix2 b l)).toInt = r'.val ∧ (pidN (ix2 b l)).toInt = p'.val := by
    intro r' p' hv e1 e2
    have hr' := r'.isLt
    have hp' := p'.isLt
    have tr : (BitVec.ofNat 32 r'.val).toInt = r'.val := toInt_ofNat_small _ (by omega)
    have tp : (BitVec.ofNat 32 p'.val).toInt = p'.val := toInt_ofNat_small _ (by omega)
    constructor
    · rw [h_hidN, h_hid, hv, select_one, e1, wrap_nonneg _ _ (by rw [tr]; omega), tr]
    · rw [h_pidN, h_pid, e2, maxsi_of_le _ _ (by rw [e0, tp]; omega), minsi_of_le _ _ (by rw [e11, tp]; omega),
        wrap_nonneg _ _ (by rw [tp]; omega), tp]
  constructor
  · rintro ⟨h1, h2⟩
    by_cases hv : valid (ix2 b l) = 1#1
    · obtain ⟨r', p', e1, e2⟩ := slot_range H b l hv
      obtain ⟨k1, k2⟩ := at_slot r' p' hv e1 e2
      have hr' := r'.isLt
      have hp' := p'.isLt
      have er : r'.val = r.val := by rw [k1] at h1; exact_mod_cast h1
      have ep : p'.val = p.val := by rw [k2] at h2; exact_mod_cast h2
      rw [← er, ← ep]
      exact ⟨hv, e1, e2⟩
    · exfalso
      have e32 : (32#32 : BitVec 32).toInt = 32 := by decide
      rw [h_hidN, h_hid, eq_zero_of_ne_one hv, select_zero, wrap_nonneg _ _ (by rw [e32]; omega), e32] at h1
      omega
  · rintro ⟨hv, e1, e2⟩
    exact at_slot r p hv e1 e2

end

/-! ## Determinism -/

/-- The arrays are determined by the segment words: two families satisfying the pointwise description over the same
    `seg` have the same `valid`, `runId` and `pos`. -/
theorem Hyps.unique {seg : IVec R 32} {isH prev rs valid : IVec R 1} {rsI cs runId wv cm pos : IVec R 32}
    {z0 zmin : IVec Z 32}
    {hw : R.ReduceWindows (![1, 512] : Fin 2 → Nat) ![1, 1] ![0, 511] ![0, 0] R} {hu : 0 < Z.numel}
    {isH' prev' rs' valid' : IVec R 1} {rsI' cs' runId' wv' cm' pos' : IVec R 32}
    {z0' zmin' : IVec Z 32}
    {hw' : R.ReduceWindows (![1, 512] : Fin 2 → Nat) ![1, 1] ![0, 511] ![0, 0] R} {hu' : 0 < Z.numel}
    (H : Hyps seg isH prev rs valid rsI cs runId wv cm pos z0 zmin hw hu)
    (H' : Hyps seg isH' prev' rs' valid' rsI' cs' runId' wv' cm' pos' z0' zmin' hw' hu') :
    valid = valid' ∧ runId = runId' ∧ pos = pos' := by
  have e1 : isH = isH' := funext fun j => (H.h_isH j).trans (H'.h_isH j).symm
  have e2 : prev = prev' := by
    funext j
    obtain ⟨b, l, rfl⟩ : ∃ b l, j = ix2 b l := ⟨j 0, j 1, eq_ix2 j⟩
    obtain ⟨l, hl⟩ := l
    cases l with
    | zero => exact (H.h_prev0 b).trans (H'.h_prev0 b).symm
    | succ m =>
      have a := H.h_prevS b ⟨m, by omega⟩
      have a' := H'.h_prevS b ⟨m, by omega⟩
      rw [e1] at a
      exact a.trans a'.symm
  have e3 : rs = rs' := funext fun j => by rw [H.h_rs, H'.h_rs, e1, e2]
  have e4 : rsI = rsI' := funext fun j => by rw [H.h_rsI, H'.h_rsI, e3]
  have e5 : z0 = z0' := funext fun i => by rw [H.hz0, H'.hz0]
  have e6 : cs = cs' := by rw [H.h_cs, H'.h_cs, e4, e5]
  have e7 : runId = runId' := funext fun j => by rw [H.h_runId, H'.h_runId, e6]
  have e8 : wv = wv' := by
    funext j
    obtain ⟨b, l, rfl⟩ : ∃ b l, j = ix2 b l := ⟨j 0, j 1, eq_ix2 j⟩
    rw [H.h_wv, H'.h_wv, e3]
  have e9 : zmin = zmin' := funext fun i => by rw [H.hzmin, H'.hzmin]
  have e10 : cm = cm' := by rw [H.h_cm, H'.h_cm, e8, e9]
  have e11 : pos = pos' := by
    funext j
    obtain ⟨b, l, rfl⟩ : ∃ b l, j = ix2 b l := ⟨j 0, j 1, eq_ix2 j⟩
    rw [H.h_pos, H'.h_pos, e10]
  have e12 : valid = valid' := funext fun j => by rw [H.h_valid, H'.h_valid, e1, e11, e7]
  exact ⟨e12, e7, e11⟩

end Cert.RunSlots
-- ==== Proof.KReads.lean ====
/-
  The kernel program's index arrays, read pointwise, at the ideal instance.

  The host lines before the region compute, from the segment words, the header mark, the run-start mark, the prefix
  count and prefix maximum, the run number, the offset inside the run, the validity mark and the target word
  `12 · run + offset` (all ones where invalid); the sorted-index array, the scale and the target word are then viewed
  `[32, 1, 512]`. Each array is one operation of earlier ones; here each is read at an index, down to the segment
  words: the reshapes (`read_v37`, `read_v38`, `read_v39`), the target word (`rowt_pointwise`), the whole family as
  an instance of the run-slot description (`hyps`), and the sorted-index array's entries, which are column numbers
  (`read_v8`).
-/
import proofs.«139113_j90056874263205_2_alg».proof.Proof.Gen.KernelIdeal.Frame
import proofs.«139113_j90056874263205_2_alg».proof.Proof.KVals
import proofs.«139113_j90056874263205_2_alg».proof.Proof.RunSlots
import Idealize.ShloMosaic.Lib.Pipeline.Value

set_option maxRecDepth 16384

noncomputable section

namespace Cert.KernelIdeal.KReads

open Cert.KernelIdeal Cert.KernelIdeal.Gen Idealize.ShloMosaic Idealize.ShloMosaic.TcCoe Idealize.SL.Sem
open Idealize.ShloMosaic.ValueIdx Cert.PrefixScan

/-! ## Shape operations of the index arrays, read at an index -/

/-- A `[32, 512]` array viewed `[32, 1, 512]` reads `(b, i)` at `(b, 0, i)`. -/
theorem reshape_row {α : Type} (x : (⟨2, ![32, 512]⟩ : Shape).Idx → α)
    (h : (⟨2, ![32, 512]⟩ : Shape).ShapeCasts ⟨3, ![32, 1, 512]⟩) (b : Fin 32) (i : Fin 512) :
    shapeCast ⟨3, ![32, 1, 512]⟩ x h (ix3 b (0 : Fin 1) i) = x (ix2 b i) := by
  apply shapeCast_apply
  rw [Shape.rowMajor_val_two, Shape.rowMajor_val_three]
  show b.val * 512 + i.val = (b.val * 1 + 0) * 512 + i.val
  omega

/-- A broadcast scalar reads the scalar's one element. -/
theorem bcast_scalar {α : Type} (t : Shape) (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 (fun a => a.elim0)

/-- The column numbers `0, …, 511`, broadcast to a row and then to 32 rows, read the column. -/
theorem iota_rows (h1 : (⟨1, ![512]⟩ : Shape).BroadcastsInDim ⟨2, ![1, 512]⟩ (![1] : Fin 1 → Fin 2))
    (h2 : (⟨2, ![1, 512]⟩ : Shape).BroadcastsInDim ⟨2, ![32, 512]⟩ (![0, 1] : Fin 2 → Fin 2)) (b : Fin 32) (l : Fin 512) :
    broadcastInDim ⟨2, ![32, 512]⟩ ![0, 1] h2 (broadcastInDim ⟨2, ![1, 512]⟩ ![1] h1 (iotaInDim ⟨1, ![512]⟩ 32 0)) (ix2 b l)
      = BitVec.ofNat 32 l.val := by
  rw [broadcastInDim_apply ![0, 1] h2 _ (ix2 b l) (ix2 (0 : Fin 1) l) (fun a => by
    match a with
    | ⟨0, _⟩ => rfl
    | ⟨1, _⟩ => rfl)]
  rw [broadcastInDim_apply ![1] h1 _ (ix2 (0 : Fin 1) l) (ix1 l) (fun a => by
    match a with
    | ⟨0, _⟩ => rfl)]
  rfl

/-- The pad of one column on the left reads the padding value in column 0. -/
theorem pad_left_zero {α : Type} (x : (⟨2, ![32, 511]⟩ : Shape).Idx → α) (v : (⟨0, ![]⟩ : Shape).Idx → α)
    (hp : (⟨2, ![32, 511]⟩ : Shape).Pads (![0, 1] : Fin 2 → Nat) ![0, 0] ![0, 0] ⟨2, ![32, 512]⟩)
    (hu : 0 < (⟨0, ![]⟩ : Shape).numel) (b : Fin 32) :
    pad ⟨2, ![32, 512]⟩ ![0, 1] ![0, 0] ![0, 0] x v hp hu (ix2 b (0 : Fin 512)) = v ix0 := by
  unfold pad
  rw [dif_neg]
  · exact congrArg v (eq_ix0 _)
  · intro hall
    have := (hall 1).1
    change 1 ≤ 0 at this
    omega

/-- … and the operand's column `l` in column `l + 1`; through the slice `[0:511]` of a 512-column array, that
    array's column `l`. -/
theorem pad_left_succ {α : Type} (y : (⟨2, ![32, 512]⟩ : Shape).Idx → α) (v : (⟨0, ![]⟩ : Shape).Idx → α)
    (hs : (⟨2, ![32, 512]⟩ : Shape).Slices ![0, 0] ⟨2, ![32, 511]⟩)
    (hp : (⟨2, ![32, 511]⟩ : Shape).Pads (![0, 1] : Fin 2 → Nat) ![0, 0] ![0, 0] ⟨2, ![32, 512]⟩)
    (hu : 0 < (⟨0, ![]⟩ : Shape).numel) (b : Fin 32) (l : Fin 511) :
    pad ⟨2, ![32, 512]⟩ ![0, 1] ![0, 0] ![0, 0] (extractStridedSlice ⟨2, ![32, 511]⟩ ![0, 0] y hs) v hp hu
        (ix2 b ⟨l.val + 1, by omega⟩)
      = y (ix2 b ⟨l.val, by omega⟩) := by
  unfold pad
  rw [dif_pos]
  · refine extractStridedSlice_apply ![0, 0] y hs _ (ix2 b ⟨l.val, by omega⟩) (fun a => ?_)
    match a with
    | ⟨0, _⟩ => show b.val = 0 + (b.val - 0) / (0 + 1); omega
    | ⟨1, _⟩ => show l.val = 0 + (l.val + 1 - 1) / (0 + 1); omega
  · refine Fin.forall_fin_two.2 ⟨?_, ?_⟩
    · show 0 ≤ b.val ∧ (b.val - 0) % (0 + 1) = 0 ∧ (b.val - 0) / (0 + 1) < 32
      omega
    · show 1 ≤ l.val + 1 ∧ (l.val + 1 - 1) % (0 + 1) = 0 ∧ (l.val + 1 - 1) / (0 + 1) < 511
      omega

/-- The second component of a two-operand sort along the columns whose second operand is the column number: each entry
    is a column number (the sorting permutation itself is never looked at). -/
theorem sort2_snd_iota {α : Type} (cmp : α × BitVec 32 → α × BitVec 32 → BitVec 1)
    (x : (⟨2, ![32, 512]⟩ : Shape).Idx → α) (j : (⟨2, ![32, 512]⟩ : Shape).Idx) :
    ∃ k : Fin 512, (Host.sort2 ⟨2, ![32, 512]⟩ 1 cmp x (iotaInDim ⟨2, ![32, 512]⟩ 32 1)).2 j = BitVec.ofNat 32 k.val := by
  have hd : 1 < (⟨2, ![32, 512]⟩ : Shape).rank := by decide
  unfold Host.sort2
  rw [dif_pos hd]
  dsimp only
  generalize sortedFrom _ _ = p
  refine ⟨p, ?_⟩
  unfold iotaInDim Shape.Idx.along
  rw [show (1 : Fin (⟨2, ![32, 512]⟩ : Shape).rank) = ⟨1, hd⟩ from rfl, Function.update_self]

variable (m : (ℓ : Loc nD τ sig) → Buf (Elt Ideal) ℓ)

/-- The sorted-index array viewed `[32, 1, 512]`. -/
theorem read_v37 (c : Dev nD) (b : Fin 32) (i : Fin 512) :
    V m c main_v37 (ix3 b (0 : Fin 1) i) = V m c main_v8 (ix2 b i) := by
  rw [KVals.val_main_v37 m c]
  exact reshape_row (V m c main_v8) _ b i

theorem read_v38 (c : Dev nD) (b : Fin 32) (i : Fin 512) :
    V m c main_v38 (ix3 b (0 : Fin 1) i) = FloatOps.uitofp (F := Ideal) .f32 (V m c main_v9 (ix2 b i)) := by
  rw [KVals.val_main_v38 m c]
  refine (reshape_row (V m c main_v10) _ b i).trans ?_
  rw [KVals.val_main_v10 m c]
  rfl

theorem read_v39 (c : Dev nD) (b : Fin 32) (l : Fin 512) :
    V m c main_v39 (ix3 b (0 : Fin 1) l) = V m c main_v36 (ix2 b l) := by
  rw [KVals.val_main_v39 m c]
  exact reshape_row (V m c main_v36) _ b l

theorem read_v8 (c : Dev nD) (b : Fin 32) (i : Fin 512) :
    ∃ k : Fin 512, V m c main_v8 (ix2 b i) = BitVec.ofNat 32 k.val := by
  rw [KVals.val_main_v8 m c, KVals.val_main_call1_v0 m c]
  exact sort2_snd_iota _ _ _

/-! ## The index arrays pointwise -/

/-- The constant 1 array. -/
theorem pt_v11 (c : Dev nD) (j : S32x512.Idx) : V m c main_v11 j = 1#32 := by
  rw [KVals.val_main_v11 m c, bcast_scalar, KVals.val_main_c_1 m c]; rfl

/-- The header mark: the segment word is 1. -/
theorem pt_v12 (c : Dev nD) (j : S32x512.Idx) : V m c main_v12 j = IntOp.cmpi .eq (V m c main_arg1 j) 1#32 := by
  rw [KVals.val_main_v12 m c]
  show IntOp.cmpi .eq (V m c main_arg1 j) (V m c main_v11 j) = _
  rw [pt_v11]

/-- The padding bit is 0. -/
theorem pt_call3_v2 (c : Dev nD) : V m c main_call3_v2 ix0 = 0#1 := by
  rw [KVals.val_main_call3_v2 m c]
  show V m c main_call3_v1 ix0 = 0#1
  rw [KVals.val_main_call3_v1 m c]
  show IntOp.cmpi .ne (V m c main_c_2 ix0) (V m c main_call3_v0 ix0) = 0#1
  rw [KVals.val_main_c_2 m c, KVals.val_main_call3_v0 m c, bcast_scalar, KVals.val_main_call3_c m c]
  rfl

/-- The header mark shifted right by one column: 0 in column 0 … -/
theorem pt_v14_zero (c : Dev nD) (b : Fin 32) : V m c main_v14 (ix2 b (0 : Fin 512)) = 0#1 := by
  rw [KVals.val_main_v14 m c, pad_left_zero, pt_call3_v2]

/-- … and the mark of column `l` in column `l + 1`. -/
theorem pt_v14_succ (c : Dev nD) (b : Fin 32) (l : Fin 511) :
    V m c main_v14 (ix2 b ⟨l.val + 1, by omega⟩) = V m c main_v12 (ix2 b ⟨l.val, by omega⟩) := by
  rw [KVals.val_main_v14 m c, KVals.val_main_v13 m c]
  exact pad_left_succ (V m c main_v12) _ _ _ _ b l

/-- The run-start mark. -/
theorem pt_v16 (c : Dev nD) (j : S32x512.Idx) :
    V m c main_v16 j = IntOp.andi (V m c main_v12 j) (~~~ (V m c main_v14 j)) := by
  rw [KVals.val_main_v16 m c]
  show IntOp.andi (V m c main_v12 j) (V m c main_v15 j) = _
  rw [KVals.val_main_v15 m c]
  rfl

/-- The run-start mark as a word. -/
theorem pt_v17 (c : Dev nD) (j : S32x512.Idx) : V m c main_v17 j = (V m c main_v16 j).setWidth 32 := by
  rw [KVals.val_main_v17 m c]; rfl

/-- The sum's initial value. -/
theorem pt_z0 (c : Dev nD) (i : S_.Idx) : V m c main_call4_call0_v0 i = 0#32 := by
  rw [KVals.val_main_call4_call0_v0 m c, bcast_scalar, KVals.val_main_call4_call0_c m c]; rfl

/-- The maximum's initial value. -/
theorem pt_zmin (c : Dev nD) (i : S_.Idx) : V m c main_call6_v0 i = 2147483648#32 := by
  rw [KVals.val_main_call6_v0 m c, bcast_scalar, KVals.val_main_call6_c m c]; rfl

/-- The run number. -/
theorem pt_v20 (c : Dev nD) (j : S32x512.Idx) : V m c main_v20 j = IntOp.subi (V m c main_v18 j) 1#32 := by
  rw [KVals.val_main_v20 m c]
  show IntOp.subi (V m c main_v18 j) (V m c main_v19 j) = _
  rw [KVals.val_main_v19 m c, bcast_scalar, KVals.val_main_c_3 m c]; rfl

/-- The marker word: the column at a run start, all ones elsewhere. -/
theorem pt_v22 (c : Dev nD) (b : Fin 32) (l : Fin 512) :
    V m c main_v22 (ix2 b l) = Scalar.select (V m c main_v16 (ix2 b l)) (BitVec.ofNat 32 l.val) 4294967295#32 := by
  rw [KVals.val_main_v22 m c]
  show Scalar.select (V m c main_v16 (ix2 b l)) (V m c main_call5_v1 (ix2 b l)) (V m c main_call5_v2 (ix2 b l)) = _
  rw [KVals.val_main_call5_v1 m c, KVals.val_main_v21 m c, KVals.val_main_v0 m c, iota_rows,
    KVals.val_main_call5_v2 m c, bcast_scalar, KVals.val_main_call5_v0 m c]
  show Scalar.select _ _ (V m c main_c_4 ix0) = _
  rw [KVals.val_main_c_4 m c]; rfl

/-- The offset inside the run. -/
theorem pt_v26 (c : Dev nD) (b : Fin 32) (l : Fin 512) :
    V m c main_v26 (ix2 b l) = IntOp.subi (BitVec.ofNat 32 l.val) (V m c main_v23 (ix2 b l)) := by
  rw [KVals.val_main_v26 m c]
  show IntOp.subi (V m c main_v25 (ix2 b l)) (V m c main_v23 (ix2 b l)) = _
  rw [KVals.val_main_v25 m c, KVals.val_main_v24 m c, KVals.val_main_v0 m c, iota_rows]

/-- The validity mark. -/
theorem pt_v32 (c : Dev nD) (j : S32x512.Idx) :
    V m c main_v32 j = IntOp.andi (IntOp.andi (V m c main_v12 j) (IntOp.cmpi .slt (V m c main_v26 j) 12#32))
      (IntOp.cmpi .slt (V m c main_v20 j) 32#32) := by
  rw [KVals.val_main_v32 m c]
  show IntOp.andi (V m c main_v29 j) (V m c main_v31 j) = _
  rw [KVals.val_main_v29 m c, KVals.val_main_v31 m c]
  show IntOp.andi (IntOp.andi (V m c main_v12 j) (V m c main_v28 j)) (IntOp.cmpi .slt (V m c main_v20 j) (V m c main_v30 j)) = _
  rw [KVals.val_main_v28 m c]
  show IntOp.andi (IntOp.andi (V m c main_v12 j) (IntOp.cmpi .slt (V m c main_v26 j) (V m c main_v27 j))) _ = _
  rw [KVals.val_main_v27 m c, bcast_scalar, KVals.val_main_c_5 m c, KVals.val_main_v30 m c, bcast_scalar,
    KVals.val_main_c_6 m c]
  rfl

/-- The target word. -/
theorem rowt_pointwise (c : Dev nD) : ∀ j, V m c main_v36 j = Scalar.select (V m c main_v32 j)
    (IntOp.addi (IntOp.muli (V m c main_v20 j) 12#32) (V m c main_v26 j)) 4294967295#32 := by
  intro j
  rw [KVals.val_main_v36 m c]
  show Scalar.select (V m c main_v32 j) (V m c main_v35 j) (V m c main_call7_v1 j) = _
  rw [KVals.val_main_v35 m c]
  show Scalar.select _ (IntOp.addi (V m c main_v34 j) (V m c main_v26 j)) _ = _
  rw [KVals.val_main_v34 m c]
  show Scalar.select _ (IntOp.addi (IntOp.muli (V m c main_v20 j) (V m c main_v33 j)) _) _ = _
  rw [KVals.val_main_v33 m c, bcast_scalar, KVals.val_main_c_7 m c, KVals.val_main_call7_v1 m c, bcast_scalar,
    KVals.val_main_call7_v0 m c]
  show Scalar.select _ _ (V m c main_c_8 ix0) = _
  rw [KVals.val_main_c_8 m c]
  rfl

/-- The kernel's index arrays satisfy the pointwise description of the run slots. -/
theorem hyps (c : Dev nD) : Cert.RunSlots.Hyps (V m c main_arg1) (V m c main_v12) (V m c main_v14) (V m c main_v16)
    (V m c main_v32) (V m c main_v17) (V m c main_v18) (V m c main_v20) (V m c main_v22) (V m c main_v23) (V m c main_v26)
    (V m c main_call4_call0_v0) (V m c main_call6_v0)
    Facts₀.reduceWindows_S32x512_S32x512_w1s1p0_0_w512s1p511_0 Facts₀.h_S_ where
  h_isH := pt_v12 m c
  h_prev0 := pt_v14_zero m c
  h_prevS := pt_v14_succ m c
  h_rs := pt_v16 m c
  h_rsI := pt_v17 m c
  hz0 := pt_z0 m c
  hzmin := pt_zmin m c
  h_cs := KVals.val_main_v18 m c
  h_runId := pt_v20 m c
  h_wv := pt_v22 m c
  h_cm := KVals.val_main_v23 m c
  h_pos := pt_v26 m c
  h_valid := pt_v32 m c

end Cert.KernelIdeal.KReads
-- ==== Proof.LibScatterRows.lean ====
/-
  Reading a row scatter and a row gather at one index.

  A scatter whose body returns the update ("set") is a left fold over the update indices in row-major order; each step
  overwrites the one result element the update lands at, when it lands inside the operand. Read at one result index,
  the fold returns the operand's element when no update lands there, and the update's element when exactly one update
  index lands there. The first part of the file proves this for an arbitrary fold of that kind and for
  `Host.scatter` at any shapes; the second part computes where an update lands for the dimension numbers of a
  scatter of rows `[32, 512, 1024]` into `[32, 33, 12, 1024]` at index vectors `[32, 512, 3]`; the third reads a
  gather of rows along the middle axis.
-/
import Idealize.ShloMosaic.PureOps.ShapeOps
import Idealize.ShloMosaic.PureOps.Dims
import Idealize.ShloMosaic.Lib.ValueIdx
import Mathlib

namespace Cert.ScatterRows

open Idealize.ShloMosaic Idealize.ShloMosaic.ValueIdx

/-! ## A fold of overwriting steps, read at one index -/

section Fold
variable {ι β γ : Type}

/-- A fold of steps each of which leaves the element at `i'` alone (its target `g n` is not `i'`) leaves the
    element at `i'` as it was. -/
theorem foldl_miss (g : γ → Option ι) (step : (ι → β) → γ → (ι → β)) (i' : ι)
    (hother : ∀ r n, g n ≠ some i' → step r n i' = r i') :
    ∀ (l : List γ) (x : ι → β), (∀ n ∈ l, g n ≠ some i') → l.foldl step x i' = x i' := by
  intro l
  induction l with
  | nil => intro x _; rfl
  | cons a t ih =>
    intro x h
    rw [List.foldl_cons, ih (step x a) (fun n hn => h n (List.mem_cons_of_mem a hn)),
      hother x a (h a List.mem_cons_self)]

/-- A fold of overwriting steps over a list without repeats in which `n0` is the only entry that targets `i'`
    leaves the value `u n0` at `i'`: the steps before `n0` are overwritten by it, the steps after it leave
    `i'` alone. -/
theorem foldl_hit (g : γ → Option ι) (u : γ → β) (step : (ι → β) → γ → (ι → β)) (i' : ι)
    (hhit : ∀ r n, g n = some i' → step r n i' = u n)
    (hother : ∀ r n, g n ≠ some i' → step r n i' = r i') (n0 : γ) (h0 : g n0 = some i') :
    ∀ (l : List γ) (x : ι → β), l.Nodup → n0 ∈ l → (∀ n ∈ l, g n = some i' → n = n0) →
      l.foldl step x i' = u n0 := by
  intro l
  induction l with
  | nil => intro x _ hmem _; exact absurd hmem List.not_mem_nil
  | cons a t ih =>
    intro x hnd hmem huniq
    rw [List.foldl_cons]
    rw [List.nodup_cons] at hnd
    by_cases ha : n0 = a
    · subst ha
      rw [foldl_miss g step i' hother t (step x n0), hhit x n0 h0]
      intro n hn hg
      have := huniq n (List.mem_cons_of_mem _ hn) hg
      subst this
      exact hnd.1 hn
    · have hmem' : n0 ∈ t := by
        rcases List.mem_cons.1 hmem with h | h
        · exact absurd h ha
        · exact h
      exact ih (step x a) hnd.2 hmem' (fun n hn => huniq n (List.mem_cons_of_mem _ hn))

end Fold

/-! ## `Host.scatter` with the body "return the update", read at one index -/

section Scatter
variable {α : Type} {s si u : Shape} {w : Nat}

/-- No update index lands at `i'`: the result's element there is the operand's. -/
theorem scatter_set_apply_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  unfold Host.scatter
  refine foldl_miss (fun n => d.resultIdx? (u.rowMajor.symm n) idx) _ i' ?_ _ x (fun n _ => h _)
  intro r n hn
  dsimp only at hn ⊢
  generalize d.resultIdx? (u.rowMajor.symm n) idx = o at hn ⊢
  cases o with
  | none => rfl
  | some i => exact if_neg (fun e => hn (by rw [e]))

/-- Exactly one update index `j0` lands at `i'`: the result's element there is the update's at `j0`. -/
theorem scatter_set_apply_hit (d : ScatterDims s si u) (x : s.Idx → α) (idx : IVec si w) (upd : u.Idx → α)
    (i' : s.Idx) (j0 : u.Idx) (h0 : d.resultIdx? j0 idx = some i')
    (huniq : ∀ j : u.Idx, d.resultIdx? j idx = some i' → j = j0) :
    Host.scatter d (fun _ b => b) x idx upd i' = upd j0 := by
  unfold Host.scatter
  have e : upd j0 = upd (u.rowMajor.symm (u.rowMajor j0)) := by rw [Equiv.symm_apply_apply]
  rw [e]
  refine foldl_hit (fun n => d.resultIdx? (u.rowMajor.symm n) idx) (fun n => upd (u.rowMajor.symm n)) _ i' ?_ ?_
    (u.rowMajor j0) ?_ (List.finRange u.numel) x (List.nodup_finRange _) (List.mem_finRange _) ?_
  · intro r n hn
    dsimp only at hn ⊢
    generalize d.resultIdx? (u.rowMajor.symm n) idx = o at hn ⊢
    cases o with
    | none => exact absurd hn (by simp)
    | some i => exact if_pos (Option.some.inj hn).symm
  · intro r n hn
    dsimp only at hn ⊢
    generalize d.resultIdx? (u.rowMajor.symm n) idx = o at hn ⊢
    cases o with
    | none => rfl
    | some i => exact if_neg (fun e => hn (by rw [e]))
  · show d.resultIdx? (u.rowMajor.symm (u.rowMajor j0)) idx = some i'
    rw [Equiv.symm_apply_apply]; exact h0
  · intro n _ hn
    have := huniq _ hn
    rw [← this, Equiv.apply_symm_apply]

end Scatter

/-! ## The literal shapes: a scatter of rows into `[32, 33, 12, 1024]` and a gather of rows along the middle axis -/

/-- The scatter's operand and result. -/
abbrev SO : Shape := ⟨4, ![32, 33, 12, 1024]⟩
/-- The scatter indices: one index vector of three components per update row. -/
abbrev SI : Shape := ⟨3, ![32, 512, 3]⟩
/-- The updates (and the gather's operand and result): `32 × 512` rows of `1024` elements. -/
abbrev SU : Shape := ⟨3, ![32, 512, 1024]⟩
/-- The gather's start indices: one scalar per result row. -/
abbrev GI : Shape := ⟨3, ![32, 512, 1]⟩

/-! ## The gather of rows along the middle axis, read at one index

Result element `(b, i, h)` is the operand's at `(b, k, h)` where `k` is the start index `idx[b, i, 0]` read signed and
clamped into `[0, 511]`; for a start index already in that range the clamp is the identity. Axis `0` is a batching
axis (start `0`, batching coordinate `b`, no offset), axis `1` is the collapsed axis the start index names (start
`k`, nothing else), axis `2` is the offset axis (start `0`, offset coordinate `h`). -/

section Gather
variable {α : Type}

/-- THE ROW GATHER READ AT `(b, i, h)`, for a start index `idx[b, i, 0] = k` in range. -/
theorem gather_rows_apply (g : GatherDims SU GI SU) (g1 : g.offsetDims = [2]) (g2 : g.collapsedSliceDims = [1])
    (g3 : g.operandBatchingDims = [0]) (g4 : g.startIndicesBatchingDims = [0]) (g5 : g.startIndexMap = [1])
    (g6 : g.indexVectorDim = 2) (g7 : g.sliceSizes = ![1, 1, 1024])
    (x : SU.Idx → α) (idx : IVec GI 32) (b : Fin 32) (i : Fin 512) (hh : Fin 1024) (k : Fin 512)
    (hk : (idx (ix3 b i 0)).toInt = k.val) :
    Host.gather g x idx (ix3 b i hh) = x (ix3 b k hh) := by
  obtain ⟨od, cd, ob, sb, sm, iv, ss, wf⟩ := g
  dsimp only at g1 g2 g3 g4 g5 g6 g7
  subst g1 g2 g3 g4 g5 g6 g7
  set d : GatherDims SU GI SU := ⟨[2], [1], [0], [0], [1], 2, ![1, 1, 1024], wf⟩ with hd
  unfold Host.gather
  congr 1
  funext a
  refine Fin.ext ?_
  show d.start (ix3 b i hh) idx a + d.batchCoord (ix3 b i hh) a + d.offCoord (ix3 b i hh) a = _
  match a with
  | ⟨0, _⟩ =>
    have e1 : d.start (ix3 b i hh) idx ⟨0, by decide⟩ = 0 := rfl
    have e2 : d.batchCoord (ix3 b i hh) ⟨0, by decide⟩ = b.val := rfl
    have e3 : d.offCoord (ix3 b i hh) ⟨0, by decide⟩ = 0 := rfl
    rw [e1, e2, e3]; simp
  | ⟨1, _⟩ =>
    have e2 : d.batchCoord (ix3 b i hh) ⟨1, by decide⟩ = 0 := rfl
    have e3 : d.offCoord (ix3 b i hh) ⟨1, by decide⟩ = 0 := rfl
    have hsi : d.siIdx (ix3 b i hh) ⟨0, Nat.zero_lt_one⟩ = ix3 b i 0 := by
      funext c; refine Fin.ext ?_
      match c with
      | ⟨0, _⟩ => rfl
      | ⟨1, _⟩ => rfl
      | ⟨2, _⟩ => rfl
    have e1 : d.start (ix3 b i hh) idx ⟨1, by decide⟩
        = min (idx (d.siIdx (ix3 b i hh) ⟨0, Nat.zero_lt_one⟩)).toInt.toNat 511 := rfl
    rw [e1, e2, e3, hsi, hk]
    have := k.isLt
    simp; omega
  | ⟨2, _⟩ =>
    have e1 : d.start (ix3 b i hh) idx ⟨2, by decide⟩ = 0 := rfl
    have e2 : d.batchCoord (ix3 b i hh) ⟨2, by decide⟩ = 0 := rfl
    have e3 : d.offCoord (ix3 b i hh) ⟨2, by decide⟩ = hh.val := rfl
    rw [e1, e2, e3]; simp

end Gather

/-! ## Where an update row lands, and the scatter of rows read at one index

The dimension numbers: update window axis `[2]`, inserted window axes `[0, 1, 2]`, scatter axes to operand axes
`[0, 1, 2]`, index vector axis `2`. Update index `(b', l', h)` reads its index vector `idx[b', l', ·]`; on operand axes
`0, 1, 2` its result coordinate is the vector's component (read signed, window coordinate `0`), on axis `3` it is the
window coordinate `h` (start `0`). The update lands inside the operand exactly when the three components are in
`[0, 32) × [0, 33) × [0, 12)`. -/

section Rows
variable {α : Type}

/-- Update row `(b', l')` targets the operand's row `(b, r, p)`: its index vector, read signed, is `(b, r, p)`. -/
def Targets (idx : IVec SI 32) (b' : Fin 32) (l' : Fin 512) (b : Fin 32) (r : Fin 33) (p : Fin 12) : Prop :=
  (idx (ix3 b' l' 0)).toInt = b.val ∧ (idx (ix3 b' l' 1)).toInt = r.val ∧ (idx (ix3 b' l' 2)).toInt = p.val

/-- WHERE AN UPDATE LANDS: update index `(b', l', h)` lands at the operand index `(b, r, p, h')` exactly when its row
    targets `(b, r, p)` and `h = h'`. -/
theorem resultIdx_eq_some_iff (d : ScatterDims SO SI SU) (h1 : d.updateWindowDims = [2])
    (h2 : d.insertedWindowDims = [0, 1, 2]) (h3 : d.scatterDimsToOperandDims = [0, 1, 2]) (h4 : d.indexVectorDim = 2)
    (idx : IVec SI 32) (b' : Fin 32) (l' : Fin 512) (hh : Fin 1024) (b : Fin 32) (r : Fin 33) (p : Fin 12)
    (hh' : Fin 1024) :
    d.resultIdx? (ix3 b' l' hh) idx = some (ix4 b r p hh') ↔ Targets idx b' l' b r p ∧ hh = hh' := by
  obtain ⟨uw, iw, sd, iv, wf⟩ := d
  dsimp only at h1 h2 h3 h4
  subst h1 h2 h3 h4
  set d : ScatterDims SO SI SU := ⟨[2], [0, 1, 2], [0, 1, 2], 2, wf⟩ with hd
  have hsi : ∀ c : Fin 3, d.siIdx (ix3 b' l' hh) c = ix3 b' l' c := by
    intro c; funext a; refine Fin.ext ?_
    match a with
    | ⟨0, _⟩ => rfl
    | ⟨1, _⟩ => rfl
    | ⟨2, _⟩ => rfl
  have w0 : d.window (ix3 b' l' hh) ⟨0, by decide⟩ = 0 := rfl
  have w1 : d.window (ix3 b' l' hh) ⟨1, by decide⟩ = 0 := rfl
  have w2 : d.window (ix3 b' l' hh) ⟨2, by decide⟩ = 0 := rfl
  have w3 : d.window (ix3 b' l' hh) ⟨3, by decide⟩ = hh.val := rfl
  have t0 : d.start (ix3 b' l' hh) idx ⟨0, by decide⟩ = (idx (ix3 b' l' 0)).toInt := by rw [← hsi 0]; rfl
  have t1 : d.start (ix3 b' l' hh) idx ⟨1, by decide⟩ = (idx (ix3 b' l' 1)).toInt := by rw [← hsi 1]; rfl
  have t2 : d.start (ix3 b' l' hh) idx ⟨2, by decide⟩ = (idx (ix3 b' l' 2)).toInt := by rw [← hsi 2]; rfl
  have t3 : d.start (ix3 b' l' hh) idx ⟨3, by decide⟩ = 0 := rfl
  have z0 : SO.size ⟨0, by decide⟩ = 32 := rfl
  have z1 : SO.size ⟨1, by decide⟩ = 33 := rfl
  have z2 : SO.size ⟨2, by decide⟩ = 12 := rfl
  have z3 : SO.size ⟨3, by decide⟩ = 1024 := rfl
  unfold ScatterDims.resultIdx?
  constructor
  · intro h
    split at h
    · next hr =>
      have hf := Option.some.inj h
      have c0 : (d.start (ix3 b' l' hh) idx ⟨0, by decide⟩ + (d.window (ix3 b' l' hh) ⟨0, by decide⟩ : ℕ)).toNat = b.val :=
        congrArg Fin.val (congrFun hf ⟨0, by decide⟩)
      have c1 : (d.start (ix3 b' l' hh) idx ⟨1, by decide⟩ + (d.window (ix3 b' l' hh) ⟨1, by decide⟩ : ℕ)).toNat = r.val :=
        congrArg Fin.val (congrFun hf ⟨1, by decide⟩)
      have c2 : (d.start (ix3 b' l' hh) idx ⟨2, by decide⟩ + (d.window (ix3 b' l' hh) ⟨2, by decide⟩ : ℕ)).toNat = p.val :=
        congrArg Fin.val (congrFun hf ⟨2, by decide⟩)
      have c3 : (d.start (ix3 b' l' hh) idx ⟨3, by decide⟩ + (d.window (ix3 b' l' hh) ⟨3, by decide⟩ : ℕ)).toNat = hh'.val :=
        congrArg Fin.val (congrFun hf ⟨3, by decide⟩)
      have r0 := (hr ⟨0, by decide⟩).1
      have r1 := (hr ⟨1, by decide⟩).1
      have r2 := (hr ⟨2, by decide⟩).1
      rw [t0, w0] at c0 r0
      rw [t1, w1] at c1 r1
      rw [t2, w2] at c2 r2
      rw [t3, w3] at c3
      refine ⟨⟨?_, ?_, ?_⟩, Fin.ext ?_⟩ <;> omega
    · exact absurd h (by simp)
  · rintro ⟨⟨e0, e1, e2⟩, e3⟩
    subst e3
    have hr : ∀ a, 0 ≤ d.start (ix3 b' l' hh) idx a + (d.window (ix3 b' l' hh) a : ℕ) ∧
        d.start (ix3 b' l' hh) idx a + (d.window (ix3 b' l' hh) a : ℕ) < (SO.size a : ℕ) := by
      intro a
      match a with
      | ⟨0, _⟩ => rw [t0, w0, e0, z0]; have := b.isLt; omega
      | ⟨1, _⟩ => rw [t1, w1, e1, z1]; have := r.isLt; omega
      | ⟨2, _⟩ => rw [t2, w2, e2, z2]; have := p.isLt; omega
      | ⟨3, _⟩ => rw [t3, w3, z3]; have := hh.isLt; omega
    rw [dif_pos hr]
    congr 1
    funext a; refine Fin.ext ?_
    match a with
    | ⟨0, _⟩ =>
      show (d.start (ix3 b' l' hh) idx ⟨0, by decide⟩ + (d.window (ix3 b' l' hh) ⟨0, by decide⟩ : ℕ)).toNat = b.val
      rw [t0, w0, e0]; omega
    | ⟨1, _⟩ =>
      show (d.start (ix3 b' l' hh) idx ⟨1, by decide⟩ + (d.window (ix3 b' l' hh) ⟨1, by decide⟩ : ℕ)).toNat = r.val
      rw [t1, w1, e1]; omega
    | ⟨2, _⟩ =>
      show (d.start (ix3 b' l' hh) idx ⟨2, by decide⟩ + (d.window (ix3 b' l' hh) ⟨2, by decide⟩ : ℕ)).toNat = p.val
      rw [t2, w2, e2]; omega
    | ⟨3, _⟩ =>
      show (d.start (ix3 b' l' hh) idx ⟨3, by decide⟩ + (d.window (ix3 b' l' hh) ⟨3, by decide⟩ : ℕ)).toNat = hh.val
      rw [t3, w3]; omega

/-- THE SCATTER OF ROWS READ AT `(b, r, p, h)` WHEN EXACTLY ONE UPDATE ROW `(b0, l0)` TARGETS `(b, r, p)`: the update's
    element `(b0, l0, h)`. -/
theorem scatter_set_hit (d : ScatterDims SO SI SU) (h1 : d.updateWindowDims = [2])
    (h2 : d.insertedWindowDims = [0, 1, 2]) (h3 : d.scatterDimsToOperandDims = [0, 1, 2]) (h4 : d.indexVectorDim = 2)
    (x : SO.Idx → α) (idx : IVec SI 32) (upd : SU.Idx → α) (b : Fin 32) (r : Fin 33) (p : Fin 12) (hh : Fin 1024)
    (b0 : Fin 32) (l0 : Fin 512) (hit : Targets idx b0 l0 b r p)
    (uniq : ∀ b' l', Targets idx b' l' b r p → b' = b0 ∧ l' = l0) :
    Host.scatter d (fun _ u => u) x idx upd (ix4 b r p hh) = upd (ix3 b0 l0 hh) := by
  refine scatter_set_apply_hit d x idx upd (ix4 b r p hh) (ix3 b0 l0 hh)
    ((resultIdx_eq_some_iff d h1 h2 h3 h4 idx b0 l0 hh b r p hh).2 ⟨hit, rfl⟩) ?_
  intro j hj
  rw [eq_ix3 j] at hj ⊢
  obtain ⟨ht, he⟩ := (resultIdx_eq_some_iff d h1 h2 h3 h4 idx (j 0) (j 1) (j 2) b r p hh).1 hj
  obtain ⟨hb, hl⟩ := uniq _ _ ht
  rw [hb, hl, he]
  rfl

/-- THE SCATTER OF ROWS READ AT `(b, r, p, h)` WHEN NO UPDATE ROW TARGETS `(b, r, p)`: the operand's element. -/
theorem scatter_set_miss (d : ScatterDims SO SI SU) (h1 : d.updateWindowDims = [2])
    (h2 : d.insertedWindowDims = [0, 1, 2]) (h3 : d.scatterDimsToOperandDims = [0, 1, 2]) (h4 : d.indexVectorDim = 2)
    (x : SO.Idx → α) (idx : IVec SI 32) (upd : SU.Idx → α) (b : Fin 32) (r : Fin 33) (p : Fin 12) (hh : Fin 1024)
    (miss : ∀ b' l', ¬ Targets idx b' l' b r p) :
    Host.scatter d (fun _ u => u) x idx upd (ix4 b r p hh) = x (ix4 b r p hh) := by
  refine scatter_set_apply_miss d x idx upd (ix4 b r p hh) ?_
  intro j hj
  rw [eq_ix3 j] at hj
  exact miss _ _ ((resultIdx_eq_some_iff d h1 h2 h3 h4 idx (j 0) (j 1) (j 2) b r p hh).1 hj).1

end Rows

end Cert.ScatterRows
-- ==== Proof.RefReads.lean ====
/- The reference line read index by index, over the reals: each of the two results of @main, and the intermediate
   tables the second one is scattered by, as elementwise statements about the line's buffers. -/
import proofs.«139113_j90056874263205_2_alg».proof.Proof.RefVals
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«139113_j90056874263205_2_alg».proof.Proof.LibScatterRows
import proofs.«139113_j90056874263205_2_alg».proof.Proof.RunSlots

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

-- the fold is never unrolled here: every step goes through the per-buffer equations
attribute [local irreducible] after

variable (V : Valuation τ sig (Elt Ideal))

/-- The first result at `(b, i, h)`: the gathered row's element times the row's mask bit as a real (the mask is
    broadcast along the last axis, converted, broadcast again, and multiplied in). -/
theorem read_v15 (b : Fin 32) (i : Fin 512) (h : Fin 1024) :
    after (ops (F := Ideal)) V (main_v15 : DevRef τ sig) (ix3 b i h)
      = @HMul.hMul (Ideal .f32) (Ideal .f32) (Ideal .f32) instHMul
          (after (ops (F := Ideal)) V (main_v10 : DevRef τ sig) (ix3 b i h))
          (FloatOps.uitofp (F := Ideal) (w := 1) .f32 (after (ops (F := Ideal)) V (main_v11 : DevRef τ sig) (ix2 b i))) := by
  rw [val_main_v15, val_main_v14, val_main_v13, val_main_v12]
  rw [mulf_apply]
  rw [broadcastInDim_apply _ _ _ _ (ix3 b i (0 : Fin 1)) (by intro a; fin_cases a <;> rfl)]
  show _ * FloatOps.uitofp (F := Ideal) .f32 _ = _
  rw [broadcastInDim_apply _ _ _ _ (ix2 b i) (by intro a; fin_cases a <;> rfl)]

/-! ## Small facts about words and folds -/

theorem toInt_ofNat_small (n : Nat) (h : n < 2 ^ 31) : (BitVec.ofNat 32 n).toInt = (n : Int) := by
  rw [BitVec.toInt_eq_toNat_of_lt (by simp [BitVec.toNat_ofNat]; omega)]
  simp [BitVec.toNat_ofNat]; omega

theorem slt_zero_of_nat (n : Nat) (h : n < 2 ^ 31) : IntOp.cmpi .slt (BitVec.ofNat 32 n) 0#32 = 0#1 := by
  refine eq_zero_of_ne_one fun h1 => ?_
  have h2 := IntOp.cmpi_slt.mp h1
  rw [toInt_ofNat_small n h] at h2
  have h3 : (0#32 : BitVec 32).toInt = 0 := by decide
  omega

theorem sge_zero_of_nat (n : Nat) (h : n < 2 ^ 31) : IntOp.cmpi .sge (BitVec.ofNat 32 n) 0#32 = 1#1 := by
  rw [IntOp.cmpi_sge, toInt_ofNat_small n h]
  have h3 : (0#32 : BitVec 32).toInt = 0 := by decide
  omega

theorem sle_of_nat (n m : Nat) (hn : n < 2 ^ 31) (hm : m < 2 ^ 31) (h : n ≤ m) :
    IntOp.cmpi .sle (BitVec.ofNat 32 n) (BitVec.ofNat 32 m) = 1#1 := by
  rw [IntOp.cmpi_sle, toInt_ofNat_small n hn, toInt_ofNat_small m hm]; omega

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from 1 is 1 at `j` when every operand element reducing into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hall : ∀ i, h.drop i = j → x i = 1#1) : Host.reduce IntOp.andi x init h hu j = 1#1 := by
  rw [Host.reduce_eq_foldl, hinit]
  refine foldl_andi_one x _ fun i hi => hall i ?_
  simpa using (List.mem_filter.mp hi).2

/-- The only index of a `[32, 512, 1]` array that drops to `(b, i)` when the unit axis is removed. -/
theorem drop_unit_eq (j : S32x512x1.Idx) (b : Fin 32) (i : Fin 512)
    (hj : reducesTo_S32x512x1_S32x512_d2.drop j = ix2 b i) : j = ix3 b i (0 : Fin 1) := by
  have e0 : (j 0).val = b.val := by
    rw [← Shape.ReducesTo.drop_apply_val_of_eq reducesTo_S32x512x1_S32x512_d2 j 0 0, hj]
  have e1 : (j 1).val = i.val := by
    rw [← Shape.ReducesTo.drop_apply_val_of_eq reducesTo_S32x512x1_S32x512_d2 j 1 1, hj]
  funext a
  refine Fin.ext ?_
  match a with
  | ⟨0, _⟩ => exact e0
  | ⟨1, _⟩ => exact e1
  | ⟨2, _⟩ => have := (j ⟨2, by decide⟩).isLt; change _ < 1 at this; change (j ⟨2, _⟩).val = 0; omega

/-! ## The gathered rows (the first result's first factor) -/

/-- The sorted order, with a unit axis appended. -/
theorem read_v9 (b : Fin 32) (i : Fin 512) :
    after (ops (F := Ideal)) V (main_v9 : DevRef τ sig) (ix3 b i (0 : Fin 1))
      = after (ops (F := Ideal)) V (main_v8 : DevRef τ sig) (ix2 b i) := by
  rw [val_main_v9, broadcastInDim_apply _ _ _ _ (ix2 b i) (by intro a; fin_cases a <;> rfl)]

/-- An index in `[0, 512)` is not negative, so the wrap-around of negative indices leaves it alone. -/
theorem read_call2_v4 (b : Fin 32) (i : Fin 512) (k : Fin 512)
    (hk : after (ops (F := Ideal)) V (main_v8 : DevRef τ sig) (ix2 b i) = BitVec.ofNat 32 k.val) :
    after (ops (F := Ideal)) V (main_call2_v4 : DevRef τ sig) (ix3 b i (0 : Fin 1)) = BitVec.ofNat 32 k.val := by
  rw [val_main_call2_v4, select_apply, read_v9, hk, val_main_call2_v1]
  show Scalar.select (IntOp.cmpi .slt _ _) _ _ = _
  rw [read_v9, hk, val_main_call2_v0, val_main_call2_c]
  show Scalar.select (IntOp.cmpi .slt (BitVec.ofNat 32 k.val) 0#32) _ _ = _
  rw [slt_zero_of_nat _ (by have := k.isLt; omega), select_zero]

/-- Both range tests hold at such an index, so the conjunction reduced over the unit axis is 1. -/
theorem read_call2_v11 (b : Fin 32) (i : Fin 512) (k : Fin 512)
    (hk : after (ops (F := Ideal)) V (main_v8 : DevRef τ sig) (ix2 b i) = BitVec.ofNat 32 k.val) :
    after (ops (F := Ideal)) V (main_call2_v11 : DevRef τ sig) (ix2 b i) = 1#1 := by
  rw [val_main_call2_v11]
  refine reduce_andi_one _ _ _ _ _ ?_ ?_
  · rw [val_main_call2_c_3]; rfl
  · intro j hj
    rw [drop_unit_eq j b i hj, val_main_call2_v10]
    show IntOp.andi _ _ = 1#1
    rw [IntOp.andi_eq_one]
    constructor
    · rw [val_main_call2_v6]
      show IntOp.cmpi .sge _ _ = 1#1
      rw [read_call2_v4 V b i k hk, val_main_call2_v5, val_main_call2_c_2]
      exact sge_zero_of_nat _ (by have := k.isLt; omega)
    · rw [val_main_call2_v9]
      show IntOp.cmpi .sle _ _ = 1#1
      rw [read_call2_v4 V b i k hk, val_main_call2_v8, val_main_call2_v7, val_main_call2_c_1]
      exact sle_of_nat k.val 511 (by have := k.isLt; omega) (by norm_num) (by have := k.isLt; omega)

/-- The gathered array at `(b, i, h)`, when row `(b, i)` of the sorted order names row `k`: the first argument's
    element at `(b, k, h)` (the index is in range, so the out-of-range fill is not taken). -/
theorem read_v10 (b : Fin 32) (i : Fin 512) (h : Fin 1024) (k : Fin 512)
    (hk : after (ops (F := Ideal)) V (main_v8 : DevRef τ sig) (ix2 b i) = BitVec.ofNat 32 k.val) :
    after (ops (F := Ideal)) V (main_v10 : DevRef τ sig) (ix3 b i h) = V (main_arg0 : DevRef τ sig) (ix3 b k h) := by
  rw [val_main_v10, select_apply, val_main_call2_v13,
    broadcastInDim_apply _ _ _ _ (ix2 b i) (by intro a; fin_cases a <;> rfl), read_call2_v11 V b i k hk, select_one,
    val_main_call2_v12, val_main_arg0]
  exact Cert.ScatterRows.gather_rows_apply _ rfl rfl rfl rfl rfl rfl rfl _ _ b i h k
    (by rw [read_call2_v4 V b i k hk]; exact toInt_ofNat_small _ (by have := k.isLt; omega))

/-- An index moved along an axis has the new coordinate on that axis. -/
theorem along_self {s : Shape} (j : s.Idx) (a : Fin s.rank) (k : Fin (s.size a)) : (j.along a k) a = k :=
  Function.update_self _ _ _

/-- The second component of a sort carrying the iota along the sorted axis: at every index some position of that
    axis (where the sort's permutation sends the index), as a word. The permutation itself is never looked at. -/
theorem sort2_snd_iota {α : Type} (cmp : α × BitVec 32 → α × BitVec 32 → BitVec 1) (x : S32x512.Idx → α)
    (j : S32x512.Idx) :
    ∃ k : Fin 512, (Host.sort2 S32x512 1 cmp x (iotaInDim S32x512 32 1)).2 j = BitVec.ofNat 32 k.val := by
  unfold Host.sort2
  rw [dif_pos (show 1 < S32x512.rank by decide)]
  dsimp only
  generalize sortedFrom _ _ = p
  have hd : 1 < S32x512.rank := by decide
  exact ⟨p, congrArg (fun q : Fin 512 => BitVec.ofNat 32 q.val) (along_self j ⟨1, hd⟩ p)⟩

/-- Every entry of the sorted order is a position of the row, as a word. -/
theorem read_v8 (b : Fin 32) (i : Fin 512) :
    ∃ k : Fin 512, after (ops (F := Ideal)) V (main_v8 : DevRef τ sig) (ix2 b i) = BitVec.ofNat 32 k.val := by
  rw [val_main_v8, val_main_call1_v0]
  exact sort2_snd_iota _ _ _

/-! ## The scatter's index table, component by component -/

/-- The batch coordinate column: an iota along the batch axis, as a `[32, 1]` array. -/
theorem read_v42 (b' : Fin 32) :
    after (ops (F := Ideal)) V (main_v42 : DevRef τ sig) (ix2 b' (0 : Fin 1)) = BitVec.ofNat 32 b'.val := by
  rw [val_main_v42, broadcastInDim_apply _ _ _ _ (ix1 b') (by intro a; fin_cases a; rfl), val_main_v41]
  rfl

/-- It is not negative, so the wrap-around of negative indices leaves it alone. -/
theorem read_v47 (b' : Fin 32) :
    after (ops (F := Ideal)) V (main_v47 : DevRef τ sig) (ix2 b' (0 : Fin 1)) = BitVec.ofNat 32 b'.val := by
  rw [val_main_v47, select_apply, val_main_v44]
  show Scalar.select (IntOp.cmpi .slt _ _) _ _ = _
  rw [read_v42 V, val_main_v43, val_main_c_10]
  show Scalar.select (IntOp.cmpi .slt (BitVec.ofNat 32 b'.val) 0#32) _ _ = _
  rw [slt_zero_of_nat _ (by have := b'.isLt; omega), select_zero]

/-- The table's three columns before they are joined: the batch, the (wrapped) run identifier, the (wrapped) slot. -/
theorem read_v59 (b' : Fin 32) (l' : Fin 512) :
    after (ops (F := Ideal)) V (main_v59 : DevRef τ sig) (ix3 b' l' (0 : Fin 1)) = BitVec.ofNat 32 b'.val := by
  rw [val_main_v59, broadcastInDim_apply _ _ _ _ (ix2 b' l') (by intro a; fin_cases a <;> rfl), val_main_v58,
    broadcastInDim_apply _ _ _ _ (ix2 b' (0 : Fin 1)) (by intro a; fin_cases a <;> rfl), read_v47 V]

theorem read_v60 (b' : Fin 32) (l' : Fin 512) :
    after (ops (F := Ideal)) V (main_v60 : DevRef τ sig) (ix3 b' l' (0 : Fin 1))
      = after (ops (F := Ideal)) V (main_v52 : DevRef τ sig) (ix2 b' l') := by
  rw [val_main_v60, broadcastInDim_apply _ _ _ _ (ix2 b' l') (by intro a; fin_cases a <;> rfl)]

theorem read_v61 (b' : Fin 32) (l' : Fin 512) :
    after (ops (F := Ideal)) V (main_v61 : DevRef τ sig) (ix3 b' l' (0 : Fin 1))
      = after (ops (F := Ideal)) V (main_v57 : DevRef τ sig) (ix2 b' l') := by
  rw [val_main_v61, broadcastInDim_apply _ _ _ _ (ix2 b' l') (by intro a; fin_cases a <;> rfl)]

/-- The joined table read at component 0, 1, 2: the three columns. -/
theorem read_v62_0 (b' : Fin 32) (l' : Fin 512) :
    after (ops (F := Ideal)) V (main_v62 : DevRef τ sig) (ix3 b' l' (0 : Fin 3))
      = after (ops (F := Ideal)) V (main_v59 : DevRef τ sig) (ix3 b' l' (0 : Fin 1)) := by
  rw [val_main_v62]
  refine concatenate_apply_piece (t := S32x512x3) 2 _ _
    (ix3 b' l' 0) 0 ?_ S32x512x1 _ rfl rfl 0 rfl (ix3 b' l' 0) ?_ rfl
  · exact (by omega : (0 : Nat) < 3)
  · intro c hc; fin_cases c <;> first | rfl | exact absurd rfl hc

theorem read_v62_1 (b' : Fin 32) (l' : Fin 512) :
    after (ops (F := Ideal)) V (main_v62 : DevRef τ sig) (ix3 b' l' (1 : Fin 3))
      = after (ops (F := Ideal)) V (main_v60 : DevRef τ sig) (ix3 b' l' (0 : Fin 1)) := by
  rw [val_main_v62]
  refine concatenate_apply_piece (t := S32x512x3) 2 _ _
    (ix3 b' l' 1) 1 ?_ S32x512x1 _ rfl rfl 1 rfl (ix3 b' l' 0) ?_ rfl
  · exact (by omega : (1 : Nat) < 3)
  · intro c hc; fin_cases c <;> first | rfl | exact absurd rfl hc

theorem read_v62_2 (b' : Fin 32) (l' : Fin 512) :
    after (ops (F := Ideal)) V (main_v62 : DevRef τ sig) (ix3 b' l' (2 : Fin 3))
      = after (ops (F := Ideal)) V (main_v61 : DevRef τ sig) (ix3 b' l' (0 : Fin 1)) := by
  rw [val_main_v62]
  refine concatenate_apply_piece (t := S32x512x3) 2 _ _
    (ix3 b' l' 2) 2 ?_ S32x512x1 _ rfl rfl 2 rfl (ix3 b' l' 0) ?_ rfl
  · exact (by omega : (2 : Nat) < 3)
  · intro c hc; fin_cases c <;> first | rfl | exact absurd rfl hc

/-- Update row `(b', l')` targets the operand's row `(b, r, p)` exactly when it is a row of batch `b` whose wrapped
    run identifier is `r` and whose wrapped slot is `p`. -/
theorem targets_iff (b' b : Fin 32) (l' : Fin 512) (r : Fin 33) (p : Fin 12) :
    Cert.ScatterRows.Targets (after (ops (F := Ideal)) V (main_v62 : DevRef τ sig)) b' l' b r p
      ↔ b' = b ∧ (after (ops (F := Ideal)) V (main_v52 : DevRef τ sig) (ix2 b' l')).toInt = r.val
          ∧ (after (ops (F := Ideal)) V (main_v57 : DevRef τ sig) (ix2 b' l')).toInt = p.val := by
  unfold Cert.ScatterRows.Targets
  rw [read_v62_0 V, read_v62_1 V, read_v62_2 V, read_v59 V, read_v60 V, read_v61 V,
    toInt_ofNat_small _ (by have := b'.isLt; omega)]
  constructor
  · rintro ⟨h0, h1, h2⟩
    exact ⟨Fin.ext (by exact_mod_cast h0), h1, h2⟩
  · rintro ⟨rfl, h1, h2⟩
    exact ⟨rfl, h1, h2⟩

/-! ## The second result: the scattered rows, cut to the first 32 runs -/

/-- The array scattered into is zero everywhere. -/
theorem read_v40 (j : S32x33x12x1024.Idx) :
    after (ops (F := Ideal)) V (main_v40 : DevRef τ sig) j = (0 : Ideal .f32) := by
  rw [val_main_v40, broadcastInDim_apply _ _ _ _ ix0 (by intro a; exact a.elim0), val_main_cst]
  exact Ideal.ofBits_zero_f32

/-- The second result at `(b, r, p, h)` when exactly one update row `(b0, l0)` targets `(b, r, p)`: the first
    argument's element at `(b0, l0, h)`. -/
theorem read_v64_hit (b : Fin 32) (r : Fin 32) (p : Fin 12) (h : Fin 1024) (b0 : Fin 32) (l0 : Fin 512)
    (hit : Cert.ScatterRows.Targets (after (ops (F := Ideal)) V (main_v62 : DevRef τ sig)) b0 l0 b ⟨r.val, by omega⟩ p)
    (uniq : ∀ b' l', Cert.ScatterRows.Targets (after (ops (F := Ideal)) V (main_v62 : DevRef τ sig)) b' l' b ⟨r.val, by omega⟩ p
      → b' = b0 ∧ l' = l0) :
    after (ops (F := Ideal)) V (main_v64 : DevRef τ sig) (ix4 b r p h) = V (main_arg0 : DevRef τ sig) (ix3 b0 l0 h) := by
  rw [val_main_v64]
  refine (extractStridedSlice_apply _ _ _ _ (ix4 b (⟨r.val, by omega⟩ : Fin 33) p h) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)).trans ?_
  rw [val_main_v63, val_main_arg0]
  exact Cert.ScatterRows.scatter_set_hit _ rfl rfl rfl rfl _ _ _ b ⟨r.val, by omega⟩ p h b0 l0 hit uniq

/-- The second result at `(b, r, p, h)` when no update row targets `(b, r, p)`: zero. -/
theorem read_v64_miss (b : Fin 32) (r : Fin 32) (p : Fin 12) (h : Fin 1024)
    (miss : ∀ b' l', ¬ Cert.ScatterRows.Targets (after (ops (F := Ideal)) V (main_v62 : DevRef τ sig)) b' l' b ⟨r.val, by omega⟩ p) :
    after (ops (F := Ideal)) V (main_v64 : DevRef τ sig) (ix4 b r p h) = (0 : Ideal .f32) := by
  rw [val_main_v64]
  refine (extractStridedSlice_apply _ _ _ _ (ix4 b (⟨r.val, by omega⟩ : Fin 33) p h) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)).trans ?_
  rw [val_main_v63]
  exact (Cert.ScatterRows.scatter_set_miss _ rfl rfl rfl rfl _ _ _ b ⟨r.val, by omega⟩ p h miss).trans (read_v40 V _)

/-! ## The run bookkeeping, pointwise -/

/-- The arrays the reference builds between the segment identifiers and the scatter's table, described entry by
    entry: header marks, their right shift, run starts and their prefix count, the run identifier, the column markers
    and their prefix maximum, the distance to it, and the validity mask. -/
theorem hyps :
    Cert.RunSlots.Hyps (V (main_arg1 : DevRef τ sig)) (after (ops (F := Ideal)) V (main_v17 : DevRef τ sig))
      (after (ops (F := Ideal)) V (main_v19 : DevRef τ sig)) (after (ops (F := Ideal)) V (main_v21 : DevRef τ sig))
      (after (ops (F := Ideal)) V (main_v37 : DevRef τ sig)) (after (ops (F := Ideal)) V (main_v22 : DevRef τ sig))
      (after (ops (F := Ideal)) V (main_v23 : DevRef τ sig)) (after (ops (F := Ideal)) V (main_v25 : DevRef τ sig))
      (after (ops (F := Ideal)) V (main_v27 : DevRef τ sig)) (after (ops (F := Ideal)) V (main_v28 : DevRef τ sig))
      (after (ops (F := Ideal)) V (main_v31 : DevRef τ sig)) (after (ops (F := Ideal)) V (main_call5_call0_v0 : DevRef τ sig))
      (after (ops (F := Ideal)) V (main_call7_v0 : DevRef τ sig))
      reduceWindows_S32x512_S32x512_w1s1p0_0_w512s1p511_0 h_S_ where
  h_isH j := by
    rw [val_main_v17, val_main_arg1, val_main_v16, val_main_c_1]; rfl
  h_prev0 b := by
    rw [val_main_v19, pad_apply_of_not_inside _ _ _ _ _ _ _ (ix2 b (0 : Fin 512)) 1
      (fun hin => absurd hin.1 (by decide : ¬ ((1 : Nat) ≤ 0))),
      val_main_call4_v2, val_main_call4_v1, val_main_c_2, val_main_call4_v0, val_main_call4_c]
    rfl
  h_prevS b l := by
    rw [val_main_v19, pad_apply_of_inside _ _ _ _ _ _ _ _ (ix2 b l) (fun a => by
      match a with
      | ⟨0, _⟩ => show b.val = 0 + b.val * (0 + 1); omega
      | ⟨1, _⟩ => show l.val + 1 = 1 + l.val * (0 + 1); omega),
      val_main_v18, extractStridedSlice_apply _ _ _ _ (ix2 b ⟨l.val, by omega⟩) (fun a => by
      match a with
      | ⟨0, _⟩ => exact (Nat.zero_add _).symm
      | ⟨1, _⟩ => exact (Nat.zero_add _).symm)]
  h_rs j := by
    rw [val_main_v21, val_main_v20]; rfl
  h_rsI j := by
    rw [val_main_v22]; rfl
  hz0 i := by
    rw [val_main_call5_call0_v0, val_main_call5_call0_c]; rfl
  hzmin i := by
    rw [val_main_call7_v0, val_main_call7_c]; rfl
  h_cs := val_main_v23 V
  h_runId j := by
    rw [val_main_v25, val_main_v24, val_main_c_3]; rfl
  h_wv b l := by
    rw [val_main_v27, select_apply, val_main_call6_v1,
      broadcastInDim_apply _ _ _ _ (ix2 (0 : Fin 1) l) (by intro a; fin_cases a <;> rfl), val_main_v26,
      broadcastInDim_apply _ _ _ _ (ix1 l) (by intro a; fin_cases a; rfl), val_main_v0,
      val_main_call6_v2, val_main_call6_v0, val_main_c_4]
    rfl
  h_cm := val_main_v28 V
  h_pos b l := by
    rw [val_main_v31]
    show IntOp.subi _ _ = _
    rw [val_main_v30, broadcastInDim_apply _ _ _ _ (ix2 (0 : Fin 1) l) (by intro a; fin_cases a <;> rfl), val_main_v29,
      broadcastInDim_apply _ _ _ _ (ix1 l) (by intro a; fin_cases a; rfl), val_main_v0]
    rfl
  h_valid j := by
    rw [val_main_v37, val_main_v34, val_main_v33, val_main_v32, val_main_c_5, val_main_v36, val_main_v35, val_main_c_6]
    rfl

/-- The run identifier kept at valid positions, the out-of-range row 32 elsewhere. -/
theorem read_v38 (j : S32x512.Idx) :
    after (ops (F := Ideal)) V (main_v38 : DevRef τ sig) j
      = Scalar.select (after (ops (F := Ideal)) V (main_v37 : DevRef τ sig) j)
          (after (ops (F := Ideal)) V (main_v25 : DevRef τ sig) j) 32#32 := by
  rw [val_main_v38, val_main_call8_v1, val_main_call8_v0, val_main_c_7]; rfl

/-- The distance to the run start, clamped into `[0, 11]`. -/
theorem read_v39 (j : S32x512.Idx) :
    after (ops (F := Ideal)) V (main_v39 : DevRef τ sig) j
      = IntOp.minsi 11#32 (IntOp.maxsi 0#32 (after (ops (F := Ideal)) V (main_v31 : DevRef τ sig) j)) := by
  rw [val_main_v39, val_main_call9_v4, val_main_call9_v3, val_main_c_9, val_main_call9_v2, val_main_call9_v1,
    val_main_call9_v0, val_main_c_8]
  rfl

/-- The run identifier with negative values wrapped by the extent 33. -/
theorem read_v52 (j : S32x512.Idx) :
    after (ops (F := Ideal)) V (main_v52 : DevRef τ sig) j
      = Scalar.select (IntOp.cmpi .slt (after (ops (F := Ideal)) V (main_v38 : DevRef τ sig) j) 0#32)
          (IntOp.addi (after (ops (F := Ideal)) V (main_v38 : DevRef τ sig) j) 33#32)
          (after (ops (F := Ideal)) V (main_v38 : DevRef τ sig) j) := by
  rw [val_main_v52, val_main_v49, val_main_v48, val_main_c_12, val_main_v51, val_main_v50, val_main_c_13]; rfl

/-- The slot with negative values wrapped by the extent 12. -/
theorem read_v57 (j : S32x512.Idx) :
    after (ops (F := Ideal)) V (main_v57 : DevRef τ sig) j
      = Scalar.select (IntOp.cmpi .slt (after (ops (F := Ideal)) V (main_v39 : DevRef τ sig) j) 0#32)
          (IntOp.addi (after (ops (F := Ideal)) V (main_v39 : DevRef τ sig) j) 12#32)
          (after (ops (F := Ideal)) V (main_v39 : DevRef τ sig) j) := by
  rw [val_main_v57, val_main_v54, val_main_v53, val_main_c_14, val_main_v56, val_main_v55, val_main_c_15]; rfl

end Cert.ReferenceIdeal.HandRun

end
-- ==== Proof.KVals2.lean ====
/- Three more buffers of the host prefix, read when the region starts: the select that wraps the sort's permutation into
   range and the two comparisons of the reshaped row indices against the bounds. Same statement and same computation as
   the equations of the first file; the elementwise operations are kept folded as well here, so that the two sides are
   compared operand by operand and never point by point (compared point by point, each point re-runs the whole fold of
   results for each operand, which is what made these three slow). -/
import proofs.«139113_j90056874263205_2_alg».proof.Proof.KVals

noncomputable section

namespace Cert.KernelIdeal.KVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduceWindow Host.gather Host.scatter Host.sort2 pad cmpi select andi addi subi muli noti extui uitofp broadcastInDim iotaInDim constantI extractStridedSlice

set_option maxRecDepth 8192 in
set_option maxHeartbeats 1000000 in
theorem val_main_call2_v4 (c : Dev nD) :
    V m c main_call2_v4 = (select (V m c main_call2_v1) (V m c main_call2_v3) (V m c main_v8) : (⟨S32x512, .i32⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v7 (c : Dev nD) :
    V m c main_call2_v7 = ((cmpi .sge) (V m c main_call2_v5) (V m c main_call2_v6) : (⟨S32x512x1, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

set_option maxRecDepth 8192 in
set_option maxHeartbeats 1000000 in
theorem val_main_call2_v10 (c : Dev nD) :
    V m c main_call2_v10 = ((cmpi .sle) (V m c main_call2_v5) (V m c main_call2_v9) : (⟨S32x512x1, .i1⟩ : BufTy).Contents (Elt F)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  simp only [after_cons, after_nil]
  rfl

end Cert.KernelIdeal.KVals

end
-- ==== Proof.Shared.lean ====
/-
  The two programs compute the sort order and the gathered question mask by the same operations from the same
  segment array; so, buffer by buffer along that chain, what the kernel program holds when its region starts is what
  the reference holds after its run.
-/
import proofs.«139113_j90056874263205_2_alg».proof.Proof.KVals
import proofs.«139113_j90056874263205_2_alg».proof.Proof.RefVals
import Idealize.ShloMosaic.PureOps.Ideal
import proofs.«139113_j90056874263205_2_alg».proof.Proof.KVals2

noncomputable section

namespace Cert.Shared

open Idealize.ShloMosaic Idealize.ShloMosaic.TcCoe Idealize.SL.Sem Idealize.ShloMosaic.StableHlo

abbrev KM := (ℓ : Loc Cert.KernelIdeal.nD Cert.KernelIdeal.τ Cert.KernelIdeal.sig) → Buf (Elt Ideal) ℓ
abbrev RM := (ℓ : Loc Cert.ReferenceIdeal.nD Cert.ReferenceIdeal.τ Cert.ReferenceIdeal.sig) → Buf (Elt Ideal) ℓ

theorem cmp_eq : Cert.KernelIdeal.comparator_i32_i32_d1 = Cert.ReferenceIdeal.comparator_i32_i32_d1 := rfl
theorem gather_eq : Cert.KernelIdeal.gather_S32x512_S32x512x1_S32x512_n_1_0_0_1_2_11 = Cert.ReferenceIdeal.gather_S32x512_S32x512x1_S32x512_n_1_0_0_1_2_11 := rfl

variable (m : KM) (m' : RM) (c : Dev 1)
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h1 in
theorem sh_main_arg1 : (Cert.KernelIdeal.Gen.V m c Cert.KernelIdeal.main_arg1) = (after (Cert.ReferenceIdeal.HandRun.ops (F := Ideal)) (launchContents m' c) (Cert.ReferenceIdeal.main_arg1 : DevRef Cert.ReferenceIdeal.τ Cert.ReferenceIdeal.sig)) := by
  rw [Cert.KernelIdeal.Gen.V_main_arg1, Cert.ReferenceIdeal.HandRun.val_main_arg1]
  exact h1.symm

include h1 in
theorem sh_main_v0 : (Cert.KernelIdeal.Gen.V m c Cert.KernelIdeal.main_v0) = (after (Cert.ReferenceIdeal.HandRun.ops (F := Ideal)) (launchContents m' c) (Cert.ReferenceIdeal.main_v0 : DevRef Cert.ReferenceIdeal.τ Cert.ReferenceIdeal.sig)) := by
  rw [Cert.KernelIdeal.KVals.val_main_v0 m c, Cert.ReferenceIdeal.HandRun.val_main_v0]

include h1 in
theorem sh_main_c : (Cert.KernelIdeal.Gen.V m c Cert.KernelIdeal.main_c) = (after (Cert.ReferenceIdeal.HandRun.ops (F := Ideal)) (launchContents m' c) (Cert.ReferenceIdeal.main_c : DevRef Cert.ReferenceIdeal.τ Cert.ReferenceIdeal.sig)) := by
  rw [Cert.KernelIdeal.KVals.val_main_c m c, Cert.ReferenceIdeal.HandRun.val_main_c]

include h1 in
theorem sh_main_v1 : (Cert.KernelIdeal.Gen.V m c Cert.KernelIdeal.main_v1) = (after (Cert.ReferenceIdeal.HandRun.ops (F := Ideal)) (launchContents m' c) (Cert.ReferenceIdeal.main_v1 : DevRef Cert.ReferenceIdeal.τ Cert.ReferenceIdeal.sig)) := by
  rw [Cert.KernelIdeal.KVals.val_main_v1 m c, Cert.ReferenceIdeal.HandRun.val_main_v1, sh_main_c m m' c h1]

include h1 in
theorem sh_main_v2 : (Cert.KernelIdeal.Gen.V m c Cert.KernelIdeal.main_v2) = (after (Cert.ReferenceIdeal.HandRun.ops (F := Ideal)) (launchContents m' c) (Cert.ReferenceIdeal.main_v2 : DevRef Cert.ReferenceIdeal.τ Cert.ReferenceIdeal.sig)) := by
  rw [Cert.KernelIdeal.KVals.val_main_v2 m c, Cert.ReferenceIdeal.HandRun.val_main_v2, sh_main_arg1 m m' c h1, sh_main_v1 m m' c h1]

include h1 in
theorem sh_main_v3 : (Cert.KernelIdeal.Gen.V m c Cert.KernelIdeal.main_v3) = (after (Cert.ReferenceIdeal.HandRun.ops (F := Ideal)) (launchContents m' c) (Cert.ReferenceIdeal.main_v3 : DevRef Cert.ReferenceIdeal.τ Cert.ReferenceIdeal.sig)) := by
  rw [Cert.KernelIdeal.KVals.val_main_v3 m c, Cert.ReferenceIdeal.HandRun.val_main_v3, sh_main_v0 m m' c h1]

include h1 in
theorem sh_main_v4 : (Cert.KernelIdeal.Gen.V m c Cert.KernelIdeal.main_v4) = (after (Cert.ReferenceIdeal.HandRun.ops (F := Ideal)) (launchContents m' c) (Cert.ReferenceIdeal.main_v4 : DevRef Cert.ReferenceIdeal.τ Cert.ReferenceIdeal.sig)) := by
  rw [Cert.KernelIdeal.KVals.val_main_v4 m c, Cert.ReferenceIdeal.HandRun.val_main_v4, sh_main_v0 m m' c h1]

include h1 in
theorem sh_main_c_0 : (Cert.KernelIdeal.Gen.V m c Cert.KernelIdeal.main_c_0) = (after (Cert.ReferenceIdeal.HandRun.ops (F := Ideal)) (launchContents m' c) (Cert.ReferenceIdeal.main_c_0 : DevRef Cert.ReferenceIdeal.τ Cert.ReferenceIdeal.sig)) := by
  rw [Cert.KernelIdeal.KVals.val_main_c_0 m c, Cert.ReferenceIdeal.HandRun.val_main_c_0]

include h1 in
theorem sh_main_v5 : (Cert.KernelIdeal.Gen.V m c Cert.KernelIdeal.main_v5) = (after (Cert.ReferenceIdeal.HandRun.ops (F := Ideal)) (launchContents m' c) (Cert.ReferenceIdeal.main_v5 : DevRef Cert.ReferenceIdeal.τ Cert.ReferenceIdeal.sig)) := by
  rw [Cert.KernelIdeal.KVals.val_main_v5 m c, Cert.ReferenceIdeal.HandRun.val_main_v5, sh_main_c_0 m m' c h1]

include h1 in
theorem sh_main_v6 : (Cert.KernelIdeal.Gen.V m c Cert.KernelIdeal.main_v6) = (after (Cert.ReferenceIdeal.HandRun.ops (F := Ideal)) (launchContents m' c) (Cert.ReferenceIdeal.main_v6 : DevRef Cert.ReferenceIdeal.τ Cert.ReferenceIdeal.sig)) := by
  rw [Cert.KernelIdeal.KVals.val_main_v6 m c, Cert.ReferenceIdeal.HandRun.val_main_v6, sh_main_v5 m m' c h1, sh_main_v4 m m' c h1]

include h1 in
theorem sh_main_call0_v0 : (Cert.KernelIdeal.Gen.V m c Cert.KernelIdeal.main_call0_v0) = (after (Cert.ReferenceIdeal.HandRun.ops (F := Ideal)) (launchContents m' c) (Cert.ReferenceIdeal.main_call0_v0 : DevRef Cert.ReferenceIdeal.τ Cert.ReferenceIdeal.sig)) := by
  rw [Cert.KernelIdeal.KVals.val_main_call0_v0 m c, Cert.ReferenceIdeal.HandRun.val_main_call0_v0, sh_main_v3 m m' c h1]

include h1 in
theorem sh_main_call0_v1 : (Cert.KernelIdeal.Gen.V m c Cert.KernelIdeal.main_call0_v1) = (after (Cert.ReferenceIdeal.HandRun.ops (F := Ideal)) (launchContents m' c) (Cert.ReferenceIdeal.main_call0_v1 : DevRef Cert.ReferenceIdeal.τ Cert.ReferenceIdeal.sig)) := by
  rw [Cert.KernelIdeal.KVals.val_main_call0_v1 m c, Cert.ReferenceIdeal.HandRun.val_main_call0_v1, sh_main_v6 m m' c h1]

include h1 in
theorem sh_main_v7 : (Cert.KernelIdeal.Gen.V m c Cert.KernelIdeal.main_v7) = (after (Cert.ReferenceIdeal.HandRun.ops (F := Ideal)) (launchContents m' c) (Cert.ReferenceIdeal.main_v7 : DevRef Cert.ReferenceIdeal.τ Cert.ReferenceIdeal.sig)) := by
  rw [Cert.KernelIdeal.KVals.val_main_v7 m c, Cert.ReferenceIdeal.HandRun.val_main_v7, sh_main_v2 m m' c h1, sh_main_call0_v0 m m' c h1, sh_main_call0_v1 m m' c h1]

include h1 in
theorem sh_main_call1_v0 : (Cert.KernelIdeal.Gen.V m c Cert.KernelIdeal.main_call1_v0) = (after (Cert.ReferenceIdeal.HandRun.ops (F := Ideal)) (launchContents m' c) (Cert.ReferenceIdeal.main_call1_v0 : DevRef Cert.ReferenceIdeal.τ Cert.ReferenceIdeal.sig)) := by
  rw [Cert.KernelIdeal.KVals.val_main_call1_v0 m c, Cert.ReferenceIdeal.HandRun.val_main_call1_v0]

include h1 in
theorem sh_main_v8 : (Cert.KernelIdeal.Gen.V m c Cert.KernelIdeal.main_v8) = (after (Cert.ReferenceIdeal.HandRun.ops (F := Ideal)) (launchContents m' c) (Cert.ReferenceIdeal.main_v8 : DevRef Cert.ReferenceIdeal.τ Cert.ReferenceIdeal.sig)) := by
  rw [Cert.KernelIdeal.KVals.val_main_v8 m c, Cert.ReferenceIdeal.HandRun.val_main_v8, sh_main_v7 m m' c h1, sh_main_call1_v0 m m' c h1]
  rw [cmp_eq]

include h1 in
theorem sh_main_call2_c : (Cert.KernelIdeal.Gen.V m c Cert.KernelIdeal.main_call2_c) = (after (Cert.ReferenceIdeal.HandRun.ops (F := Ideal)) (launchContents m' c) (Cert.ReferenceIdeal.main_call3_c : DevRef Cert.ReferenceIdeal.τ Cert.ReferenceIdeal.sig)) := by
  rw [Cert.KernelIdeal.KVals.val_main_call2_c m c, Cert.ReferenceIdeal.HandRun.val_main_call3_c]

include h1 in
theorem sh_main_call2_v0 : (Cert.KernelIdeal.Gen.V m c Cert.KernelIdeal.main_call2_v0) = (after (Cert.ReferenceIdeal.HandRun.ops (F := Ideal)) (launchContents m' c) (Cert.ReferenceIdeal.main_call3_v0 : DevRef Cert.ReferenceIdeal.τ Cert.ReferenceIdeal.sig)) := by
  rw [Cert.KernelIdeal.KVals.val_main_call2_v0 m c, Cert.ReferenceIdeal.HandRun.val_main_call3_v0, sh_main_call2_c m m' c h1]

include h1 in
theorem sh_main_call2_v1 : (Cert.KernelIdeal.Gen.V m c Cert.KernelIdeal.main_call2_v1) = (after (Cert.ReferenceIdeal.HandRun.ops (F := Ideal)) (launchContents m' c) (Cert.ReferenceIdeal.main_call3_v1 : DevRef Cert.ReferenceIdeal.τ Cert.ReferenceIdeal.sig)) := by
  rw [Cert.KernelIdeal.KVals.val_main_call2_v1 m c, Cert.ReferenceIdeal.HandRun.val_main_call3_v1, sh_main_v8 m m' c h1, sh_main_call2_v0 m m' c h1]

include h1 in
theorem sh_main_call2_c_0 : (Cert.KernelIdeal.Gen.V m c Cert.KernelIdeal.main_call2_c_0) = (after (Cert.ReferenceIdeal.HandRun.ops (F := Ideal)) (launchContents m' c) (Cert.ReferenceIdeal.main_call3_c_0 : DevRef Cert.ReferenceIdeal.τ Cert.ReferenceIdeal.sig)) := by
  rw [Cert.KernelIdeal.KVals.val_main_call2_c_0 m c, Cert.ReferenceIdeal.HandRun.val_main_call3_c_0]

include h1 in
theorem sh_main_call2_v2 : (Cert.KernelIdeal.Gen.V m c Cert.KernelIdeal.main_call2_v2) = (after (Cert.ReferenceIdeal.HandRun.ops (F := Ideal)) (launchContents m' c) (Cert.ReferenceIdeal.main_call3_v2 : DevRef Cert.ReferenceIdeal.τ Cert.ReferenceIdeal.sig)) := by
  rw [Cert.KernelIdeal.KVals.val_main_call2_v2 m c, Cert.ReferenceIdeal.HandRun.val_main_call3_v2, sh_main_call2_c_0 m m' c h1]

include h1 in
theorem sh_main_call2_v3 : (Cert.KernelIdeal.Gen.V m c Cert.KernelIdeal.main_call2_v3) = (after (Cert.ReferenceIdeal.HandRun.ops (F := Ideal)) (launchContents m' c) (Cert.ReferenceIdeal.main_call3_v3 : DevRef Cert.ReferenceIdeal.τ Cert.ReferenceIdeal.sig)) := by
  rw [Cert.KernelIdeal.KVals.val_main_call2_v3 m c, Cert.ReferenceIdeal.HandRun.val_main_call3_v3, sh_main_v8 m m' c h1, sh_main_call2_v2 m m' c h1]

include h1 in
theorem sh_main_call2_v4 : (Cert.KernelIdeal.Gen.V m c Cert.KernelIdeal.main_call2_v4) = (after (Cert.ReferenceIdeal.HandRun.ops (F := Ideal)) (launchContents m' c) (Cert.ReferenceIdeal.main_call3_v4 : DevRef Cert.ReferenceIdeal.τ Cert.ReferenceIdeal.sig)) := by
  rw [Cert.KernelIdeal.KVals.val_main_call2_v4 m c, Cert.ReferenceIdeal.HandRun.val_main_call3_v4, sh_main_call2_v1 m m' c h1, sh_main_call2_v3 m m' c h1, sh_main_v8 m m' c h1]

include h1 in
theorem sh_main_call2_v5 : (Cert.KernelIdeal.Gen.V m c Cert.KernelIdeal.main_call2_v5) = (after (Cert.ReferenceIdeal.HandRun.ops (F := Ideal)) (launchContents m' c) (Cert.ReferenceIdeal.main_call3_v5 : DevRef Cert.ReferenceIdeal.τ Cert.ReferenceIdeal.sig)) := by
  rw [Cert.KernelIdeal.KVals.val_main_call2_v5 m c, Cert.ReferenceIdeal.HandRun.val_main_call3_v5, sh_main_call2_v4 m m' c h1]

include h1 in
theorem sh_main_call2_c_1 : (Cert.KernelIdeal.Gen.V m c Cert.KernelIdeal.main_call2_c_1) = (after (Cert.ReferenceIdeal.HandRun.ops (F := Ideal)) (launchContents m' c) (Cert.ReferenceIdeal.main_call3_c_1 : DevRef Cert.ReferenceIdeal.τ Cert.ReferenceIdeal.sig)) := by
  rw [Cert.KernelIdeal.KVals.val_main_call2_c_1 m c, Cert.ReferenceIdeal.HandRun.val_main_call3_c_1]

include h1 in
theorem sh_main_call2_c_2 : (Cert.KernelIdeal.Gen.V m c Cert.KernelIdeal.main_call2_c_2) = (after (Cert.ReferenceIdeal.HandRun.ops (F := Ideal)) (launchContents m' c) (Cert.ReferenceIdeal.main_call3_c_2 : DevRef Cert.ReferenceIdeal.τ Cert.ReferenceIdeal.sig)) := by
  rw [Cert.KernelIdeal.KVals.val_main_call2_c_2 m c, Cert.ReferenceIdeal.HandRun.val_main_call3_c_2]

include h1 in
theorem sh_main_call2_v6 : (Cert.KernelIdeal.Gen.V m c Cert.KernelIdeal.main_call2_v6) = (after (Cert.ReferenceIdeal.HandRun.ops (F := Ideal)) (launchContents m' c) (Cert.ReferenceIdeal.main_call3_v6 : DevRef Cert.ReferenceIdeal.τ Cert.ReferenceIdeal.sig)) := by
  rw [Cert.KernelIdeal.KVals.val_main_call2_v6 m c, Cert.ReferenceIdeal.HandRun.val_main_call3_v6, sh_main_call2_c_2 m m' c h1]

include h1 in
theorem sh_main_call2_v7 : (Cert.KernelIdeal.Gen.V m c Cert.KernelIdeal.main_call2_v7) = (after (Cert.ReferenceIdeal.HandRun.ops (F := Ideal)) (launchContents m' c) (Cert.ReferenceIdeal.main_call3_v7 : DevRef Cert.ReferenceIdeal.τ Cert.ReferenceIdeal.sig)) := by
  rw [Cert.KernelIdeal.KVals.val_main_call2_v7 m c, Cert.ReferenceIdeal.HandRun.val_main_call3_v7, sh_main_call2_v5 m m' c h1, sh_main_call2_v6 m m' c h1]

include h1 in
theorem sh_main_call2_v8 : (Cert.KernelIdeal.Gen.V m c Cert.KernelIdeal.main_call2_v8) = (after (Cert.ReferenceIdeal.HandRun.ops (F := Ideal)) (launchContents m' c) (Cert.ReferenceIdeal.main_call3_v8 : DevRef Cert.ReferenceIdeal.τ Cert.ReferenceIdeal.sig)) := by
  rw [Cert.KernelIdeal.KVals.val_main_call2_v8 m c, Cert.ReferenceIdeal.HandRun.val_main_call3_v8, sh_main_call2_c_1 m m' c h1]

include h1 in
theorem sh_main_call2_v9 : (Cert.KernelIdeal.Gen.V m c Cert.KernelIdeal.main_call2_v9) = (after (Cert.ReferenceIdeal.HandRun.ops (F := Ideal)) (launchContents m' c) (Cert.ReferenceIdeal.main_call3_v9 : DevRef Cert.ReferenceIdeal.τ Cert.ReferenceIdeal.sig)) := by
  rw [Cert.KernelIdeal.KVals.val_main_call2_v9 m c, Cert.ReferenceIdeal.HandRun.val_main_call3_v9, sh_main_call2_v8 m m' c h1]

include h1 in
theorem sh_main_call2_v10 : (Cert.KernelIdeal.Gen.V m c Cert.KernelIdeal.main_call2_v10) = (after (Cert.ReferenceIdeal.HandRun.ops (F := Ideal)) (launchContents m' c) (Cert.ReferenceIdeal.main_call3_v10 : DevRef Cert.ReferenceIdeal.τ Cert.ReferenceIdeal.sig)) := by
  rw [Cert.KernelIdeal.KVals.val_main_call2_v10 m c, Cert.ReferenceIdeal.HandRun.val_main_call3_v10, sh_main_call2_v5 m m' c h1, sh_main_call2_v9 m m' c h1]

include h1 in
theorem sh_main_call2_v11 : (Cert.KernelIdeal.Gen.V m c Cert.KernelIdeal.main_call2_v11) = (after (Cert.ReferenceIdeal.HandRun.ops (F := Ideal)) (launchContents m' c) (Cert.ReferenceIdeal.main_call3_v11 : DevRef Cert.ReferenceIdeal.τ Cert.ReferenceIdeal.sig)) := by
  rw [Cert.KernelIdeal.KVals.val_main_call2_v11 m c, Cert.ReferenceIdeal.HandRun.val_main_call3_v11, sh_main_call2_v7 m m' c h1, sh_main_call2_v10 m m' c h1]

include h1 in
theorem sh_main_call2_c_3 : (Cert.KernelIdeal.Gen.V m c Cert.KernelIdeal.main_call2_c_3) = (after (Cert.ReferenceIdeal.HandRun.ops (F := Ideal)) (launchContents m' c) (Cert.ReferenceIdeal.main_call3_c_3 : DevRef Cert.ReferenceIdeal.τ Cert.ReferenceIdeal.sig)) := by
  rw [Cert.KernelIdeal.KVals.val_main_call2_c_3 m c, Cert.ReferenceIdeal.HandRun.val_main_call3_c_3]

include h1 in
theorem sh_main_call2_v12 : (Cert.KernelIdeal.Gen.V m c Cert.KernelIdeal.main_call2_v12) = (after (Cert.ReferenceIdeal.HandRun.ops (F := Ideal)) (launchContents m' c) (Cert.ReferenceIdeal.main_call3_v12 : DevRef Cert.ReferenceIdeal.τ Cert.ReferenceIdeal.sig)) := by
  rw [Cert.KernelIdeal.KVals.val_main_call2_v12 m c, Cert.ReferenceIdeal.HandRun.val_main_call3_v12, sh_main_call2_v11 m m' c h1, sh_main_call2_c_3 m m' c h1]

include h1 in
theorem sh_main_call2_v13 : (Cert.KernelIdeal.Gen.V m c Cert.KernelIdeal.main_call2_v13) = (after (Cert.ReferenceIdeal.HandRun.ops (F := Ideal)) (launchContents m' c) (Cert.ReferenceIdeal.main_call3_v13 : DevRef Cert.ReferenceIdeal.τ Cert.ReferenceIdeal.sig)) := by
  rw [Cert.KernelIdeal.KVals.val_main_call2_v13 m c, Cert.ReferenceIdeal.HandRun.val_main_call3_v13, sh_main_v2 m m' c h1, sh_main_call2_v5 m m' c h1]
  rw [gather_eq]

include h1 in
theorem sh_main_call2_c_4 : (Cert.KernelIdeal.Gen.V m c Cert.KernelIdeal.main_call2_c_4) = (after (Cert.ReferenceIdeal.HandRun.ops (F := Ideal)) (launchContents m' c) (Cert.ReferenceIdeal.main_call3_c_4 : DevRef Cert.ReferenceIdeal.τ Cert.ReferenceIdeal.sig)) := by
  rw [Cert.KernelIdeal.KVals.val_main_call2_c_4 m c, Cert.ReferenceIdeal.HandRun.val_main_call3_c_4]

include h1 in
theorem sh_main_call2_v14 : (Cert.KernelIdeal.Gen.V m c Cert.KernelIdeal.main_call2_v14) = (after (Cert.ReferenceIdeal.HandRun.ops (F := Ideal)) (launchContents m' c) (Cert.ReferenceIdeal.main_call3_v14 : DevRef Cert.ReferenceIdeal.τ Cert.ReferenceIdeal.sig)) := by
  rw [Cert.KernelIdeal.KVals.val_main_call2_v14 m c, Cert.ReferenceIdeal.HandRun.val_main_call3_v14, sh_main_call2_c_4 m m' c h1]

include h1 in
theorem sh_main_v9 : (Cert.KernelIdeal.Gen.V m c Cert.KernelIdeal.main_v9) = (after (Cert.ReferenceIdeal.HandRun.ops (F := Ideal)) (launchContents m' c) (Cert.ReferenceIdeal.main_v11 : DevRef Cert.ReferenceIdeal.τ Cert.ReferenceIdeal.sig)) := by
  rw [Cert.KernelIdeal.KVals.val_main_v9 m c, Cert.ReferenceIdeal.HandRun.val_main_v11, sh_main_call2_v12 m m' c h1, sh_main_call2_v13 m m' c h1, sh_main_call2_v14 m m' c h1]

end Cert.Shared

end
-- ==== Proof.HotSum.lean ====
/-
  Sums against a 0/1 selection: Σ_l [l is selected] · x(l) is x at the selected position when exactly one position is
  selected, and 0 when none is. On the extended reals 0 · x = 0 and 1 · x = x for every x, infinite or not, and a sum of
  zeros and one term is that term, so no finiteness is needed.
-/
import proofs.«139113_j90056874263205_2_alg».proof.Proof.KPay

noncomputable section

namespace Cert.HotSum

open Cert.KernelIdeal.Pay

/-- Words of numbers below 2^32 are equal only when the numbers are. -/
theorem ofNat_inj_small {k l : ℕ} (hk : k < 4294967296) (hl : l < 4294967296) (h : BitVec.ofNat 32 k = BitVec.ofNat 32 l) : k = l := by
  have := congrArg BitVec.toNat h
  simp only [BitVec.toNat_ofNat] at this
  rw [Nat.mod_eq_of_lt hk, Nat.mod_eq_of_lt hl] at this
  exact this

/-- If at most one position satisfies P, the selection sum is x at that position. -/
theorem sum_select_hit {n : ℕ} (P : Fin n → Prop) [DecidablePred P] (x : Fin n → EReal) (l0 : Fin n) (h0 : P l0)
    (huniq : ∀ l, P l → l = l0) : (∑ l : Fin n, (if P l then (1 : EReal) else 0) * x l) = x l0 := by
  rw [Finset.sum_eq_single l0]
  · rw [if_pos h0, one_mul]
  · intro l _ hl
    rw [if_neg (fun h => hl (huniq l h)), zero_mul]
  · intro h; exact absurd (Finset.mem_univ l0) h

/-- If no position satisfies P, the selection sum is 0. -/
theorem sum_select_miss {n : ℕ} (P : Fin n → Prop) [DecidablePred P] (x : Fin n → EReal)
    (hnone : ∀ l, ¬ P l) : (∑ l : Fin n, (if P l then (1 : EReal) else 0) * x l) = 0 :=
  Finset.sum_eq_zero fun l _ => by rw [if_neg (hnone l), zero_mul]

/-- A row selected by an index word: Σ_l [a = l] · x(l) = x(k) when the word a is the number k < 512. -/
theorem sum_hot_row (a : BitVec 32) (k : Fin 512) (ha : a = BitVec.ofNat 32 k.val) (x : Fin 512 → EReal) :
    (∑ l : Fin 512, hot a (BitVec.ofNat 32 l.val) * x l) = x k := by
  subst ha
  unfold hot
  refine sum_select_hit (fun l : Fin 512 => BitVec.ofNat 32 k.val = BitVec.ofNat 32 l.val) x k rfl fun l hl => ?_
  have hk := k.isLt
  have hl' := l.isLt
  exact Fin.ext (ofNat_inj_small (by omega) (by omega) hl).symm

end Cert.HotSum

end
-- ==== Proof.GApply.lean ====
/-
  The two output functions read at an index: the gathered array at (b, i, h), once the index word is known to be the
  number k < 512, is row k of the block times the scale; the scattered array at (b, r, h) is the sum over the rows.
-/
import proofs.«139113_j90056874263205_2_alg».proof.Proof.KValue
import proofs.«139113_j90056874263205_2_alg».proof.Proof.HotSum

noncomputable section

namespace Cert.KernelIdeal.KV

open Cert.KernelIdeal Idealize.ShloMosaic Idealize.ShloMosaic.ValueIdx Cert.KernelIdeal.Pay Cert.HotSum

theorem Gq_apply (x : S32x512x1024.Idx → EReal) (ix : S32x1x512.Idx → BitVec 32) (sc : S32x1x512.Idx → EReal)
    (b : Fin 32) (i : Fin 512) (h : Fin 1024) (k : Fin 512) (hk : ix (ix3 b (0 : Fin 1) i) = BitVec.ofNat 32 k.val) :
    Gq x ix sc (ix3 b i h) = x (ix3 b k h) * sc (ix3 b (0 : Fin 1) i) := by
  unfold Gq
  show (∑ l : Fin 512, hot (ix (ix3 b (0 : Fin 1) i)) (BitVec.ofNat 32 l.val) * x (ix3 b l h)) * sc (ix3 b (0 : Fin 1) i) = _
  rw [sum_hot_row _ k hk (fun l => x (ix3 b l h))]

theorem Gh_apply (x : S32x512x1024.Idx → EReal) (tg : S32x1x512.Idx → BitVec 32) (b : Fin 32) (r : Fin 384) (h : Fin 1024) :
    Gh x tg (ix3 b r h) = ∑ l : Fin 512, hot (tg (ix3 b (0 : Fin 1) l)) (BitVec.ofNat 32 r.val) * x (ix3 b l h) := rfl

end Cert.KernelIdeal.KV

end
-- ==== Proof.BridgeGather.lean ====
/-
  The first result. At (b, i, h) the reference reads row k of batch b of the input, where k is the i-th entry of the
  sort order, and scales it by the gathered mask; the kernel's one-hot product selects the same row, because its index
  word is that same k, and scales it by the same mask.
-/
import proofs.«139113_j90056874263205_2_alg».proof.Proof.KReads
import proofs.«139113_j90056874263205_2_alg».proof.Proof.RefReads
import proofs.«139113_j90056874263205_2_alg».proof.Proof.Shared
import proofs.«139113_j90056874263205_2_alg».proof.Proof.GApply

noncomputable section

namespace Cert.Bridge

open Idealize.ShloMosaic Idealize.ShloMosaic.TcCoe Idealize.SL.Sem Idealize.ShloMosaic.StableHlo Idealize.ShloMosaic.ValueIdx
open Cert.KernelIdeal.KV

theorem out1 (m : Cert.Shared.KM) (m' : Cert.Shared.RM) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (after (Cert.ReferenceIdeal.HandRun.ops (F := Ideal)) (launchContents m' c) (Cert.ReferenceIdeal.main_v15 : DevRef Cert.ReferenceIdeal.τ Cert.ReferenceIdeal.sig))
      = Gq (Cert.KernelIdeal.Gen.V m c Cert.KernelIdeal.main_arg0) (Cert.KernelIdeal.Gen.V m c Cert.KernelIdeal.main_v37) (Cert.KernelIdeal.Gen.V m c Cert.KernelIdeal.main_v38) := by
  funext j
  obtain ⟨b, i, h, rfl⟩ : ∃ (b : Fin 32) (i : Fin 512) (h : Fin 1024), j = ix3 b i h := ⟨j 0, j 1, j 2, eq_ix3 j⟩
  obtain ⟨k, hk⟩ := Cert.ReferenceIdeal.HandRun.read_v8 (launchContents m' c) b i
  have hordK : (Cert.KernelIdeal.Gen.V m c Cert.KernelIdeal.main_v37) (ix3 b (0 : Fin 1) i) = BitVec.ofNat 32 k.val := by
    rw [Cert.KernelIdeal.KReads.read_v37 m c b i, Cert.Shared.sh_main_v8 m m' c h1]
    exact hk
  rw [Gq_apply _ _ _ b i h k hordK, Cert.KernelIdeal.KReads.read_v38 m c b i, Cert.Shared.sh_main_v9 m m' c h1]
  rw [Cert.ReferenceIdeal.HandRun.read_v15, Cert.ReferenceIdeal.HandRun.read_v10 _ b i h k hk]
  rw [Cert.KernelIdeal.Gen.V_main_arg0, ← h0]

end Cert.Bridge

end
-- ==== Proof.LibRowSplit.lean ====
/-
  A block of 384 rows viewed as 32 groups of 12: the [32, 384, 1024] array cast to [32, 32, 12, 1024] reads, at
  (b, r, p, h), the operand at (b, 12·r + p, h) — both have the same row-major position.
-/
import Idealize.ShloMosaic.Lib.ValueIdx
import Idealize.ShloMosaic.Lib.Pipeline.Value

namespace Cert.LibRowSplit

open Idealize.ShloMosaic Idealize.ShloMosaic.ValueIdx

variable {α : Type}

/-- Row 12·r + p of 384, for r < 32 and p < 12. -/
def row384 (r : Fin 32) (p : Fin 12) : Fin 384 := ⟨r.val * 12 + p.val, by have := r.isLt; have := p.isLt; omega⟩

theorem shapeCast_384_32x12_apply (x : (⟨3, ![32, 384, 1024]⟩ : Shape).Idx → α)
    (h : (⟨3, ![32, 384, 1024]⟩ : Shape).ShapeCasts ⟨4, ![32, 32, 12, 1024]⟩) (b : Fin 32) (r : Fin 32) (p : Fin 12) (hh : Fin 1024) :
    shapeCast ⟨4, ![32, 32, 12, 1024]⟩ x h (ix4 b r p hh) = x (ix3 b (row384 r p) hh) :=
  shapeCast_apply x h _ _ (by
    rw [Shape.rowMajor_val_three, Shape.rowMajor_val_four]
    show (b.val * 384 + (r.val * 12 + p.val)) * 1024 + hh.val = ((b.val * 32 + r.val) * 12 + p.val) * 1024 + hh.val
    omega)

end Cert.LibRowSplit
-- ==== Proof.Slots.lean ====
/-
  The header slots, abstractly. A row l of batch b "hits" slot (r, p) when it is a valid header token of run r at
  offset p. At most one row hits a slot. The kernel adds up the rows whose target word is 12·r + p — exactly the rows
  that hit (r, p) —, and the reference writes each row into the slot its coordinates name, starting from zeros — again
  exactly the rows that hit, every other row going to a different slot or to the extra row that is cut away. So both
  give the hitting row's entry, or 0 when no row hits.
-/
import proofs.«139113_j90056874263205_2_alg».proof.Proof.HotSum
import proofs.«139113_j90056874263205_2_alg».proof.Proof.LibScatterRows
import proofs.«139113_j90056874263205_2_alg».proof.Proof.LibRowSplit

noncomputable section

namespace Cert.Slots

open Idealize.ShloMosaic Idealize.ShloMosaic.ValueIdx Cert.KernelIdeal.Pay Cert.HotSum Cert.ScatterRows Cert.LibRowSplit

abbrev R2 : Shape := ⟨2, ![32, 512]⟩

/-- Row l of batch b is a valid header token of run r at offset p. -/
def Hit (valid : IVec R2 1) (runId pos : IVec R2 32) (b : Fin 32) (l : Fin 512) (r : Fin 32) (p : Fin 12) : Prop :=
  valid (ix2 b l) = 1#1 ∧ runId (ix2 b l) = BitVec.ofNat 32 r.val ∧ pos (ix2 b l) = BitVec.ofNat 32 p.val

/-- Row r of the 33-row scattered axis, for r < 32. -/
def r33 (r : Fin 32) : Fin 33 := ⟨r.val, by have := r.isLt; omega⟩

variable (valid : IVec R2 1) (runId pos rowt : IVec R2 32)
  (hrow : ∀ (b : Fin 32) (l : Fin 512) (r : Fin 32) (p : Fin 12),
    rowt (ix2 b l) = BitVec.ofNat 32 (r.val * 12 + p.val) ↔ Hit valid runId pos b l r p)
  (hinj : ∀ (b : Fin 32) (l1 l2 : Fin 512), valid (ix2 b l1) = 1#1 → valid (ix2 b l2) = 1#1 →
    runId (ix2 b l1) = runId (ix2 b l2) → pos (ix2 b l1) = pos (ix2 b l2) → l1 = l2)
  (idx : IVec SI 32)
  (htg : ∀ (b' b : Fin 32) (l' : Fin 512) (r : Fin 32) (p : Fin 12),
    Targets idx b' l' b (r33 r) p ↔ b' = b ∧ Hit valid runId pos b l' r p)
  (d : ScatterDims SO SI SU) (h1 : d.updateWindowDims = [2]) (h2 : d.insertedWindowDims = [0, 1, 2])
  (h3 : d.scatterDimsToOperandDims = [0, 1, 2]) (h4 : d.indexVectorDim = 2)
  (z : SO.Idx → EReal) (hz : ∀ j, z j = 0) (x : SU.Idx → EReal)

include hinj in
theorem hit_unique (b : Fin 32) (r : Fin 32) (p : Fin 12) (l l0 : Fin 512)
    (hl : Hit valid runId pos b l r p) (hl0 : Hit valid runId pos b l0 r p) : l = l0 :=
  hinj b l l0 hl.1 hl0.1 (hl.2.1.trans hl0.2.1.symm) (hl.2.2.trans hl0.2.2.symm)

include hrow hinj htg h1 h2 h3 h4 hz in
/-- The kernel's sum of the rows whose target word is 12·r + p is the reference's scattered entry at (b, r, p, h). -/
theorem slot_eq (b : Fin 32) (r : Fin 32) (p : Fin 12) (hh : Fin 1024) :
    (∑ l : Fin 512, hot (rowt (ix2 b l)) (BitVec.ofNat 32 (row384 r p).val) * x (ix3 b l hh))
      = Host.scatter d (fun _ u => u) z idx x (ix4 b (r33 r) p hh) := by
  classical
  have hsum : (∑ l : Fin 512, hot (rowt (ix2 b l)) (BitVec.ofNat 32 (row384 r p).val) * x (ix3 b l hh))
      = ∑ l : Fin 512, (if Hit valid runId pos b l r p then (1 : EReal) else 0) * x (ix3 b l hh) :=
    Finset.sum_congr rfl fun l _ => by
      unfold hot
      exact congrArg (· * x (ix3 b l hh)) (if_congr (hrow b l r p) rfl rfl)
  rw [hsum]
  by_cases hex : ∃ l0, Hit valid runId pos b l0 r p
  · obtain ⟨l0, hl0⟩ := hex
    rw [sum_select_hit (fun l => Hit valid runId pos b l r p) (fun l => x (ix3 b l hh)) l0 hl0
      (fun l hl => hit_unique valid runId pos hinj b r p l l0 hl hl0)]
    exact (scatter_set_hit d h1 h2 h3 h4 z idx x b (r33 r) p hh b l0 ((htg b b l0 r p).2 ⟨rfl, hl0⟩)
      (fun b' l' ht => by
        obtain ⟨hb, hl'⟩ := (htg b' b l' r p).1 ht
        exact ⟨hb, hit_unique valid runId pos hinj b r p l' l0 hl' hl0⟩)).symm
  · rw [sum_select_miss (fun l => Hit valid runId pos b l r p) (fun l => x (ix3 b l hh)) (fun l hl => hex ⟨l, hl⟩)]
    rw [scatter_set_miss d h1 h2 h3 h4 z idx x b (r33 r) p hh (fun b' l' ht => hex ⟨l', ((htg b' b l' r p).1 ht).2⟩)]
    exact (hz _).symm

end Cert.Slots

end
-- ==== Proof.BridgeHeaders.lean ====
/-
  The second result of the two programs agrees: the reference scatters each row of the first argument to the slot
  `(run, offset)` its bookkeeping arrays name (invalid rows to an extra 33rd run that is then cut away), from zeros;
  the kernel sums, for each slot, the rows whose target word `12 · run + offset` names it. Both programs compute the
  bookkeeping arrays by the same steps from the same segment words, so the arrays agree; within a batch a slot is hit
  by at most one row; hence both give that row's entry, or zero.
-/
import proofs.«139113_j90056874263205_2_alg».proof.Proof.KReads
import proofs.«139113_j90056874263205_2_alg».proof.Proof.RefReads
import proofs.«139113_j90056874263205_2_alg».proof.Proof.RunSlots
import proofs.«139113_j90056874263205_2_alg».proof.Proof.Slots
import proofs.«139113_j90056874263205_2_alg».proof.Proof.LibRowSplit
import proofs.«139113_j90056874263205_2_alg».proof.Proof.GApply
import Idealize.ShloMosaic.Lib.Pipeline.Value

set_option maxRecDepth 16384

noncomputable section

namespace Cert.Bridge

open Idealize.ShloMosaic Idealize.ShloMosaic.TcCoe Idealize.SL.Sem Idealize.ShloMosaic.StableHlo
open Idealize.ShloMosaic.ValueIdx Cert.Slots Cert.LibRowSplit Cert.ScatterRows

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)

/-- The reference's run-slot arrays, over the kernel's segment words (the two programs are launched on the same
    segment array). -/
theorem hypsR
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.RunSlots.Hyps (Cert.KernelIdeal.Gen.V m c Cert.KernelIdeal.main_arg1) (after (Cert.ReferenceIdeal.HandRun.ops (F := Ideal)) (launchContents m' c) (Cert.ReferenceIdeal.main_v17 : DevRef Cert.ReferenceIdeal.τ Cert.ReferenceIdeal.sig)) (after (Cert.ReferenceIdeal.HandRun.ops (F := Ideal)) (launchContents m' c) (Cert.ReferenceIdeal.main_v19 : DevRef Cert.ReferenceIdeal.τ Cert.ReferenceIdeal.sig)) (after (Cert.ReferenceIdeal.HandRun.ops (F := Ideal)) (launchContents m' c) (Cert.ReferenceIdeal.main_v21 : DevRef Cert.ReferenceIdeal.τ Cert.ReferenceIdeal.sig)) (after (Cert.ReferenceIdeal.HandRun.ops (F := Ideal)) (launchContents m' c) (Cert.ReferenceIdeal.main_v37 : DevRef Cert.ReferenceIdeal.τ Cert.ReferenceIdeal.sig))
      (after (Cert.ReferenceIdeal.HandRun.ops (F := Ideal)) (launchContents m' c) (Cert.ReferenceIdeal.main_v22 : DevRef Cert.ReferenceIdeal.τ Cert.ReferenceIdeal.sig)) (after (Cert.ReferenceIdeal.HandRun.ops (F := Ideal)) (launchContents m' c) (Cert.ReferenceIdeal.main_v23 : DevRef Cert.ReferenceIdeal.τ Cert.ReferenceIdeal.sig)) (after (Cert.ReferenceIdeal.HandRun.ops (F := Ideal)) (launchContents m' c) (Cert.ReferenceIdeal.main_v25 : DevRef Cert.ReferenceIdeal.τ Cert.ReferenceIdeal.sig)) (after (Cert.ReferenceIdeal.HandRun.ops (F := Ideal)) (launchContents m' c) (Cert.ReferenceIdeal.main_v27 : DevRef Cert.ReferenceIdeal.τ Cert.ReferenceIdeal.sig)) (after (Cert.ReferenceIdeal.HandRun.ops (F := Ideal)) (launchContents m' c) (Cert.ReferenceIdeal.main_v28 : DevRef Cert.ReferenceIdeal.τ Cert.ReferenceIdeal.sig)) (after (Cert.ReferenceIdeal.HandRun.ops (F := Ideal)) (launchContents m' c) (Cert.ReferenceIdeal.main_v31 : DevRef Cert.ReferenceIdeal.τ Cert.ReferenceIdeal.sig))
      (after (Cert.ReferenceIdeal.HandRun.ops (F := Ideal)) (launchContents m' c) (Cert.ReferenceIdeal.main_call5_call0_v0 : DevRef Cert.ReferenceIdeal.τ Cert.ReferenceIdeal.sig)) (after (Cert.ReferenceIdeal.HandRun.ops (F := Ideal)) (launchContents m' c) (Cert.ReferenceIdeal.main_call7_v0 : DevRef Cert.ReferenceIdeal.τ Cert.ReferenceIdeal.sig))
      Cert.ReferenceIdeal.Facts₀.reduceWindows_S32x512_S32x512_w1s1p0_0_w512s1p511_0 Cert.ReferenceIdeal.Facts₀.h_S_ := by
  have hR := Cert.ReferenceIdeal.HandRun.hyps (launchContents m' c)
  have hseg : launchContents m' c (Cert.ReferenceIdeal.main_arg1 : DevRef Cert.ReferenceIdeal.τ Cert.ReferenceIdeal.sig)
      = (Cert.KernelIdeal.Gen.V m c Cert.KernelIdeal.main_arg1) := h1.trans (Cert.KernelIdeal.Gen.V_main_arg1 m c).symm
  exact ⟨fun j => (hR.h_isH j).trans (by rw [hseg]), hR.h_prev0, hR.h_prevS, hR.h_rs, hR.h_rsI, hR.hz0, hR.hzmin,
    hR.h_cs, hR.h_runId, hR.h_wv, hR.h_cm, hR.h_pos, hR.h_valid⟩

/-- The kernel's validity mark, run number and offset are the reference's. -/
theorem same_slots
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v32) = (after (Cert.ReferenceIdeal.HandRun.ops (F := Ideal)) (launchContents m' c) (Cert.ReferenceIdeal.main_v37 : DevRef Cert.ReferenceIdeal.τ Cert.ReferenceIdeal.sig)) ∧ (Cert.KernelIdeal.Gen.V m c Cert.KernelIdeal.main_v20) = (after (Cert.ReferenceIdeal.HandRun.ops (F := Ideal)) (launchContents m' c) (Cert.ReferenceIdeal.main_v25 : DevRef Cert.ReferenceIdeal.τ Cert.ReferenceIdeal.sig)) ∧ (Cert.KernelIdeal.Gen.V m c Cert.KernelIdeal.main_v26) = (after (Cert.ReferenceIdeal.HandRun.ops (F := Ideal)) (launchContents m' c) (Cert.ReferenceIdeal.main_v31 : DevRef Cert.ReferenceIdeal.τ Cert.ReferenceIdeal.sig)) :=
  (Cert.KernelIdeal.KReads.hyps m c).unique (hypsR m m' c h1)

/-- The kernel's target word names the slot `(r, p)` exactly at the rows that hit it (in the reference's arrays). -/
theorem hrow
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (b : Fin 32) (l : Fin 512) (r : Fin 32) (p : Fin 12) :
    (Cert.KernelIdeal.Gen.V m c Cert.KernelIdeal.main_v36) (ix2 b l) = BitVec.ofNat 32 (r.val * 12 + p.val) ↔
      Hit (after (Cert.ReferenceIdeal.HandRun.ops (F := Ideal)) (launchContents m' c) (Cert.ReferenceIdeal.main_v37 : DevRef Cert.ReferenceIdeal.τ Cert.ReferenceIdeal.sig)) (after (Cert.ReferenceIdeal.HandRun.ops (F := Ideal)) (launchContents m' c) (Cert.ReferenceIdeal.main_v25 : DevRef Cert.ReferenceIdeal.τ Cert.ReferenceIdeal.sig)) (after (Cert.ReferenceIdeal.HandRun.ops (F := Ideal)) (launchContents m' c) (Cert.ReferenceIdeal.main_v31 : DevRef Cert.ReferenceIdeal.τ Cert.ReferenceIdeal.sig)) b l r p := by
  obtain ⟨eV, eR, eP⟩ := same_slots m m' c h1
  unfold Hit
  rw [← eV, ← eR, ← eP]
  exact Cert.RunSlots.rowt_eq_iff (Cert.KernelIdeal.KReads.hyps m c) (Cert.KernelIdeal.Gen.V m c Cert.KernelIdeal.main_v36)
    (Cert.KernelIdeal.KReads.rowt_pointwise m c) b l r p

/-- An update row targets `(b, r, p)`, `r < 32`, exactly when it is a row of batch `b` that hits `(r, p)`. -/
theorem htg (b' b : Fin 32) (l' : Fin 512) (r : Fin 32) (p : Fin 12) :
    Targets (after (Cert.ReferenceIdeal.HandRun.ops (F := Ideal)) (launchContents m' c) (Cert.ReferenceIdeal.main_v62 : DevRef Cert.ReferenceIdeal.τ Cert.ReferenceIdeal.sig)) b' l' b (r33 r) p ↔
      b' = b ∧ Hit (after (Cert.ReferenceIdeal.HandRun.ops (F := Ideal)) (launchContents m' c) (Cert.ReferenceIdeal.main_v37 : DevRef Cert.ReferenceIdeal.τ Cert.ReferenceIdeal.sig)) (after (Cert.ReferenceIdeal.HandRun.ops (F := Ideal)) (launchContents m' c) (Cert.ReferenceIdeal.main_v25 : DevRef Cert.ReferenceIdeal.τ Cert.ReferenceIdeal.sig)) (after (Cert.ReferenceIdeal.HandRun.ops (F := Ideal)) (launchContents m' c) (Cert.ReferenceIdeal.main_v31 : DevRef Cert.ReferenceIdeal.τ Cert.ReferenceIdeal.sig)) b l' r p := by
  have hR := Cert.ReferenceIdeal.HandRun.hyps (launchContents m' c)
  have hc := fun bb => Cert.RunSlots.coords_eq_iff hR (after (Cert.ReferenceIdeal.HandRun.ops (F := Ideal)) (launchContents m' c) (Cert.ReferenceIdeal.main_v38 : DevRef Cert.ReferenceIdeal.τ Cert.ReferenceIdeal.sig)) (after (Cert.ReferenceIdeal.HandRun.ops (F := Ideal)) (launchContents m' c) (Cert.ReferenceIdeal.main_v39 : DevRef Cert.ReferenceIdeal.τ Cert.ReferenceIdeal.sig)) (after (Cert.ReferenceIdeal.HandRun.ops (F := Ideal)) (launchContents m' c) (Cert.ReferenceIdeal.main_v52 : DevRef Cert.ReferenceIdeal.τ Cert.ReferenceIdeal.sig)) (after (Cert.ReferenceIdeal.HandRun.ops (F := Ideal)) (launchContents m' c) (Cert.ReferenceIdeal.main_v57 : DevRef Cert.ReferenceIdeal.τ Cert.ReferenceIdeal.sig))
    (Cert.ReferenceIdeal.HandRun.read_v38 (launchContents m' c)) (Cert.ReferenceIdeal.HandRun.read_v39 (launchContents m' c))
    (Cert.ReferenceIdeal.HandRun.read_v52 (launchContents m' c)) (Cert.ReferenceIdeal.HandRun.read_v57 (launchContents m' c))
    bb l' r p
  rw [Cert.ReferenceIdeal.HandRun.targets_iff (launchContents m' c) b' b l' (r33 r) p]
  unfold Hit
  constructor
  · rintro ⟨rfl, e1, e2⟩
    exact ⟨rfl, (hc b').1 ⟨e1, e2⟩⟩
  · rintro ⟨rfl, hh⟩
    exact ⟨rfl, ((hc b').2 hh).1, ((hc b').2 hh).2⟩

/-- The second result: the reference's scattered rows, cut to 32 runs, are the kernel's sums over the rows whose
    target word names the slot, viewed `[32, 32, 12, 1024]`. -/
theorem out2
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    after (Cert.ReferenceIdeal.HandRun.ops (F := Ideal)) (launchContents m' c) (Cert.ReferenceIdeal.main_v64 : DevRef Cert.ReferenceIdeal.τ Cert.ReferenceIdeal.sig)
      = shapeCast Cert.KernelIdeal.S32x32x12x1024 (Cert.KernelIdeal.KV.Gh (Cert.KernelIdeal.Gen.V m c Cert.KernelIdeal.main_arg0) (Cert.KernelIdeal.Gen.V m c Cert.KernelIdeal.main_v39)) Cert.KernelIdeal.Facts₀.shapeCasts_S32x384x1024_S32x32x12x1024 := by
  funext j
  obtain ⟨b, r, p, hh, rfl⟩ : ∃ (b : Fin 32) (r : Fin 32) (p : Fin 12) (hh : Fin 1024), j = ix4 b r p hh :=
    ⟨j 0, j 1, j 2, j 3, eq_ix4 j⟩
  have hx : (Cert.KernelIdeal.Gen.V m c Cert.KernelIdeal.main_arg0) = (launchContents m' c (Cert.ReferenceIdeal.main_arg0 : DevRef Cert.ReferenceIdeal.τ Cert.ReferenceIdeal.sig)) := (Cert.KernelIdeal.Gen.V_main_arg0 m c).trans h0.symm
  -- the kernel's side: the sum over the rows whose target word is 12 r + p
  have hK : shapeCast Cert.KernelIdeal.S32x32x12x1024 (Cert.KernelIdeal.KV.Gh (Cert.KernelIdeal.Gen.V m c Cert.KernelIdeal.main_arg0) (Cert.KernelIdeal.Gen.V m c Cert.KernelIdeal.main_v39))
      Cert.KernelIdeal.Facts₀.shapeCasts_S32x384x1024_S32x32x12x1024 (ix4 b r p hh)
      = ∑ l : Fin 512, Cert.KernelIdeal.Pay.hot ((Cert.KernelIdeal.Gen.V m c Cert.KernelIdeal.main_v36) (ix2 b l)) (BitVec.ofNat 32 (row384 r p).val)
          * (launchContents m' c (Cert.ReferenceIdeal.main_arg0 : DevRef Cert.ReferenceIdeal.τ Cert.ReferenceIdeal.sig)) (ix3 b l hh) := by
    rw [shapeCast_384_32x12_apply, Cert.KernelIdeal.KV.Gh_apply]
    refine Finset.sum_congr rfl fun l _ => ?_
    rw [Cert.KernelIdeal.KReads.read_v39 m c b l, hx]
  -- the reference's side: the scatter read at row r of 33
  have hRf : (after (Cert.ReferenceIdeal.HandRun.ops (F := Ideal)) (launchContents m' c) (Cert.ReferenceIdeal.main_v64 : DevRef Cert.ReferenceIdeal.τ Cert.ReferenceIdeal.sig)) (ix4 b r p hh)
      = Host.scatter Cert.ReferenceIdeal.scatter_S32x33x12x1024_S32x512x3_S32x512x1024_2_012_012_2 (fun _ u => u)
          (after (Cert.ReferenceIdeal.HandRun.ops (F := Ideal)) (launchContents m' c) (Cert.ReferenceIdeal.main_v40 : DevRef Cert.ReferenceIdeal.τ Cert.ReferenceIdeal.sig)) (after (Cert.ReferenceIdeal.HandRun.ops (F := Ideal)) (launchContents m' c) (Cert.ReferenceIdeal.main_v62 : DevRef Cert.ReferenceIdeal.τ Cert.ReferenceIdeal.sig)) (launchContents m' c (Cert.ReferenceIdeal.main_arg0 : DevRef Cert.ReferenceIdeal.τ Cert.ReferenceIdeal.sig)) (ix4 b (r33 r) p hh) := by
    rw [Cert.ReferenceIdeal.HandRun.val_main_v64]
    refine (extractStridedSlice_apply _ _ _ _ (ix4 b (r33 r) p hh) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm)).trans ?_
    rw [Cert.ReferenceIdeal.HandRun.val_main_v63, Cert.ReferenceIdeal.HandRun.val_main_arg0]
    rfl
  rw [hRf, hK]
  exact (slot_eq (after (Cert.ReferenceIdeal.HandRun.ops (F := Ideal)) (launchContents m' c) (Cert.ReferenceIdeal.main_v37 : DevRef Cert.ReferenceIdeal.τ Cert.ReferenceIdeal.sig)) (after (Cert.ReferenceIdeal.HandRun.ops (F := Ideal)) (launchContents m' c) (Cert.ReferenceIdeal.main_v25 : DevRef Cert.ReferenceIdeal.τ Cert.ReferenceIdeal.sig)) (after (Cert.ReferenceIdeal.HandRun.ops (F := Ideal)) (launchContents m' c) (Cert.ReferenceIdeal.main_v31 : DevRef Cert.ReferenceIdeal.τ Cert.ReferenceIdeal.sig)) (Cert.KernelIdeal.Gen.V m c Cert.KernelIdeal.main_v36)
    (hrow m m' c h1)
    (fun b l1 l2 => Cert.RunSlots.slot_inj (Cert.ReferenceIdeal.HandRun.hyps (launchContents m' c)) b l1 l2)
    (after (Cert.ReferenceIdeal.HandRun.ops (F := Ideal)) (launchContents m' c) (Cert.ReferenceIdeal.main_v62 : DevRef Cert.ReferenceIdeal.τ Cert.ReferenceIdeal.sig)) (htg m' c)
    Cert.ReferenceIdeal.scatter_S32x33x12x1024_S32x512x3_S32x512x1024_2_012_012_2 rfl rfl rfl rfl
    (after (Cert.ReferenceIdeal.HandRun.ops (F := Ideal)) (launchContents m' c) (Cert.ReferenceIdeal.main_v40 : DevRef Cert.ReferenceIdeal.τ Cert.ReferenceIdeal.sig)) (Cert.ReferenceIdeal.HandRun.read_v40 (launchContents m' c)) (launchContents m' c (Cert.ReferenceIdeal.main_arg0 : DevRef Cert.ReferenceIdeal.τ Cert.ReferenceIdeal.sig)) b r p hh).symm

end Cert.Bridge
-- ==== Proof.lean ====
/-
  The kernel unpacks a batch of encoder rows in two ways, and so does its reference.

  QUESTION TOKENS. Per batch, the positions whose segment word is 2 are moved to the front by a stable sort of the
  keys (position, or 512 + position for the other tokens); the i-th output row is the input row at the i-th entry of
  that order, times 1 or 0 according to whether that entry is a question token. The reference reads the row with a
  gather; the kernel multiplies the block of 512 rows by the 0/1 matrix with a one at (i, order i). Row i of that
  product is Σ_l [order i = l] · x(l, ·) = x(order i, ·): a one-hot sum, exact on the extended reals because 0 · x = 0
  and 1 · x = x for every x. Both scale the row by the same gathered mask.

  HEADER TOKENS. A header run is a maximal stretch of positions whose segment word is 1. A header token at position l
  lies in run number c(l) − 1, where c counts the run starts up to l (a cumulative sum), at offset l − s(l), where s is
  the latest run start up to l (a cumulative maximum); it is valid when the offset is below 12 and the run number
  below 32. Two valid tokens of one batch with the same run number and the same offset are the same token: equal
  counts mean no run starts between them, hence the same latest start, hence equal positions. So every slot
  (run r, offset p) is hit by at most one row. The reference writes each valid row into its slot of an array of zeros
  (every other row goes to an extra run 32 that is cut away); the kernel adds up, per slot 12·r + p, the rows whose
  target word is that number. Both give the hitting row, or 0 when no row hits, and the kernel's 384 rows per batch are
  the reference's 32 × 12 under a change of shape.

  Neither argument uses finiteness of the input: the only algebra is 0 · x = 0, 1 · x = x and sums with one non-zero
  term. The frames of the two kernel programs are the generated ones; the reference's run is read off its list of
  operations. The idealization rewrote nothing, so the preservation claim is trivial.
-/
import proofs.«139113_j90056874263205_2_alg».proof.Defs
import proofs.«139113_j90056874263205_2_alg».proof.Proof.Gen.Kernel
import proofs.«139113_j90056874263205_2_alg».proof.Proof.Gen.Kernel.Skeleton
import proofs.«139113_j90056874263205_2_alg».proof.Proof.Gen.Kernel.Launch
import proofs.«139113_j90056874263205_2_alg».proof.Proof.Gen.Kernel.Points
import proofs.«139113_j90056874263205_2_alg».proof.Proof.Gen.Kernel.Frame
import proofs.«139113_j90056874263205_2_alg».proof.Proof.Gen.KernelIdeal
import proofs.«139113_j90056874263205_2_alg».proof.Proof.Gen.KernelIdeal.Skeleton
import proofs.«139113_j90056874263205_2_alg».proof.Proof.Gen.KernelIdeal.Launch
import proofs.«139113_j90056874263205_2_alg».proof.Proof.Gen.KernelIdeal.Points
import proofs.«139113_j90056874263205_2_alg».proof.Proof.Gen.KernelIdeal.Frame
import proofs.«139113_j90056874263205_2_alg».proof.Proof.Gen.ReferenceIdeal
import proofs.«139113_j90056874263205_2_alg».proof.Proof.Gen.Pre_finite_inputs
import proofs.«139113_j90056874263205_2_alg».proof.Proof.RefRun
import proofs.«139113_j90056874263205_2_alg».proof.Proof.RefVals
import proofs.«139113_j90056874263205_2_alg».proof.Proof.KRun
import proofs.«139113_j90056874263205_2_alg».proof.Proof.BridgeGather
import proofs.«139113_j90056874263205_2_alg».proof.Proof.BridgeHeaders
import Idealize.ShloMosaic.Adequacy
import Idealize.ShloMosaic.Init

noncomputable section

namespace Cert.Proof

open Idealize.ShloMosaic Idealize.ShloMosaic.TcCoe Idealize.SL.Sem Idealize.ShloMosaic.StableHlo
open Cert.KernelIdeal.KV

/-- The kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and nothing in its list of operations writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.HandRun.val_main_arg0 _),
      (h c Cert.ReferenceIdeal.main_arg1).trans (Cert.ReferenceIdeal.HandRun.val_main_arg1 _)⟩)
    (Cert.ReferenceIdeal.HandRun.run_main (F := Ideal) m ρ)

/-- The idealization rewrote no operation. -/
theorem preserves : Cert.preserves_Kernel_KernelIdeal := trivial

/-- From memories that agree on the arguments both idealized programs run to the same two results: the gathered and
    scaled question rows, and the header slots. -/
theorem algebraic : Cert.algebraic_KernelIdeal_ReferenceIdeal := by
  intro m ρ m' ρ' _ hagree
  refine ⟨fun c => Gq (Cert.KernelIdeal.Gen.V m c Cert.KernelIdeal.main_arg0) (Cert.KernelIdeal.Gen.V m c Cert.KernelIdeal.main_v37)
        (Cert.KernelIdeal.Gen.V m c Cert.KernelIdeal.main_v38),
    fun c => shapeCast Cert.KernelIdeal.S32x32x12x1024
        (Gh (Cert.KernelIdeal.Gen.V m c Cert.KernelIdeal.main_arg0) (Cert.KernelIdeal.Gen.V m c Cert.KernelIdeal.main_v39))
        Cert.KernelIdeal.Facts₀.shapeCasts_S32x384x1024_S32x32x12x1024,
    Cert.KernelIdeal.KV.run m ρ, ?_⟩
  refine (θ_run Cert.ReferenceIdeal.defs _ _).mono
    (fun _ h c => ⟨(h c Cert.ReferenceIdeal.main_v15).trans (Cert.Bridge.out1 m m' c (hagree c).1 (hagree c).2),
      (h c Cert.ReferenceIdeal.main_v64).trans (Cert.Bridge.out2 m m' c (hagree c).1 (hagree c).2),
      (h c Cert.ReferenceIdeal.main_arg0).trans (Cert.ReferenceIdeal.HandRun.val_main_arg0 _),
      (h c Cert.ReferenceIdeal.main_arg1).trans (Cert.ReferenceIdeal.HandRun.val_main_arg1 _)⟩)
    (Cert.ReferenceIdeal.HandRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
